-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x96x96 : Shape := ⟨4, ![1, 1, 96, 96]⟩
abbrev S_ : Shape := ⟨0, ![]⟩

class Facts : Prop where
  bcast_S_S1x1x96x96 : S_.BroadcastsInDim S1x1x96x96 (![] : Fin 0 → Fin S1x1x96x96.rank)
  reducesTo_S1x1x96x96_S_d0_1_2_3 : S1x1x96x96.ReducesTo [0, 1, 2, 3] S_
  h_S_ : 0 < S_.numel

variable [Facts]

def fn {F : FTy → Type} [FloatOps F] (main_arg0 : FVec F S1x1x96x96 .f32) : IVec S_ 1 :=
  let main_v0 : FVec F S1x1x96x96 .f32 := Host.absf main_arg0
  let main_cst : FVec F S_ .f32 := constant S_ .f32 0x7F800000#32
  let main_v1 : FVec F S1x1x96x96 .f32 := broadcastInDim S1x1x96x96 ![] bcast_S_S1x1x96x96 main_cst
  let main_v2 : IVec S1x1x96x96 1 := cmpf .olt main_v0 main_v1
  let main_c : IVec S_ 1 := constantI S_ 1 1#1
  let main_v3 : IVec S_ 1 := (fun x v => Host.reduce IntOp.andi x v reducesTo_S1x1x96x96_S_d0_1_2_3 h_S_) main_v2 main_c
  main_v3
-- ==== Kernel.lean ====
abbrev S1x1x96x96 : Shape := ⟨4, ![1, 1, 96, 96]⟩
abbrev S_ : Shape := ⟨0, ![]⟩
abbrev S9216 : Shape := ⟨1, ![9216]⟩
abbrev S1x9216 : Shape := ⟨2, ![1, 9216]⟩
abbrev S9217x9216 : Shape := ⟨2, ![9217, 9216]⟩
abbrev S128x9216 : Shape := ⟨2, ![128, 9216]⟩
abbrev S1x9217x1x96x96 : Shape := ⟨5, ![1, 9217, 1, 96, 96]⟩

abbrev nBuf : Space → Nat
  | .hbm => 43
  | .vmem => 5
  | .smem => 0
  | _ => 0

abbrev bufTy : (tb : Table) → Fin (tcTables nBuf tb) → BufTy
  | .hbm, ⟨0, _⟩ => ⟨S1x1x96x96, .f32⟩
  | .hbm, ⟨1, _⟩ => ⟨S_, .f32⟩
  | .hbm, ⟨2, _⟩ => ⟨S1x1x96x96, .f32⟩
  | .hbm, ⟨3, _⟩ => ⟨S1x1x96x96, .f32⟩
  | .hbm, ⟨4, _⟩ => ⟨S_, .f32⟩
  | .hbm, ⟨5, _⟩ => ⟨S1x1x96x96, .f32⟩
  | .hbm, ⟨6, _⟩ => ⟨S1x1x96x96, .f32⟩
  | .hbm, ⟨7, _⟩ => ⟨S_, .f32⟩
  | .hbm, ⟨8, _⟩ => ⟨S1x1x96x96, .f32⟩
  | .hbm, ⟨9, _⟩ => ⟨S1x1x96x96, .f32⟩
  | .hbm, ⟨10, _⟩ => ⟨S_, .f32⟩
  | .hbm, ⟨11, _⟩ => ⟨S1x1x96x96, .f32⟩
  | .hbm, ⟨12, _⟩ => ⟨S1x1x96x96, .f32⟩
  | .hbm, ⟨13, _⟩ => ⟨S_, .f32⟩
  | .hbm, ⟨14, _⟩ => ⟨S1x1x96x96, .f32⟩
  | .hbm, ⟨15, _⟩ => ⟨S1x1x96x96, .f32⟩
  | .hbm, ⟨16, _⟩ => ⟨S_, .f32⟩
  | .hbm, ⟨17, _⟩ => ⟨S1x1x96x96, .f32⟩
  | .hbm, ⟨18, _⟩ => ⟨S1x1x96x96, .f32⟩
  | .hbm, ⟨19, _⟩ => ⟨S1x1x96x96, .f32⟩
  | .hbm, ⟨20, _⟩ => ⟨S1x1x96x96, .f32⟩
  | .hbm, ⟨21, _⟩ => ⟨S_, .f32⟩
  | .hbm, ⟨22, _⟩ => ⟨S1x1x96x96, .f32⟩
  | .hbm, ⟨23, _⟩ => ⟨S1x1x96x96, .f32⟩
  | .hbm, ⟨24, _⟩ => ⟨S1x1x96x96, .f32⟩
  | .hbm, ⟨25, _⟩ => ⟨S9216, .f32⟩
  | .hbm, ⟨26, _⟩ => ⟨S_, .f32⟩
  | .hbm, ⟨27, _⟩ => ⟨S9216, .f32⟩
  | .hbm, ⟨28, _⟩ => ⟨S9216, .i1⟩
  | .hbm, ⟨29, _⟩ => ⟨S9216, .i32⟩
  | .hbm, ⟨30, _⟩ => ⟨S_, .i32⟩
  | .hbm, ⟨31, _⟩ => ⟨S_, .i32⟩
  | .hbm, ⟨32, _⟩ => ⟨S9216, .i32⟩
  | .hbm, ⟨33, _⟩ => ⟨S_, .i32⟩
  | .hbm, ⟨34, _⟩ => ⟨S_, .i32⟩
  | .hbm, ⟨35, _⟩ => ⟨S9216, .i32⟩
  | .hbm, ⟨36, _⟩ => ⟨S9216, .i32⟩
  | .hbm, ⟨37, _⟩ => ⟨S9216, .f32⟩
  | .hbm, ⟨38, _⟩ => ⟨S1x9216, .i32⟩
  | .hbm, ⟨39, _⟩ => ⟨S1x9216, .f32⟩
  | .hbm, ⟨40, _⟩ => ⟨S1x9216, .f32⟩
  | .hbm, ⟨41, _⟩ => ⟨S9217x9216, .f32⟩
  | .hbm, ⟨42, _⟩ => ⟨S1x9217x1x96x96, .f32⟩
  | .local _ .vmem, ⟨0, _⟩ => ⟨S1x9216, .i32⟩
  | .local _ .vmem, ⟨1, _⟩ => ⟨S1x9216, .f32⟩
  | .local _ .vmem, ⟨2, _⟩ => ⟨S1x9216, .f32⟩
  | .local _ .vmem, ⟨3, _⟩ => ⟨S128x9216, .f32⟩
  | .local _ .vmem, ⟨4, _⟩ => ⟨S128x9216, .f32⟩
  | _, _ => ⟨S1x1x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![73], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9216 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x1x96x96 : S_.BroadcastsInDim S1x1x96x96 (![] : Fin 0 → Fin S1x1x96x96.rank)
  shapeCasts_S1x1x96x96_S9216 : S1x1x96x96.ShapeCasts S9216
  bcast_S_S9216 : S_.BroadcastsInDim S9216 (![] : Fin 0 → Fin S9216.rank)
  natLt_1_32 : 1 < 32
  bcast_S_S_ : S_.BroadcastsInDim S_ (![] : Fin 0 → Fin S_.rank)
  reduceWindows_S9216_S9216_w9216s1p9215_0 : S9216.ReduceWindows (![9216] : Fin 1 → Nat) ![1] ![9215] ![0] S9216
  h_S_ : 0 < S_.numel
  shapeCasts_S9216_S1x9216 : S9216.ShapeCasts S1x9216
  iota_S128x9216_d0_w32 : S128x9216.Iotas .tc 32 [0]
  inb_S1x9216_S1x9216_0_0 : ∀ a, (![0, 0] : Fin 2 → Nat) a + S1x9216.size a ≤ S1x9216.size a
  h_S1x9216 : 0 < S1x9216.numel
  shapeCasts_S1x9216_S1x9216 : S1x9216.ShapeCasts S1x9216
  broadcasts_S1x9216_S128x9216 : S1x9216.Broadcasts S128x9216
  inb_S128x9216_S128x9216_0_0 : ∀ a, (![0, 0] : Fin 2 → Nat) a + S128x9216.size a ≤ S128x9216.size a
  h_S128x9216 : 0 < S128x9216.numel
  shapeCasts_S1x9216_S9216 : S1x9216.ShapeCasts S9216
  inb_S128x9216_S1x9216_0_0 : ∀ a, (![0, 0] : Fin 2 → Nat) a + S1x9216.size a ≤ S128x9216.size a
  shapeCasts_S9217x9216_S1x9217x1x96x96 : S9217x9216.ShapeCasts S1x9217x1x96x96
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x9216.size a ≤ S1x9216.size a
  hwx0_0 : ∀ i : grid0.Coords, EltTy.bits .i32 = 32 ∨ (Rect.block (s := S1x9216) S1x9216.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x9216.size a ≤ S1x9216.size a
  hwx0_1 : ∀ i : grid0.Coords, EltTy.bits .f32 = 32 ∨ (Rect.block (s := S1x9216) S1x9216.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9216.size a ≤ S1x9216.size a
  hwx0_2 : ∀ i : grid0.Coords, EltTy.bits .f32 = 32 ∨ (Rect.block (s := S1x9216) S1x9216.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S128x9216.size a < S9217x9216.size a
  hwx0_3 : ∀ i : grid0.Coords, EltTy.bits .f32 = 32 ∨ (Rect.unit (s := S9217x9216) (fun a => cc0_transform_3 i a * S128x9216.size a) (fun a => (Pipeline.Clip.of (cc0_transform_3 i a) (S128x9216.size a) (S9217x9216.size a)).extent (S128x9216.size a)) fun a => Pipeline.Clip.inb (Pipeline.Clip.ok_of (hstart0_3 i a))).WholeWords (EltTy.packing .f32)
  hwxs0_3 : ∀ i : grid0.Coords, EltTy.bits .f32 = 32 ∨ (Rect.unit (s := S128x9216) (fun _ => 0) (fun a => (Pipeline.Clip.of (cc0_transform_3 i a) (S128x9216.size a) (S9217x9216.size a)).extent (S128x9216.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_v22) S1x9216.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x9216.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x9216.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v25) S128x9216.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1x96x96 : Shape := ⟨4, ![1, 1, 96, 96]⟩
abbrev S_ : Shape := ⟨0, ![]⟩
abbrev S9216 : Shape := ⟨1, ![9216]⟩
abbrev S1x9217x1x96x96 : Shape := ⟨5, ![1, 9217, 1, 96, 96]⟩
abbrev S1x96x96 : Shape := ⟨3, ![1, 96, 96]⟩
abbrev S1 : Shape := ⟨1, ![1]⟩
abbrev S2 : Shape := ⟨1, ![2]⟩
abbrev S9216x1 : Shape := ⟨2, ![9216, 1]⟩
abbrev S9216x5 : Shape := ⟨2, ![9216, 5]⟩

abbrev nBuf : Space → Nat
  | .hbm => 229
  | .vmem => 0
  | .smem => 0
  | _ => 0

abbrev hbmTy0_0 (i : Nat) : BufTy := match i % 128 with
  | 0 => ⟨S1x1x96x96, .f32⟩
  | 1 => ⟨S_, .f32⟩
  | 2 => ⟨S1x1x96x96, .f32⟩
  | 3 => ⟨S1x1x96x96, .f32⟩
  | 4 => ⟨S_, .f32⟩
  | 5 => ⟨S1x1x96x96, .f32⟩
  | 6 => ⟨S1x1x96x96, .f32⟩
  | 7 => ⟨S_, .f32⟩
  | 8 => ⟨S1x1x96x96, .f32⟩
  | 9 => ⟨S1x1x96x96, .f32⟩
  | 10 => ⟨S_, .f32⟩
  | 11 => ⟨S1x1x96x96, .f32⟩
  | 12 => ⟨S1x1x96x96, .f32⟩
  | 13 => ⟨S_, .f32⟩
  | 14 => ⟨S1x1x96x96, .f32⟩
  | 15 => ⟨S1x1x96x96, .f32⟩
  | 16 => ⟨S_, .f32⟩
  | 17 => ⟨S1x1x96x96, .f32⟩
  | 18 => ⟨S1x1x96x96, .f32⟩
  | 19 => ⟨S1x1x96x96, .f32⟩
  | 20 => ⟨S1x1x96x96, .f32⟩
  | 21 => ⟨S_, .f32⟩
  | 22 => ⟨S1x1x96x96, .f32⟩
  | 23 => ⟨S1x1x96x96, .f32⟩
  | 24 => ⟨S1x1x96x96, .f32⟩
  | 25 => ⟨S9216, .f32⟩
  | 26 => ⟨S_, .f32⟩
  | 27 => ⟨S9216, .f32⟩
  | 28 => ⟨S9216, .i1⟩
  | 29 => ⟨S9216, .i32⟩
  | 30 => ⟨S_, .i32⟩
  | 31 => ⟨S_, .i32⟩
  | 32 => ⟨S9216, .i32⟩
  | 33 => ⟨S_, .i32⟩
  | 34 => ⟨S_, .i32⟩
  | 35 => ⟨S9216, .i32⟩
  | 36 => ⟨S9216, .i32⟩
  | 37 => ⟨S9216, .i32⟩
  | 38 => ⟨S_, .i32⟩
  | 39 => ⟨S_, .i32⟩
  | 40 => ⟨S9216, .i32⟩
  | 41 => ⟨S9216, .i32⟩
  | 42 => ⟨S9216, .i32⟩
  | 43 => ⟨S_, .i32⟩
  | 44 => ⟨S9216, .i32⟩
  | 45 => ⟨S9216, .i1⟩
  | 46 => ⟨S9216, .i32⟩
  | 47 => ⟨S9216, .i32⟩
  | 48 => ⟨S_, .i32⟩
  | 49 => ⟨S9216, .i32⟩
  | 50 => ⟨S9216, .i1⟩
  | 51 => ⟨S9216, .i1⟩
  | 52 => ⟨S_, .i32⟩
  | 53 => ⟨S9216, .i32⟩
  | 54 => ⟨S9216, .i32⟩
  | 55 => ⟨S9216, .i32⟩
  | 56 => ⟨S_, .i32⟩
  | 57 => ⟨S_, .i1⟩
  | 58 => ⟨S_, .i32⟩
  | 59 => ⟨S_, .i32⟩
  | 60 => ⟨S9216, .i32⟩
  | 61 => ⟨S9216, .i32⟩
  | 62 => ⟨S_, .i32⟩
  | 63 => ⟨S9216, .i32⟩
  | 64 => ⟨S9216, .i1⟩
  | 65 => ⟨S_, .i32⟩
  | 66 => ⟨S9216, .i32⟩
  | 67 => ⟨S9216, .i1⟩
  | 68 => ⟨S_, .i32⟩
  | 69 => ⟨S_, .i1⟩
  | 70 => ⟨S9216, .i1⟩
  | 71 => ⟨S9216, .i1⟩
  | 72 => ⟨S9216, .i1⟩
  | 73 => ⟨S9216, .i32⟩
  | 74 => ⟨S9216, .i32⟩
  | 75 => ⟨S9216, .i32⟩
  | 76 => ⟨S_, .i32⟩
  | 77 => ⟨S_, .i32⟩
  | 78 => ⟨S9216, .i32⟩
  | 79 => ⟨S9216, .i32⟩
  | 80 => ⟨S9216, .i32⟩
  | 81 => ⟨S_, .i32⟩
  | 82 => ⟨S9216, .i32⟩
  | 83 => ⟨S9216, .i1⟩
  | 84 => ⟨S9216, .i32⟩
  | 85 => ⟨S9216, .i32⟩
  | 86 => ⟨S_, .i32⟩
  | 87 => ⟨S9216, .i32⟩
  | 88 => ⟨S9216, .i1⟩
  | 89 => ⟨S9216, .i1⟩
  | 90 => ⟨S_, .i32⟩
  | 91 => ⟨S9216, .i32⟩
  | 92 => ⟨S9216, .i32⟩
  | 93 => ⟨S9216, .i32⟩
  | 94 => ⟨S_, .i32⟩
  | 95 => ⟨S_, .i1⟩
  | 96 => ⟨S_, .i32⟩
  | 97 => ⟨S_, .i32⟩
  | 98 => ⟨S9216, .i32⟩
  | 99 => ⟨S9216, .i32⟩
  | 100 => ⟨S_, .i32⟩
  | 101 => ⟨S9216, .i32⟩
  | 102 => ⟨S9216, .i1⟩
  | 103 => ⟨S_, .i32⟩
  | 104 => ⟨S9216, .i32⟩
  | 105 => ⟨S9216, .i1⟩
  | 106 => ⟨S_, .i32⟩
  | 107 => ⟨S_, .i1⟩
  | 108 => ⟨S9216, .i1⟩
  | 109 => ⟨S9216, .i1⟩
  | 110 => ⟨S9216, .i1⟩
  | 111 => ⟨S9216, .i32⟩
  | 112 => ⟨S9216, .i32⟩
  | 113 => ⟨S9216, .i32⟩
  | 114 => ⟨S_, .i32⟩
  | 115 => ⟨S_, .i32⟩
  | 116 => ⟨S9216, .i32⟩
  | 117 => ⟨S9216, .i32⟩
  | 118 => ⟨S9216, .i32⟩
  | 119 => ⟨S_, .i32⟩
  | 120 => ⟨S9216, .i32⟩
  | 121 => ⟨S9216, .i1⟩
  | 122 => ⟨S9216, .i32⟩
  | 123 => ⟨S9216, .i32⟩
  | 124 => ⟨S_, .i32⟩
  | 125 => ⟨S9216, .i32⟩
  | 126 => ⟨S9216, .i1⟩
  | 127 => ⟨S9216, .i1⟩
  | _ => ⟨S1x1x96x96, .f32⟩

abbrev hbmTy0_1 (i : Nat) : BufTy := match i % 128 with
  | 0 => ⟨S_, .i32⟩
  | 1 => ⟨S9216, .i32⟩
  | 2 => ⟨S9216, .i32⟩
  | 3 => ⟨S9216, .i32⟩
  | 4 => ⟨S_, .i32⟩
  | 5 => ⟨S_, .i1⟩
  | 6 => ⟨S_, .i32⟩
  | 7 => ⟨S_, .i32⟩
  | 8 => ⟨S9216, .i32⟩
  | 9 => ⟨S9216, .i32⟩
  | 10 => ⟨S_, .i32⟩
  | 11 => ⟨S9216, .i32⟩
  | 12 => ⟨S9216, .i1⟩
  | 13 => ⟨S_, .i32⟩
  | 14 => ⟨S9216, .i32⟩
  | 15 => ⟨S9216, .i1⟩
  | 16 => ⟨S_, .i32⟩
  | 17 => ⟨S_, .i1⟩
  | 18 => ⟨S9216, .i1⟩
  | 19 => ⟨S9216, .i1⟩
  | 20 => ⟨S9216, .i1⟩
  | 21 => ⟨S9216, .i32⟩
  | 22 => ⟨S9216, .i32⟩
  | 23 => ⟨S9216, .i32⟩
  | 24 => ⟨S_, .i32⟩
  | 25 => ⟨S9216, .i32⟩
  | 26 => ⟨S9216, .i1⟩
  | 27 => ⟨S_, .i32⟩
  | 28 => ⟨S9216, .i32⟩
  | 29 => ⟨S9216, .i1⟩
  | 30 => ⟨S_, .i32⟩
  | 31 => ⟨S_, .i32⟩
  | 32 => ⟨S9216, .i32⟩
  | 33 => ⟨S9216, .i32⟩
  | 34 => ⟨S_, .i32⟩
  | 35 => ⟨S_, .i32⟩
  | 36 => ⟨S9216, .i32⟩
  | 37 => ⟨S9216, .i32⟩
  | 38 => ⟨S_, .i32⟩
  | 39 => ⟨S_, .i32⟩
  | 40 => ⟨S9216, .i32⟩
  | 41 => ⟨S9216, .i32⟩
  | 42 => ⟨S_, .i32⟩
  | 43 => ⟨S_, .i32⟩
  | 44 => ⟨S9216, .i32⟩
  | 45 => ⟨S9216, .i32⟩
  | 46 => ⟨S_, .i32⟩
  | 47 => ⟨S_, .i32⟩
  | 48 => ⟨S9216, .i32⟩
  | 49 => ⟨S9216, .i32⟩
  | 50 => ⟨S_, .i32⟩
  | 51 => ⟨S_, .i32⟩
  | 52 => ⟨S9216, .i32⟩
  | 53 => ⟨S9216, .i32⟩
  | 54 => ⟨S_, .f32⟩
  | 55 => ⟨S1x9217x1x96x96, .f32⟩
  | 56 => ⟨S1x96x96, .f32⟩
  | 57 => ⟨S_, .i32⟩
  | 58 => ⟨S1, .i32⟩
  | 59 => ⟨S_, .i32⟩
  | 60 => ⟨S1, .i32⟩
  | 61 => ⟨S2, .i32⟩
  | 62 => ⟨S1x9217x1x96x96, .f32⟩
  | 63 => ⟨S_, .i32⟩
  | 64 => ⟨S9216, .i32⟩
  | 65 => ⟨S9216, .i1⟩
  | 66 => ⟨S_, .i32⟩
  | 67 => ⟨S9216, .i32⟩
  | 68 => ⟨S9216, .i32⟩
  | 69 => ⟨S9216, .i32⟩
  | 70 => ⟨S_, .i32⟩
  | 71 => ⟨S9216, .i32⟩
  | 72 => ⟨S9216, .i1⟩
  | 73 => ⟨S_, .i32⟩
  | 74 => ⟨S9216, .i32⟩
  | 75 => ⟨S9216, .i32⟩
  | 76 => ⟨S9216, .i32⟩
  | 77 => ⟨S_, .i32⟩
  | 78 => ⟨S9216, .i32⟩
  | 79 => ⟨S9216, .i1⟩
  | 80 => ⟨S_, .i32⟩
  | 81 => ⟨S9216, .i32⟩
  | 82 => ⟨S9216, .i32⟩
  | 83 => ⟨S9216, .i32⟩
  | 84 => ⟨S_, .i32⟩
  | 85 => ⟨S9216, .i32⟩
  | 86 => ⟨S9216, .i1⟩
  | 87 => ⟨S_, .i32⟩
  | 88 => ⟨S9216, .i32⟩
  | 89 => ⟨S9216, .i32⟩
  | 90 => ⟨S9216, .i32⟩
  | 91 => ⟨S_, .i32⟩
  | 92 => ⟨S9216, .i32⟩
  | 93 => ⟨S9216, .i32⟩
  | 94 => ⟨S9216x1, .i32⟩
  | 95 => ⟨S9216x1, .i32⟩
  | 96 => ⟨S9216x1, .i32⟩
  | 97 => ⟨S9216x1, .i32⟩
  | 98 => ⟨S9216x1, .i32⟩
  | 99 => ⟨S9216x5, .i32⟩
  | 100 => ⟨S1x9217x1x96x96, .f32⟩
  | _ => ⟨S1x1x96x96, .f32⟩

abbrev hbmTy (i : Nat) : BufTy := match i / 128 with
  | 0 => hbmTy0_0 i
  | 1 => hbmTy0_1 i
  | _ => ⟨S1x1x96x96, .f32⟩

abbrev bufTy : (tb : Table) → Fin (tcTables nBuf tb) → BufTy
  | .hbm, ⟨i, _⟩ => hbmTy i
  | _, _ => ⟨S1x1x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_call4_v0 : Ref sig .tc := ⟨.hbm, 39, rfl⟩
abbrev main_call4_call0_v0 : Ref sig .tc := ⟨.hbm, 40, rfl⟩
abbrev main_call4_call0_v1 : Ref sig .tc := ⟨.hbm, 41, rfl⟩
abbrev main_call4_call0_v2 : Ref sig .tc := ⟨.hbm, 42, rfl⟩
abbrev main_call4_call0_v3 : Ref sig .tc := ⟨.hbm, 43, rfl⟩
abbrev main_call4_call0_v4 : Ref sig .tc := ⟨.hbm, 44, rfl⟩
abbrev main_call4_call0_v5 : Ref sig .tc := ⟨.hbm, 45, rfl⟩
abbrev main_call4_call0_v6 : Ref sig .tc := ⟨.hbm, 46, rfl⟩
abbrev main_call4_call0_v7 : Ref sig .tc := ⟨.hbm, 47, rfl⟩
abbrev main_call4_call0_c : Ref sig .tc := ⟨.hbm, 48, rfl⟩
abbrev main_call4_call0_v8 : Ref sig .tc := ⟨.hbm, 49, rfl⟩
abbrev main_call4_call0_v9 : Ref sig .tc := ⟨.hbm, 50, rfl⟩
abbrev main_call4_call0_v10 : Ref sig .tc := ⟨.hbm, 51, rfl⟩
abbrev main_call4_call0_c_0 : Ref sig .tc := ⟨.hbm, 52, rfl⟩
abbrev main_call4_call0_v11 : Ref sig .tc := ⟨.hbm, 53, rfl⟩
abbrev main_call4_call0_v12 : Ref sig .tc := ⟨.hbm, 54, rfl⟩
abbrev main_v22_0 : Ref sig .tc := ⟨.hbm, 55, rfl⟩
abbrev main_call4_call1_c : Ref sig .tc := ⟨.hbm, 56, rfl⟩
abbrev main_call4_call1_v0 : Ref sig .tc := ⟨.hbm, 57, rfl⟩
abbrev main_call4_call1_c_0 : Ref sig .tc := ⟨.hbm, 58, rfl⟩
abbrev main_call4_call1_v1 : Ref sig .tc := ⟨.hbm, 59, rfl⟩
abbrev main_call4_call1_v2 : Ref sig .tc := ⟨.hbm, 60, rfl⟩
abbrev main_call4_call1_v3 : Ref sig .tc := ⟨.hbm, 61, rfl⟩
abbrev main_call4_call1_c_1 : Ref sig .tc := ⟨.hbm, 62, rfl⟩
abbrev main_call4_call1_v4 : Ref sig .tc := ⟨.hbm, 63, rfl⟩
abbrev main_call4_call1_v5 : Ref sig .tc := ⟨.hbm, 64, rfl⟩
abbrev main_call4_call1_c_2 : Ref sig .tc := ⟨.hbm, 65, rfl⟩
abbrev main_call4_call1_v6 : Ref sig .tc := ⟨.hbm, 66, rfl⟩
abbrev main_call4_call1_v7 : Ref sig .tc := ⟨.hbm, 67, rfl⟩
abbrev main_call4_call1_c_3 : Ref sig .tc := ⟨.hbm, 68, rfl⟩
abbrev main_call4_call1_v8 : Ref sig .tc := ⟨.hbm, 69, rfl⟩
abbrev main_call4_call1_v9 : Ref sig .tc := ⟨.hbm, 70, rfl⟩
abbrev main_call4_call1_v10 : Ref sig .tc := ⟨.hbm, 71, rfl⟩
abbrev main_call4_call1_v11 : Ref sig .tc := ⟨.hbm, 72, rfl⟩
abbrev main_call4_call1_v12 : Ref sig .tc := ⟨.hbm, 73, rfl⟩
abbrev main_call4_call1_v13 : Ref sig .tc := ⟨.hbm, 74, rfl⟩
abbrev main_v22_1 : Ref sig .tc := ⟨.hbm, 75, rfl⟩
abbrev main_c_6 : Ref sig .tc := ⟨.hbm, 76, rfl⟩
abbrev main_call5_v0 : Ref sig .tc := ⟨.hbm, 77, rfl⟩
abbrev main_call5_call0_v0 : Ref sig .tc := ⟨.hbm, 78, rfl⟩
abbrev main_call5_call0_v1 : Ref sig .tc := ⟨.hbm, 79, rfl⟩
abbrev main_call5_call0_v2 : Ref sig .tc := ⟨.hbm, 80, rfl⟩
abbrev main_call5_call0_v3 : Ref sig .tc := ⟨.hbm, 81, rfl⟩
abbrev main_call5_call0_v4 : Ref sig .tc := ⟨.hbm, 82, rfl⟩
abbrev main_call5_call0_v5 : Ref sig .tc := ⟨.hbm, 83, rfl⟩
abbrev main_call5_call0_v6 : Ref sig .tc := ⟨.hbm, 84, rfl⟩
abbrev main_call5_call0_v7 : Ref sig .tc := ⟨.hbm, 85, rfl⟩
abbrev main_call5_call0_c : Ref sig .tc := ⟨.hbm, 86, rfl⟩
abbrev main_call5_call0_v8 : Ref sig .tc := ⟨.hbm, 87, rfl⟩
abbrev main_call5_call0_v9 : Ref sig .tc := ⟨.hbm, 88, rfl⟩
abbrev main_call5_call0_v10 : Ref sig .tc := ⟨.hbm, 89, rfl⟩
abbrev main_call5_call0_c_0 : Ref sig .tc := ⟨.hbm, 90, rfl⟩
abbrev main_call5_call0_v11 : Ref sig .tc := ⟨.hbm, 91, rfl⟩
abbrev main_call5_call0_v12 : Ref sig .tc := ⟨.hbm, 92, rfl⟩
abbrev main_v23_0 : Ref sig .tc := ⟨.hbm, 93, rfl⟩
abbrev main_call5_call1_c : Ref sig .tc := ⟨.hbm, 94, rfl⟩
abbrev main_call5_call1_v0 : Ref sig .tc := ⟨.hbm, 95, rfl⟩
abbrev main_call5_call1_c_0 : Ref sig .tc := ⟨.hbm, 96, rfl⟩
abbrev main_call5_call1_v1 : Ref sig .tc := ⟨.hbm, 97, rfl⟩
abbrev main_call5_call1_v2 : Ref sig .tc := ⟨.hbm, 98, rfl⟩
abbrev main_call5_call1_v3 : Ref sig .tc := ⟨.hbm, 99, rfl⟩
abbrev main_call5_call1_c_1 : Ref sig .tc := ⟨.hbm, 100, rfl⟩
abbrev main_call5_call1_v4 : Ref sig .tc := ⟨.hbm, 101, rfl⟩
abbrev main_call5_call1_v5 : Ref sig .tc := ⟨.hbm, 102, rfl⟩
abbrev main_call5_call1_c_2 : Ref sig .tc := ⟨.hbm, 103, rfl⟩
abbrev main_call5_call1_v6 : Ref sig .tc := ⟨.hbm, 104, rfl⟩
abbrev main_call5_call1_v7 : Ref sig .tc := ⟨.hbm, 105, rfl⟩
abbrev main_call5_call1_c_3 : Ref sig .tc := ⟨.hbm, 106, rfl⟩
abbrev main_call5_call1_v8 : Ref sig .tc := ⟨.hbm, 107, rfl⟩
abbrev main_call5_call1_v9 : Ref sig .tc := ⟨.hbm, 108, rfl⟩
abbrev main_call5_call1_v10 : Ref sig .tc := ⟨.hbm, 109, rfl⟩
abbrev main_call5_call1_v11 : Ref sig .tc := ⟨.hbm, 110, rfl⟩
abbrev main_call5_call1_v12 : Ref sig .tc := ⟨.hbm, 111, rfl⟩
abbrev main_call5_call1_v13 : Ref sig .tc := ⟨.hbm, 112, rfl⟩
abbrev main_v23_1 : Ref sig .tc := ⟨.hbm, 113, rfl⟩
abbrev main_c_7 : Ref sig .tc := ⟨.hbm, 114, rfl⟩
abbrev main_call6_v0 : Ref sig .tc := ⟨.hbm, 115, rfl⟩
abbrev main_call6_call0_v0 : Ref sig .tc := ⟨.hbm, 116, rfl⟩
abbrev main_call6_call0_v1 : Ref sig .tc := ⟨.hbm, 117, rfl⟩
abbrev main_call6_call0_v2 : Ref sig .tc := ⟨.hbm, 118, rfl⟩
abbrev main_call6_call0_v3 : Ref sig .tc := ⟨.hbm, 119, rfl⟩
abbrev main_call6_call0_v4 : Ref sig .tc := ⟨.hbm, 120, rfl⟩
abbrev main_call6_call0_v5 : Ref sig .tc := ⟨.hbm, 121, rfl⟩
abbrev main_call6_call0_v6 : Ref sig .tc := ⟨.hbm, 122, rfl⟩
abbrev main_call6_call0_v7 : Ref sig .tc := ⟨.hbm, 123, rfl⟩
abbrev main_call6_call0_c : Ref sig .tc := ⟨.hbm, 124, rfl⟩
abbrev main_call6_call0_v8 : Ref sig .tc := ⟨.hbm, 125, rfl⟩
abbrev main_call6_call0_v9 : Ref sig .tc := ⟨.hbm, 126, rfl⟩
abbrev main_call6_call0_v10 : Ref sig .tc := ⟨.hbm, 127, rfl⟩
abbrev main_call6_call0_c_0 : Ref sig .tc := ⟨.hbm, 128, rfl⟩
abbrev main_call6_call0_v11 : Ref sig .tc := ⟨.hbm, 129, rfl⟩
abbrev main_call6_call0_v12 : Ref sig .tc := ⟨.hbm, 130, rfl⟩
abbrev main_v24_0 : Ref sig .tc := ⟨.hbm, 131, rfl⟩
abbrev main_call6_call1_c : Ref sig .tc := ⟨.hbm, 132, rfl⟩
abbrev main_call6_call1_v0 : Ref sig .tc := ⟨.hbm, 133, rfl⟩
abbrev main_call6_call1_c_0 : Ref sig .tc := ⟨.hbm, 134, rfl⟩
abbrev main_call6_call1_v1 : Ref sig .tc := ⟨.hbm, 135, rfl⟩
abbrev main_call6_call1_v2 : Ref sig .tc := ⟨.hbm, 136, rfl⟩
abbrev main_call6_call1_v3 : Ref sig .tc := ⟨.hbm, 137, rfl⟩
abbrev main_call6_call1_c_1 : Ref sig .tc := ⟨.hbm, 138, rfl⟩
abbrev main_call6_call1_v4 : Ref sig .tc := ⟨.hbm, 139, rfl⟩
abbrev main_call6_call1_v5 : Ref sig .tc := ⟨.hbm, 140, rfl⟩
abbrev main_call6_call1_c_2 : Ref sig .tc := ⟨.hbm, 141, rfl⟩
abbrev main_call6_call1_v6 : Ref sig .tc := ⟨.hbm, 142, rfl⟩
abbrev main_call6_call1_v7 : Ref sig .tc := ⟨.hbm, 143, rfl⟩
abbrev main_call6_call1_c_3 : Ref sig .tc := ⟨.hbm, 144, rfl⟩
abbrev main_call6_call1_v8 : Ref sig .tc := ⟨.hbm, 145, rfl⟩
abbrev main_call6_call1_v9 : Ref sig .tc := ⟨.hbm, 146, rfl⟩
abbrev main_call6_call1_v10 : Ref sig .tc := ⟨.hbm, 147, rfl⟩
abbrev main_call6_call1_v11 : Ref sig .tc := ⟨.hbm, 148, rfl⟩
abbrev main_call6_call1_v12 : Ref sig .tc := ⟨.hbm, 149, rfl⟩
abbrev main_call6_call1_v13 : Ref sig .tc := ⟨.hbm, 150, rfl⟩
abbrev main_v24_1 : Ref sig .tc := ⟨.hbm, 151, rfl⟩
abbrev main_c_8 : Ref sig .tc := ⟨.hbm, 152, rfl⟩
abbrev main_v25 : Ref sig .tc := ⟨.hbm, 153, rfl⟩
abbrev main_v26 : Ref sig .tc := ⟨.hbm, 154, rfl⟩
abbrev main_c_9 : Ref sig .tc := ⟨.hbm, 155, rfl⟩
abbrev main_v27 : Ref sig .tc := ⟨.hbm, 156, rfl⟩
abbrev main_v28 : Ref sig .tc := ⟨.hbm, 157, rfl⟩
abbrev main_c_10 : Ref sig .tc := ⟨.hbm, 158, rfl⟩
abbrev main_call7_v0 : Ref sig .tc := ⟨.hbm, 159, rfl⟩
abbrev main_call7_v1 : Ref sig .tc := ⟨.hbm, 160, rfl⟩
abbrev main_v29 : Ref sig .tc := ⟨.hbm, 161, rfl⟩
abbrev main_c_11 : Ref sig .tc := ⟨.hbm, 162, rfl⟩
abbrev main_call8_v0 : Ref sig .tc := ⟨.hbm, 163, rfl⟩
abbrev main_call8_v1 : Ref sig .tc := ⟨.hbm, 164, rfl⟩
abbrev main_v30 : Ref sig .tc := ⟨.hbm, 165, rfl⟩
abbrev main_c_12 : Ref sig .tc := ⟨.hbm, 166, rfl⟩
abbrev main_call9_v0 : Ref sig .tc := ⟨.hbm, 167, rfl⟩
abbrev main_call9_v1 : Ref sig .tc := ⟨.hbm, 168, rfl⟩
abbrev main_v31 : Ref sig .tc := ⟨.hbm, 169, rfl⟩
abbrev main_c_13 : Ref sig .tc := ⟨.hbm, 170, rfl⟩
abbrev main_call10_v0 : Ref sig .tc := ⟨.hbm, 171, rfl⟩
abbrev main_call10_v1 : Ref sig .tc := ⟨.hbm, 172, rfl⟩
abbrev main_v32 : Ref sig .tc := ⟨.hbm, 173, rfl⟩
abbrev main_c_14 : Ref sig .tc := ⟨.hbm, 174, rfl⟩
abbrev main_call11_v0 : Ref sig .tc := ⟨.hbm, 175, rfl⟩
abbrev main_call11_v1 : Ref sig .tc := ⟨.hbm, 176, rfl⟩
abbrev main_v33 : Ref sig .tc := ⟨.hbm, 177, rfl⟩
abbrev main_c_15 : Ref sig .tc := ⟨.hbm, 178, rfl⟩
abbrev main_call12_v0 : Ref sig .tc := ⟨.hbm, 179, rfl⟩
abbrev main_call12_v1 : Ref sig .tc := ⟨.hbm, 180, rfl⟩
abbrev main_v34 : Ref sig .tc := ⟨.hbm, 181, rfl⟩
abbrev main_cst_16 : Ref sig .tc := ⟨.hbm, 182, rfl⟩
abbrev main_v35 : Ref sig .tc := ⟨.hbm, 183, rfl⟩
abbrev main_v36 : Ref sig .tc := ⟨.hbm, 184, rfl⟩
abbrev main_c_17 : Ref sig .tc := ⟨.hbm, 185, rfl⟩
abbrev main_v37 : Ref sig .tc := ⟨.hbm, 186, rfl⟩
abbrev main_c_18 : Ref sig .tc := ⟨.hbm, 187, rfl⟩
abbrev main_v38 : Ref sig .tc := ⟨.hbm, 188, rfl⟩
abbrev main_v39 : Ref sig .tc := ⟨.hbm, 189, rfl⟩
abbrev main_v40 : Ref sig .tc := ⟨.hbm, 190, rfl⟩
abbrev main_c_19 : Ref sig .tc := ⟨.hbm, 191, rfl⟩
abbrev main_v41 : Ref sig .tc := ⟨.hbm, 192, rfl⟩
abbrev main_v42 : Ref sig .tc := ⟨.hbm, 193, rfl⟩
abbrev main_c_20 : Ref sig .tc := ⟨.hbm, 194, rfl⟩
abbrev main_v43 : Ref sig .tc := ⟨.hbm, 195, rfl⟩
abbrev main_v44 : Ref sig .tc := ⟨.hbm, 196, rfl⟩
abbrev main_v45 : Ref sig .tc := ⟨.hbm, 197, rfl⟩
abbrev main_c_21 : Ref sig .tc := ⟨.hbm, 198, rfl⟩
abbrev main_v46 : Ref sig .tc := ⟨.hbm, 199, rfl⟩
abbrev main_v47 : Ref sig .tc := ⟨.hbm, 200, rfl⟩
abbrev main_c_22 : Ref sig .tc := ⟨.hbm, 201, rfl⟩
abbrev main_v48 : Ref sig .tc := ⟨.hbm, 202, rfl⟩
abbrev main_v49 : Ref sig .tc := ⟨.hbm, 203, rfl⟩
abbrev main_v50 : Ref sig .tc := ⟨.hbm, 204, rfl⟩
abbrev main_c_23 : Ref sig .tc := ⟨.hbm, 205, rfl⟩
abbrev main_v51 : Ref sig .tc := ⟨.hbm, 206, rfl⟩
abbrev main_v52 : Ref sig .tc := ⟨.hbm, 207, rfl⟩
abbrev main_c_24 : Ref sig .tc := ⟨.hbm, 208, rfl⟩
abbrev main_v53 : Ref sig .tc := ⟨.hbm, 209, rfl⟩
abbrev main_v54 : Ref sig .tc := ⟨.hbm, 210, rfl⟩
abbrev main_v55 : Ref sig .tc := ⟨.hbm, 211, rfl⟩
abbrev main_c_25 : Ref sig .tc := ⟨.hbm, 212, rfl⟩
abbrev main_v56 : Ref sig .tc := ⟨.hbm, 213, rfl⟩
abbrev main_v57 : Ref sig .tc := ⟨.hbm, 214, rfl⟩
abbrev main_c_26 : Ref sig .tc := ⟨.hbm, 215, rfl⟩
abbrev main_v58 : Ref sig .tc := ⟨.hbm, 216, rfl⟩
abbrev main_v59 : Ref sig .tc := ⟨.hbm, 217, rfl⟩
abbrev main_v60 : Ref sig .tc := ⟨.hbm, 218, rfl⟩
abbrev main_c_27 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩
abbrev main_v64 : Ref sig .tc := ⟨.hbm, 223, rfl⟩
abbrev main_v65 : Ref sig .tc := ⟨.hbm, 224, rfl⟩
abbrev main_v66 : Ref sig .tc := ⟨.hbm, 225, rfl⟩
abbrev main_v67 : Ref sig .tc := ⟨.hbm, 226, rfl⟩
abbrev main_v68 : Ref sig .tc := ⟨.hbm, 227, rfl⟩
abbrev main_v69 : Ref sig .tc := ⟨.hbm, 228, rfl⟩

abbrev nD : Nat := 1
abbrev τ : Topo := Topo.v7x

variable {F : FTy → Type} [FloatOps F]

class Facts₀ : Prop where
  bcast_S_S1x1x96x96 : S_.BroadcastsInDim S1x1x96x96 (![] : Fin 0 → Fin S1x1x96x96.rank)
  shapeCasts_S1x1x96x96_S9216 : S1x1x96x96.ShapeCasts S9216
  bcast_S_S9216 : S_.BroadcastsInDim S9216 (![] : Fin 0 → Fin S9216.rank)
  natLt_1_32 : 1 < 32
  bcast_S_S_ : S_.BroadcastsInDim S_ (![] : Fin 0 → Fin S_.rank)
  reduceWindows_S9216_S9216_w9216s1p9215_0 : S9216.ReduceWindows (![9216] : Fin 1 → Nat) ![1] ![9215] ![0] S9216
  h_S_ : 0 < S_.numel
  bcast_S_S1x9217x1x96x96 : S_.BroadcastsInDim S1x9217x1x96x96 (![] : Fin 0 → Fin S1x9217x1x96x96.rank)
  shapeCasts_S1x1x96x96_S1x96x96 : S1x1x96x96.ShapeCasts S1x96x96
  bcast_S_S1 : S_.BroadcastsInDim S1 (![] : Fin 0 → Fin S1.rank)
  concatenates_S1_S1_S2_d0 : Shape.Concatenates [S1, S1] S2 0
  bcast_S9216_S9216x1_0 : S9216.BroadcastsInDim S9216x1 (![0] : Fin 1 → Fin S9216x1.rank)
  concatenates_S9216x1_S9216x1_S9216x1_S9216x1_S9216x1_S9216x5_d1 : Shape.Concatenates [S9216x1, S9216x1, S9216x1, S9216x1, S9216x1] S9216x5 1
  scatter_S1x9217x1x96x96_S2_S1x96x96_012_01_01_0_wf : ScatterDims.WF S1x9217x1x96x96 S2 S1x96x96 [0, 1, 2] [0, 1] [0, 1] 0
  scatter_S1x9217x1x96x96_S9216x5_S9216_n_01234_01234_1_wf : ScatterDims.WF S1x9217x1x96x96 S9216x5 S9216 [] [0, 1, 2, 3, 4] [0, 1, 2, 3, 4] 1

variable [Facts₀]

def scatter_S1x9217x1x96x96_S2_S1x96x96_012_01_01_0 : ScatterDims S1x9217x1x96x96 S2 S1x96x96 where
  updateWindowDims := [0, 1, 2]
  insertedWindowDims := [0, 1]
  scatterDimsToOperandDims := [0, 1]
  indexVectorDim := 0
  wf := scatter_S1x9217x1x96x96_S2_S1x96x96_012_01_01_0_wf
def scatter_S1x9217x1x96x96_S9216x5_S9216_n_01234_01234_1 : ScatterDims S1x9217x1x96x96 S9216x5 S9216 where
  updateWindowDims := []
  insertedWindowDims := [0, 1, 2, 3, 4]
  scatterDimsToOperandDims := [0, 1, 2, 3, 4]
  indexVectorDim := 1
  wf := scatter_S1x9217x1x96x96_S9216x5_S9216_n_01234_01234_1_wf

class Facts : Prop extends Facts₀ where

variable [Facts]
-- ==== Proof.KernelPieces.lean ====
import proofs.«118784_j19104014532646_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

/-! The body's two stores, read as values. Every grid point stores into its 128 × 9216 output block the one-hot
    block `(r, q) ↦ if r = e q − 128·t then f q else 0` (`t` the block number, `e` the slot row and `f` the value row
    it loads); the first point then overwrites row 0 of its block with the bias row. -/

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The one-hot payload at row `r`, column `q`: the value at `q` where the local row number is the slot minus the
    block's first row, the zero word elsewhere. -/
theorem pay1_apply (i : grid0.Coords) (x0 : Vec F S1x9216 .i32) (x1 : Vec F S1x9216 .f32) (r : Fin 128) (q : Fin 9216) :
    k0_pay1 i x0 x1 (ix2 r q)
      = Scalar.select (IntOp.cmpi .eq (BitVec.ofNat 32 r.val) (IntOp.subi (x0 (ix2 (0 : Fin 1) q)) (Scalar.muli (BitVec.ofNat 32 (i 0).val) 128#32)))
          (x1 (ix2 (0 : Fin 1) q)) (Scalar.ofBits .f32 0x00000000#32) := by
  unfold k0_pay1
  dsimp only
  rw [select_apply]
  simp only [shapeCast_self]
  show Scalar.select (IntOp.cmpi .eq (iota .tc S128x9216 32 [0] iota_S128x9216_d0_w32 (ix2 r q))
      (broadcastTo S128x9216 (subi x0 (broadcast S1x9216 (Scalar.muli (BitVec.ofNat 32 (i 0).val) 128#32))) broadcasts_S1x9216_S128x9216 (ix2 r q)))
      (broadcastTo S128x9216 x1 broadcasts_S1x9216_S128x9216 (ix2 r q)) _ = _
  rw [iota_single_apply, broadcastTo_1b_ab_apply, broadcastTo_1b_ab_apply]
  rfl

/-- The bias row's payload is the row loaded: a cast to the flat vector and back. -/
theorem pay2_eq (x2 : Vec F S1x9216 .f32) : k0_pay2 x2 = x2 := by
  unfold k0_pay2
  exact shapeCast_shapeCast x2 _ _

/-- At a point other than the first the block ends as the one-hot payload. -/
theorem out_B (c : Dev nD) (i : grid0.Coords) (a1 : Memref sig .tc .vmem S1x9216 .i32) (h1 : a1.IsWhole)
    (a2 : Memref sig .tc .vmem S1x9216 .f32) (h2 : a2.IsWhole) (a3 : Memref sig .tc .vmem S1x9216 .f32) (h3 : a3.IsWhole)
    (a4 : Memref sig .tc .vmem S128x9216 .f32) (h4 : a4.IsWhole) (hc : ¬cond0_0 i)
    (x0 : Vec F S1x9216 .i32) (x1 x2 : Vec F S1x9216 .f32) :
    out0_B_3 c i a1 h1 a2 h2 a3 h3 a4 h4 hc x0 x1 x2 = k0_pay1 i x0 x1 := by
  unfold out0_B_3
  rw [View.read_writes_eq_canon _ _ _ (cover0_B_3 c i a1 h1 a2 h2 a3 h3 a4 h4 hc x0 x1 x2)]
  unfold kernelRun0_B
  dsimp only
  rw [View.canon_unit_zero hz]
  simp only [View.readAt_eq_ld, h1.read_unread, h2.read_unread, View.ld_unit_zero (S := S1x9216) hz]

/-- At the first point row 0 of the block ends as the bias row, -/
theorem out_A_row0 (c : Dev nD) (i : grid0.Coords) (a1 : Memref sig .tc .vmem S1x9216 .i32) (h1 : a1.IsWhole)
    (a2 : Memref sig .tc .vmem S1x9216 .f32) (h2 : a2.IsWhole) (a3 : Memref sig .tc .vmem S1x9216 .f32) (h3 : a3.IsWhole)
    (a4 : Memref sig .tc .vmem S128x9216 .f32) (h4 : a4.IsWhole) (hc : cond0_0 i)
    (x0 : Vec F S1x9216 .i32) (x1 x2 : Vec F S1x9216 .f32) (q : Fin 9216) :
    out0_A_3 c i a1 h1 a2 h2 a3 h3 a4 h4 hc x0 x1 x2 (ix2 (0 : Fin 128) q) = x2 (ix2 (0 : Fin 1) q) := by
  unfold out0_A_3
  rw [View.read_writes_eq_canon _ _ _ (cover0_A_3 c i a1 h1 a2 h2 a3 h3 a4 h4 hc x0 x1 x2)]
  unfold kernelRun0_A
  dsimp only
  have e : (ix2 (0 : Fin 128) q : S128x9216.Idx)
      = (Rect.unit (s := S128x9216) ![0, 0] S1x9216.size inb_S128x9216_S1x9216_0_0).emb (ix2 (0 : Fin 1) q) := by
    funext a; apply Fin.ext
    match a with
    | ⟨0, _⟩ => rfl
    | ⟨1, _⟩ => show q.val = 0 + 1 * q.val; omega
  rw [e, View.canon_cons_emb, pay2_eq]
  simp only [View.readAt_eq_ld, h3.read_unread]
  exact congrFun (View.ld_unit_zero (S := S1x9216) hz _ x2) _

/-- and every other row as the one-hot payload. -/
theorem out_A_rest (c : Dev nD) (i : grid0.Coords) (a1 : Memref sig .tc .vmem S1x9216 .i32) (h1 : a1.IsWhole)
    (a2 : Memref sig .tc .vmem S1x9216 .f32) (h2 : a2.IsWhole) (a3 : Memref sig .tc .vmem S1x9216 .f32) (h3 : a3.IsWhole)
    (a4 : Memref sig .tc .vmem S128x9216 .f32) (h4 : a4.IsWhole) (hc : cond0_0 i)
    (x0 : Vec F S1x9216 .i32) (x1 x2 : Vec F S1x9216 .f32) (r : Fin 128) (hr : r.val ≠ 0) (q : Fin 9216) :
    out0_A_3 c i a1 h1 a2 h2 a3 h3 a4 h4 hc x0 x1 x2 (ix2 r q) = k0_pay1 i x0 x1 (ix2 r q) := by
  unfold out0_A_3
  rw [View.read_writes_eq_canon _ _ _ (cover0_A_3 c i a1 h1 a2 h2 a3 h3 a4 h4 hc x0 x1 x2)]
  unfold kernelRun0_A
  dsimp only
  rw [View.canon_cons_of_not_mem, View.canon_unit_zero hz]
  · simp only [View.readAt_eq_ld, h1.read_unread, h2.read_unread, View.ld_unit_zero (S := S1x9216) hz]
  · rw [Rect.mem_set_unit]
    intro h
    have := (h 0).2
    exact hr (by
      have h' : r.val < 0 + 1 := this
      omega)

end Cert.KernelIdeal.Pieces
end
-- ==== Proof.Spec.lean ====
import Idealize.ShloMosaic.PureOps
import Idealize.ShloMosaic.PureOps.Ideal
import Idealize.ShloMosaic.Lib.ValueIdx

/-! The quantities both programs compute from the input image `x` (1 × 1 × 96 × 96, 9216 pixels) before anything is
    laid out: the lower and upper clip radii `max(0.1 − x, 0)/2` and `max(x − 0.9, 0)/2`, the centre
    `x + lo − hi`, the per-pixel error `0.1 − lo − hi` flattened to 9216 entries, the condition `error ≥ 0`, the
    running count of pixels satisfying it (a window sum padded on the left), and the slot of each pixel: its running
    count where the condition holds, the sentinel 9217 where it does not. -/

noncomputable section

namespace Cert.Zono

open Idealize.ShloMosaic

abbrev S4 : Shape := ⟨4, ![1, 1, 96, 96]⟩
abbrev S0 : Shape := ⟨0, ![]⟩
abbrev SN : Shape := ⟨1, ![9216]⟩

theorem bc4 : S0.BroadcastsInDim S4 (![] : Fin 0 → Fin S4.rank) := by decide
theorem bcN : S0.BroadcastsInDim SN (![] : Fin 0 → Fin SN.rank) := by decide
theorem bc0 : S0.BroadcastsInDim S0 (![] : Fin 0 → Fin S0.rank) := by decide
theorem sc4N : S4.ShapeCasts SN := by decide
theorem rwN : SN.ReduceWindows (![9216] : Fin 1 → Nat) ![1] ![9215] ![0] SN := by decide
theorem hS0 : 0 < S0.numel := by decide
theorem lt132 : 1 < 32 := by decide

variable {F : FTy → Type} [FloatOps F]

/-- A float word broadcast over the image. -/
def splat4 (b : BitVec 32) : FVec F S4 .f32 := broadcastInDim S4 ![] bc4 (constant S0 .f32 b)

/-- `max(0.1 − x, 0) · 0.5`. -/
def rLow (x : FVec F S4 .f32) : FVec F S4 .f32 :=
  mulf (maximumf (subf (splat4 0x3DCCCCCD#32) x) (splat4 0x00000000#32)) (splat4 0x3F000000#32)

/-- `max(x − 0.9, 0) · 0.5`. -/
def rHigh (x : FVec F S4 .f32) : FVec F S4 .f32 :=
  mulf (maximumf (subf x (splat4 0x3F666666#32)) (splat4 0x00000000#32)) (splat4 0x3F000000#32)

/-- The centre `x + lo − hi`. -/
def bias4 (x : FVec F S4 .f32) : FVec F S4 .f32 := subf (addf x (rLow x)) (rHigh x)

/-- The error `0.1 − lo − hi`, flattened. -/
def ef (x : FVec F S4 .f32) : FVec F SN .f32 :=
  shapeCast SN (subf (subf (splat4 0x3DCCCCCD#32) (rLow x)) (rHigh x)) sc4N

/-- `error ≥ 0`, one bit per pixel. -/
def cond (x : FVec F S4 .f32) : IVec SN 1 := cmpf .oge (ef x) (broadcastInDim SN ![] bcN (constant S0 .f32 0x00000000#32))

/-- The condition widened to a 32-bit 0 or 1. -/
def cnt (x : FVec F S4 .f32) : IVec SN 32 := extui 32 (cond x) lt132

/-- The running count: at pixel `p` the number of pixels `≤ p` satisfying the condition. -/
def slot (x : FVec F S4 .f32) : IVec SN 32 :=
  Host.reduceWindow IntOp.addi ![9216] ![1] ![9215] ![0] (cnt x) (broadcastInDim S0 ![] bc0 (constantI S0 32 0#32)) rwN hS0

/-- The slot of each pixel: its running count where the condition holds, 9217 where it does not. -/
def errIdx (x : FVec F S4 .f32) : IVec SN 32 :=
  select (cond x) (slot x) (broadcastInDim SN ![] bcN (id (constantI S0 32 9217#32)))

end Cert.Zono
end
-- ==== Proof.KernelEntry.lean ====
import proofs.«118784_j19104014532646_2_alg».proof.Proof.Gen.KernelIdeal.Frame
import proofs.«118784_j19104014532646_2_alg».proof.Proof.Spec
import Idealize.ShloMosaic.Lib.Pipeline.Value
import Idealize.ShloMosaic.Lib.StableHlo.Run
import Idealize.ShloMosaic.Lib.ValueIdx
import Idealize.ShloMosaic.Lib.ValueLayout

/-! What the pipelined region finds in its three input arrays: the host lines before it have written the slot of each
    pixel, the per-pixel error and the centre, each laid out as one row of 9216 entries. -/

noncomputable section

open Idealize.ShloMosaic Idealize.ShloMosaic.TcCoe Idealize.SL.Sem Idealize.ShloMosaic.ValueIdx Idealize.ShloMosaic.StableHlo

namespace Cert.KernelIdeal.Entry
open Cert.KernelIdeal Cert.KernelIdeal.Gen Cert.Zono
variable {F : FTy → Type} [FloatOps F]
variable (m : (ℓ : Loc nD τ sig) → Buf (Elt F) ℓ)

-- the window sum is a fold over 9216 positions: the equations below never look inside it
attribute [local irreducible] Host.reduceWindow

/-- The argument image on core `c`. -/
abbrev xin (c : Dev nD) : FVec F S4 .f32 := m ((c : Thread nD τ).loc main_arg0)

set_option maxHeartbeats 1600000 in
/-- The slot row. -/
theorem V_slots (c : Dev nD) :
    (V m c main_v22 : S1x9216.Idx → BitVec 32) = shapeCast S1x9216 (errIdx (xin m c)) Gen.shapeCasts_S9216_S1x9216 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.toBuf, TRef.ofBuf, cast_eq]
  rfl

set_option maxHeartbeats 1600000 in
/-- The error row. -/
theorem V_errs (c : Dev nD) :
    (V m c main_v23 : S1x9216.Idx → F .f32) = shapeCast S1x9216 (ef (xin m c)) Gen.shapeCasts_S9216_S1x9216 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.toBuf, TRef.ofBuf, cast_eq]
  rfl

set_option maxHeartbeats 1600000 in
/-- The centre row. -/
theorem V_bias (c : Dev nD) :
    (V m c main_v24 : S1x9216.Idx → F .f32)
      = shapeCast S1x9216 (shapeCast S9216 (bias4 (xin m c)) Gen.shapeCasts_S1x1x96x96_S9216) Gen.shapeCasts_S9216_S1x9216 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.toBuf, TRef.ofBuf, cast_eq]
  rfl

end Cert.KernelIdeal.Entry
end
-- ==== Proof.LibWindowSum.lean ====
/-
  The running count of a 0/1 integer vector, computed as a padded window sum.

  `Host.reduceWindow` with an integer sum is a left fold over the window's positions. On a length-9216 vector with a
  window of 9216 positions padded 9215 low, the window at output `p` covers the operand positions `0 … p`; when every
  element is 0 or 1 the wrapping 32-bit sum is the true count (at most 9216 terms, far below `2 ^ 32`), so at a
  position whose own element is 1 the sum lies between 1 and 9216.
-/
import Idealize.ShloMosaic.PureOps.Contract

namespace Cert.LibWindowSum
open Idealize.ShloMosaic

section Fold
variable {ι : Type}

/-- A list of naturals each at most one sums to at most its length. -/
theorem sum_map_le_length (f : ι → Nat) (hf : ∀ n, f n ≤ 1) : ∀ l : List ι, (l.map f).sum ≤ l.length
  | [] => Nat.le_refl 0
  | a :: l => by
      have := sum_map_le_length f hf l
      have := hf a
      simp only [List.map_cons, List.sum_cons, List.length_cons]
      omega

/-- A list of naturals with a member sent to one sums to at least one. -/
theorem one_le_sum_map (f : ι → Nat) (n0 : ι) (h0 : f n0 = 1) : ∀ l : List ι, n0 ∈ l → 1 ≤ (l.map f).sum
  | [], h => absurd h List.not_mem_nil
  | a :: l, h => by
      simp only [List.map_cons, List.sum_cons]
      rcases List.mem_cons.1 h with rfl | h
      · omega
      · have := one_le_sum_map f n0 h0 l h
        omega

/-- The wrapping 32-bit sum of terms each 0 or 1, from `r0`, is the true sum while `r0` plus the number of terms
    stays below `2 ^ 32`. -/
theorem toNat_foldl_add (g : ι → BitVec 32) (hg : ∀ n, (g n).toNat ≤ 1) :
    ∀ (l : List ι) (r0 : BitVec 32), r0.toNat + l.length < 2 ^ 32 →
      (l.foldl (fun r n => r + g n) r0).toNat = r0.toNat + (l.map fun n => (g n).toNat).sum
  | [], r0, _ => by simp
  | a :: l, r0, h => by
      have ha := hg a
      simp only [List.length_cons] at h
      have hadd : (r0 + g a).toNat = r0.toNat + (g a).toNat := by
        rw [BitVec.toNat_add]
        exact Nat.mod_eq_of_lt (by omega)
      rw [List.foldl_cons, toNat_foldl_add g hg l (r0 + g a) (by rw [hadd]; omega), hadd]
      simp only [List.map_cons, List.sum_cons]
      omega

end Fold

/-- The operand's shape: one axis of 9216. -/
abbrev S : Shape := ⟨1, ![9216]⟩
/-- The initial value's shape: rank zero. -/
abbrev S0 : Shape := ⟨0, ![]⟩
/-- The window's shape: one axis of 9216 positions. -/
abbrev W : Shape := ⟨S.rank, ![9216]⟩

/-- The padded position the window at output `j` reads at its position `n`: `j + n`. -/
def pos (j : S.Idx) (n : Fin W.numel) : Fin S.rank → Nat :=
  fun a => (j a).val * (![1] : Fin 1 → Nat) a + (W.rowMajor.symm n a).val

/-- The term the window at output `j` adds at its position `n`: the operand's element at `j + n - 9215` when that is
    inside the operand, the initial value where it is padding. -/
def term (x : IVec S 32) (v : BitVec 32) (j : S.Idx) (n : Fin W.numel) : BitVec 32 :=
  if hin : ∀ a, (![9215] : Fin 1 → Nat) a ≤ pos j n a ∧ pos j n a - (![9215] : Fin 1 → Nat) a < S.size a then
    x (fun a => ⟨pos j n a - (![9215] : Fin 1 → Nat) a, (hin a).2⟩)
  else v

/-- The window's last position, 9215. -/
def lastPos : W.Idx := fun a => ⟨9215, by show 9215 < (![9216] : Fin 1 → Nat) a; rw [Matrix.cons_val_fin_one]; omega⟩

/-- The window sum is the left fold of 32-bit addition of the terms, from the initial value. -/
theorem reduceWindow_eq_foldl (x : IVec S 32) (init : S0.Idx → BitVec 32)
    (h : S.ReduceWindows (![9216] : Fin 1 → Nat) ![1] ![9215] ![0] S) (hu : 0 < S0.numel) (j : S.Idx) :
    Host.reduceWindow (s := S) (t := S) (u := S0) IntOp.addi ![9216] ![1] ![9215] ![0] x init h hu j
      = (List.finRange W.numel).foldl (fun r n => r + term x (init (Shape.Idx.first hu)) j n) (init (Shape.Idx.first hu)) :=
  rfl

/-- A term is 0 or 1 when the operand's elements and the initial value are. -/
theorem term_toNat_le (x : IVec S 32) (v : BitVec 32) (hv : v = 0#32) (hx : ∀ q, x q = 0#32 ∨ x q = 1#32) (j : S.Idx)
    (n : Fin W.numel) : (term x v j n).toNat ≤ 1 := by
  unfold term
  split
  · rcases hx _ with e | e <;> rw [e] <;> decide
  · rw [hv]; decide

/-- The window's last position at output `p` reads the operand at `p` itself. -/
theorem term_last (x : IVec S 32) (v : BitVec 32) (p : S.Idx) : term x v p (W.rowMajor lastPos) = x p := by
  have hpos : ∀ a, pos p (W.rowMajor lastPos) a = (p a).val + 9215 := by
    intro a
    unfold pos
    rw [Equiv.symm_apply_apply, Matrix.cons_val_fin_one, Nat.mul_one]
    rfl
  have hin : ∀ a : Fin S.rank, (![9215] : Fin 1 → Nat) a ≤ pos p (W.rowMajor lastPos) a
      ∧ pos p (W.rowMajor lastPos) a - (![9215] : Fin 1 → Nat) a < S.size a := by
    intro a
    have := (p a).isLt
    rw [hpos a, Matrix.cons_val_fin_one]
    omega
  unfold term
  rw [dif_pos hin]
  congr 1
  funext a
  apply Fin.ext
  show pos p (W.rowMajor lastPos) a - (![9215] : Fin 1 → Nat) a = (p a).val
  rw [hpos a, Matrix.cons_val_fin_one]
  omega

/-- The window has 9216 positions. -/
theorem numel_W : W.numel = 9216 := by
  simp [Shape.numel]

/-- The running count at a position whose own element is 1 lies between 1 and the vector's length. -/
theorem window_prefix_sum_bounds (x : IVec S 32) (init : S0.Idx → BitVec 32)
    (h : S.ReduceWindows (![9216] : Fin 1 → Nat) ![1] ![9215] ![0] S) (hu : 0 < S0.numel)
    (hinit : ∀ k, init k = 0#32) (hx : ∀ q, x q = 0#32 ∨ x q = 1#32) (p : S.Idx) (hp : x p = 1#32) :
    1 ≤ (Host.reduceWindow (s := S) (t := S) (u := S0) IntOp.addi ![9216] ![1] ![9215] ![0] x init h hu p).toNat
      ∧ (Host.reduceWindow (s := S) (t := S) (u := S0) IntOp.addi ![9216] ![1] ![9215] ![0] x init h hu p).toNat ≤ 9216 := by
  have hv : init (Shape.Idx.first hu) = 0#32 := hinit _
  have hg := term_toNat_le x (init (Shape.Idx.first hu)) hv hx p
  have hlen : (List.finRange W.numel).length = 9216 := by rw [List.length_finRange, numel_W]
  have h0 : (init (Shape.Idx.first hu)).toNat = 0 := by rw [hv]; rfl
  rw [reduceWindow_eq_foldl, toNat_foldl_add _ hg _ _ (by rw [hlen, h0]; omega), h0]
  have hle := sum_map_le_length (fun n => (term x (init (Shape.Idx.first hu)) p n).toNat) hg (List.finRange W.numel)
  have hge := one_le_sum_map (fun n => (term x (init (Shape.Idx.first hu)) p n).toNat)
    (W.rowMajor lastPos) (by show (term _ _ _ _).toNat = 1; rw [term_last, hp]; decide)
    (List.finRange W.numel) (List.mem_finRange _)
  rw [hlen] at hle
  omega

end Cert.LibWindowSum
-- ==== Proof.SpecFacts.lean ====
import proofs.«118784_j19104014532646_2_alg».proof.Proof.Spec
import proofs.«118784_j19104014532646_2_alg».proof.Proof.LibWindowSum
import Idealize.ShloMosaic.Lib.ValueIdx

/-! Facts about the slots, and the result both programs are compared with. A pixel's slot is its running count (between 1
    and 9216, because the count includes the pixel itself) where the condition holds, and 9217 where it does not; so it
    is never 0 and never negative as a signed word. The result, as a 9217 × 9216 table: row 0 is the centre; in row
    `s ≥ 1`, column `q` holds the error of pixel `q` if the slot of `q` is `s`, and zero otherwise. -/

noncomputable section

namespace Cert.Zono

open Idealize.ShloMosaic Idealize.ShloMosaic.ValueIdx

variable {F : FTy → Type} [FloatOps F]

/-- An equality test of words yields the bit 1 exactly when they are equal. -/
theorem cmpi_eq_one_iff (a b : BitVec 32) : IntOp.cmpi .eq a b = 1#1 ↔ a = b := by
  unfold IntOp.cmpi
  show BitVec.ofBool (a == b) = 1#1 ↔ a = b
  by_cases h : a = b
  · subst h
    exact ⟨fun _ => rfl, fun _ => by rw [beq_self_eq_true]; rfl⟩
  · have hb : (a == b) = false := by simpa using h
    rw [hb]
    exact ⟨fun h' => absurd h' (by decide), fun h' => absurd h' h⟩

/-- The one-hot test of block `t` at local row `r`: the local row number equals the slot minus the block's first row,
    as 32-bit words, exactly when the slot read as a natural number is `128 t + r`. -/
theorem onehot_iff (t r : Nat) (ht : t < 73) (hr : r < 128) (e : BitVec 32) :
    IntOp.cmpi .eq (BitVec.ofNat 32 r) (IntOp.subi e (Scalar.muli (BitVec.ofNat 32 t) 128#32)) = 1#1
      ↔ e.toNat = 128 * t + r := by
  rw [cmpi_eq_one_iff]
  show BitVec.ofNat 32 r = e - BitVec.ofNat 32 t * 128#32 ↔ _
  rw [← BitVec.toNat_inj]
  simp only [BitVec.toNat_sub, BitVec.toNat_mul, BitVec.toNat_ofNat]
  have := e.isLt
  omega

/-- The widened condition is 0 or 1, -/
theorem cnt_bit (x : FVec F S4 .f32) (q : SN.Idx) : cnt x q = 0#32 ∨ cnt x q = 1#32 := by
  show (cond x q).setWidth 32 = 0#32 ∨ (cond x q).setWidth 32 = 1#32
  have h : ∀ b : BitVec 1, b.setWidth 32 = 0#32 ∨ b.setWidth 32 = 1#32 := by decide
  exact h _

/-- and 1 where the condition holds. -/
theorem cnt_of_cond (x : FVec F S4 .f32) (q : SN.Idx) (h : cond x q = 1#1) : cnt x q = 1#32 := by
  show (cond x q).setWidth 32 = 1#32
  rw [h]; decide

/-- Where the condition holds the running count is between 1 and 9216. -/
theorem slot_bounds (x : FVec F S4 .f32) (q : SN.Idx) (h : cond x q = 1#1) :
    1 ≤ (slot x q).toNat ∧ (slot x q).toNat ≤ 9216 :=
  Cert.LibWindowSum.window_prefix_sum_bounds (cnt x) _ rwN hS0 (fun _ => rfl) (cnt_bit x) q (cnt_of_cond x q h)

/-- A pixel's slot is its running count where the condition holds, the sentinel elsewhere. -/
theorem errIdx_cases (x : FVec F S4 .f32) (q : SN.Idx) :
    (cond x q = 1#1 ∧ errIdx x q = slot x q) ∨ (¬cond x q = 1#1 ∧ errIdx x q = 9217#32) := by
  unfold errIdx
  rw [select_apply]
  by_cases h : cond x q = 1#1
  · exact Or.inl ⟨h, by rw [h]; exact select_one _ _⟩
  · exact Or.inr ⟨h, by rw [eq_zero_of_ne_one h]; exact select_zero _ _⟩

/-- So a slot, read as a natural number, is between 1 and 9217. -/
theorem errIdx_bounds (x : FVec F S4 .f32) (q : SN.Idx) : 1 ≤ (errIdx x q).toNat ∧ (errIdx x q).toNat ≤ 9217 := by
  rcases errIdx_cases x q with ⟨h, e⟩ | ⟨_, e⟩
  · rw [e]; have := slot_bounds x q h; omega
  · rw [e]; decide

/-- The result as a table: the centre in row 0; below it, pixel `q`'s error in the row that is its slot. -/
def G2d (x : FVec F S4 .f32) (s : Fin 9217) (q : Fin 9216) : F .f32 :=
  if s.val = 0 then shapeCast SN (bias4 x) sc4N (ix1 q)
  else if (errIdx x (ix1 q)).toNat = s.val then ef x (ix1 q) else Scalar.ofBits .f32 0x00000000#32

end Cert.Zono
end
-- ==== Proof.KernelValue.lean ====
import proofs.«118784_j19104014532646_2_alg».proof.Proof.KernelPieces
import proofs.«118784_j19104014532646_2_alg».proof.Proof.KernelEntry
import proofs.«118784_j19104014532646_2_alg».proof.Proof.SpecFacts
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

/-! The kernel's result array is the table. Block `t` of the 9217 × 9216 array holds rows `128 t … 128 t + 127` (the last
    block only its first row, row 9216: the rest overhangs the array and is not written back). What point `t` leaves at
    local row `r`, column `q` is the table's entry at row `128 t + r`: the one-hot test `r = slot q − 128 t` on 32-bit words
    says `slot q = 128 t + r`, and at the first point row 0 is then overwritten by the centre. The blocks cover the array
    (row `s` is in block `s / 128`), so the array ends as the table; the last host line re-lays it out as 1 × 9217 × 1 × 96 × 96. -/

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.ZValue
open Cert.KernelIdeal Cert.KernelIdeal.Gen Cert.Zono Cert.KernelIdeal.Entry Cert.KernelIdeal.Pieces
variable {F : FTy → Type} [FloatOps F]
variable (m : (ℓ : Loc nD τ sig) → Buf (Elt F) ℓ) (ρ : Dev nD → PrngReg)

/-- Where each window's block sits at point `t`: the three input rows at the origin, the output's block `t` blocks down;
    the body's grid coordinate is `t`; the output block's rows inside the array are `min 128 (9217 − 128 t)`. -/
theorem idx_facts : ∀ t : Fin cfg0.N,
    (win0_0.index t 0 = 0 ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (grid0.coords t 0).val = t.val ∧
    (win0_3.xsize (grid0.coords t) 0 = min 128 (9217 - 128 * t.val) ∧ win0_3.xsize (grid0.coords t) 1 = 9216) :=
  (by decide +kernel : ∀ t : Fin grid0.N,
    (win0_0.index t 0 = 0 ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧
    (grid0.coords t 0).val = t.val ∧
    (win0_3.xsize (grid0.coords t) 0 = min 128 (9217 - 128 * t.val) ∧ win0_3.xsize (grid0.coords t) 1 = 9216))

/-- The slot row's block at any point, read at column `q`. -/
theorem iblk0_apply (c : Dev nD) (t : Fin cfg0.N) (q : Fin 9216) :
    (iblk m c 0 t : Vec F S1x9216 .i32) (ix2 (0 : Fin 1) q) = errIdx (xin m c) (ix1 q) := by
  unfold iblk
  rw [View.read_apply]
  show V m c main_v22 _ = _
  have hi := (idx_facts t).1
  have e : (((cfg0.win 0).blk t).view.emb (ix2 (0 : Fin 1) q) : S1x9216.Idx) = ix2 (0 : Fin 1) q := by
    funext a; apply Fin.ext
    match a with
    | ⟨0, _⟩ => show win0_0.index t 0 * 1 + 1 * 0 = 0; rw [hi.1]
    | ⟨1, _⟩ => show win0_0.index t 1 * 9216 + 1 * q.val = q.val; rw [hi.2]; omega
  rw [e, V_slots]
  exact shapeCast_a_1a_apply _ _ 0 q

/-- The error row's block at any point, read at column `q`. -/
theorem iblk1_apply (c : Dev nD) (t : Fin cfg0.N) (q : Fin 9216) :
    (iblk m c 1 t : Vec F S1x9216 .f32) (ix2 (0 : Fin 1) q) = ef (xin m c) (ix1 q) := by
  unfold iblk
  rw [View.read_apply]
  show V m c main_v23 _ = _
  have hi := (idx_facts t).2.1
  have e : (((cfg0.win 1).blk t).view.emb (ix2 (0 : Fin 1) q) : S1x9216.Idx) = ix2 (0 : Fin 1) q := by
    funext a; apply Fin.ext
    match a with
    | ⟨0, _⟩ => show win0_1.index t 0 * 1 + 1 * 0 = 0; rw [hi.1]
    | ⟨1, _⟩ => show win0_1.index t 1 * 9216 + 1 * q.val = q.val; rw [hi.2]; omega
  rw [e, V_errs]
  exact shapeCast_a_1a_apply _ _ 0 q

/-- The centre row's block at any point, read at column `q`. -/
theorem iblk2_apply (c : Dev nD) (t : Fin cfg0.N) (q : Fin 9216) :
    (iblk m c 2 t : Vec F S1x9216 .f32) (ix2 (0 : Fin 1) q) = shapeCast SN (bias4 (xin m c)) sc4N (ix1 q) := by
  unfold iblk
  rw [View.read_apply]
  show V m c main_v24 _ = _
  have hi := (idx_facts t).2.2.1
  have e : (((cfg0.win 2).blk t).view.emb (ix2 (0 : Fin 1) q) : S1x9216.Idx) = ix2 (0 : Fin 1) q := by
    funext a; apply Fin.ext
    match a with
    | ⟨0, _⟩ => show win0_2.index t 0 * 1 + 1 * 0 = 0; rw [hi.1]
    | ⟨1, _⟩ => show win0_2.index t 1 * 9216 + 1 * q.val = q.val; rw [hi.2]; omega
  rw [e, V_bias]
  exact shapeCast_a_1a_apply _ _ 0 q

/-- The one-hot payload over any rows whose entries at column `q` are the word `E` and the value `v`: the value where
    `E` is `128 t + r`, zero elsewhere. -/
theorem pay1_spec (i : grid0.Coords) (tv : Nat) (hi : (i 0).val = tv) (ht : tv < 73)
    (x0 : Vec F S1x9216 .i32) (x1 : Vec F S1x9216 .f32) (r : Fin 128) (q : Fin 9216) (E : BitVec 32) (v : F .f32)
    (h0 : x0 (ix2 (0 : Fin 1) q) = E) (h1 : x1 (ix2 (0 : Fin 1) q) = v) :
    k0_pay1 i x0 x1 (ix2 r q) = if E.toNat = 128 * tv + r.val then v else Scalar.ofBits .f32 0x00000000#32 := by
  rw [pay1_apply, h0, h1, hi]
  by_cases hc : IntOp.cmpi .eq (BitVec.ofNat 32 r.val) (IntOp.subi E (Scalar.muli (BitVec.ofNat 32 tv) 128#32)) = 1#1
  · rw [hc, select_one, if_pos ((onehot_iff tv r.val ht r.isLt E).mp hc)]
  · rw [eq_zero_of_ne_one hc, select_zero, if_neg (fun h => hc ((onehot_iff tv r.val ht r.isLt E).mpr h))]

/-- What point `t` leaves at local row `r`, column `q` of its output block is the table at row `128 t + r`. -/
theorem outsAt_apply (c : Dev nD) (t : Fin cfg0.N) (r : Fin 128) (q : Fin 9216) (hs : 128 * t.val + r.val < 9217) :
    outsAt0 m c t.val t.isLt (ix2 r q) = G2d (xin m c) ⟨128 * t.val + r.val, hs⟩ q := by
  have hN : t.val < 73 := lt_of_lt_of_eq t.isLt (show cfg0.N = 73 from N_0)
  have hco : (grid0.coords t 0).val = t.val := (idx_facts t).2.2.2.2.1
  have hpay := pay1_spec (grid0.coords t) t.val hco hN (iblk m c 0 t) (iblk m c 1 t) r q _ _ (iblk0_apply m c t q) (iblk1_apply m c t q)
  show _ = (if 128 * t.val + r.val = 0 then shapeCast SN (bias4 (xin m c)) sc4N (ix1 q)
    else if (errIdx (xin m c) (ix1 q)).toNat = 128 * t.val + r.val then ef (xin m c) (ix1 q) else Scalar.ofBits .f32 0x00000000#32)
  by_cases h0 : t.val % 73 = 0
  · have ht0 : t.val = 0 := by omega
    rw [outsAt0_A m c t h0]
    by_cases hr : r.val = 0
    · obtain rfl : r = 0 := Fin.ext hr
      rw [if_pos (by rw [ht0]; rfl)]
      exact (out_A_row0 c (grid0.coords t) (ms0_0 t) (hs0_0 t) (ms0_1 t) (hs0_1 t) (ms0_2 t) (hs0_2 t) (ms0_3 t) (hs0_3 t)
        ((hcond0_0 t).mpr h0) (iblk m c 0 t) (iblk m c 1 t) (iblk m c 2 t) q).trans (iblk2_apply m c t q)
    · rw [if_neg (by omega)]
      exact (out_A_rest c (grid0.coords t) (ms0_0 t) (hs0_0 t) (ms0_1 t) (hs0_1 t) (ms0_2 t) (hs0_2 t) (ms0_3 t) (hs0_3 t)
        ((hcond0_0 t).mpr h0) (iblk m c 0 t) (iblk m c 1 t) (iblk m c 2 t) r hr q).trans hpay
  · rw [outsAt0_B m c t h0, if_neg (by omega)]
    exact (congrFun (out_B c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) (iblk m c 2 t)) (ix2 r q)).trans hpay

/-- The table as contents of the kernel's 9217 × 9216 result array. -/
def table (c : Dev nD) : Buf (Elt F) ((c : Thread nD τ).loc main_v25) := fun i => G2d (xin m c) (i 0) (i 1)

set_option maxHeartbeats 800000 in
/-- What point `t` writes back — its block's rows inside the array — is the table read through the block. -/
theorem flushed_eq (c : Dev nD) (t : Fin cfg0.N) :
    (dats m 0 c).flushed 3 t = ((cfg0.win 3).blk t).view.read (Elt F) (table m c) := by
  funext j
  have hi := (idx_facts t).2.2.2.1
  have hx0 : (j 0).val < 128 := lt_of_lt_of_le (j 0).isLt ((cfg0.win 3).xsize_le (cfg0.grid.coords t) 0)
  have hx1 : (j 1).val < 9216 := lt_of_lt_of_le (j 1).isLt ((cfg0.win 3).xsize_le (cfg0.grid.coords t) 1)
  have hrow : ((((cfg0.win 3).blk t).view.emb j : S9217x9216.Idx) 0).val = 128 * t.val + (j 0).val := by
    show win0_3.index t 0 * 128 + 1 * (j 0).val = _
    rw [hi.1]; omega
  have hcol : ((((cfg0.win 3).blk t).view.emb j : S9217x9216.Idx) 1).val = (j 1).val := by
    show win0_3.index t 1 * 9216 + 1 * (j 1).val = _
    rw [hi.2]; omega
  have hs : 128 * t.val + (j 0).val < 9217 := by
    rw [← hrow]; exact ((((cfg0.win 3).blk t).view.emb j : S9217x9216.Idx) 0).isLt
  have hxj : ((cfg0.win 3).xinj (grid0.coords t) j : S128x9216.Idx)
      = ix2 (⟨(j 0).val, hx0⟩ : Fin 128) (⟨(j 1).val, hx1⟩ : Fin 9216) := by
    funext a; apply Fin.ext
    match a with
    | ⟨0, _⟩ => rfl
    | ⟨1, _⟩ => rfl
  show (cfg0.win 3).cut (grid0.coords t) ((dats m 0 c).after 3 t) j = _
  rw [after0_3, View.read_apply]
  show outsAt0 m c t.val t.isLt ((cfg0.win 3).xinj (grid0.coords t) j) = _
  rw [hxj, outsAt_apply m c t ⟨(j 0).val, hx0⟩ ⟨(j 1).val, hx1⟩ hs]
  unfold table
  show G2d (xin m c) _ _ = G2d (xin m c) _ _
  congr 1
  · exact Fin.ext hrow.symm
  · exact Fin.ext hcol.symm

/-- So the result array ends holding the table: row `s` lies in block `s / 128`. -/
theorem final (c : Dev nD) : (dats m 0 c).arrAt 3 cfg0.N = table m c :=
  (dats m 0 c).arrAt_eq_of_cover 3 (table m c) (fun t _ => flushed_eq m c t) fun i => by
    have hN : cfg0.N = 73 := N_0
    have h0 : (i 0 : Nat) < 9217 := (i 0).isLt
    have h1 : (i 1 : Nat) < 9216 := (i 1).isLt
    refine ⟨⟨(i 0 : Nat) / 128, by rw [hN]; omega⟩, flush0_3 _, ?_⟩
    generalize ht : (⟨(i 0 : Nat) / 128, by rw [hN]; omega⟩ : Fin cfg0.N) = t
    have htv : t.val = (i 0 : Nat) / 128 := by rw [← ht]
    have hi := (idx_facts t).2.2.2.1
    have hx := (idx_facts t).2.2.2.2.2
    show i ∈ ((View.whole main_v25).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [hi.1, hx.1, show win0_3.size 0 = 128 from rfl, htv]; omega
    | ⟨1, _⟩ =>
      show win0_3.index t 1 * win0_3.size 1 ≤ (i 1 : Nat) ∧ (i 1 : Nat) < win0_3.index t 1 * win0_3.size 1 + win0_3.xsize (grid0.coords t) 1
      rw [hi.2, hx.2]; omega

end Cert.KernelIdeal.ZValue
end
-- ==== Proof.SpecLayout.lean ====
import proofs.«118784_j19104014532646_2_alg».proof.Proof.SpecFacts
import Idealize.ShloMosaic.Lib.Pipeline.Value
import Idealize.ShloMosaic.Lib.ValueIdx

/-! The result in its final layout 1 × 9217 × 1 × 96 × 96: entry `(0, s, 0, i, k)` is the table's entry at row `s`, pixel
    `96 i + k`. Re-laying the 9217 × 9216 table out row-major gives exactly that; and the centre of pixel `96 i + k` is the
    image-shaped centre at `(i, k)`, whichever flattening it is read through. -/

noncomputable section

namespace Cert.Zono

open Idealize.ShloMosaic Idealize.ShloMosaic.ValueIdx

variable {F : FTy → Type} [FloatOps F]

abbrev S5 : Shape := ⟨5, ![1, 9217, 1, 96, 96]⟩
abbrev S2d : Shape := ⟨2, ![9217, 9216]⟩
abbrev S3 : Shape := ⟨3, ![1, 96, 96]⟩

/-- The pixel a 5-D index names. -/
def pix (j : S5.Idx) : Fin 9216 :=
  ⟨96 * (j 3).val + (j 4).val, by
    have h3 : (j 3).val < 96 := (j 3).isLt
    have h4 : (j 4).val < 96 := (j 4).isLt
    omega⟩

theorem pix_val (j : S5.Idx) : (pix j).val = 96 * (j 3).val + (j 4).val := rfl

/-- The result in its final layout. -/
def G5 (x : FVec F S4 .f32) : S5.Idx → F .f32 := fun j => G2d x (j 1) (pix j)

/-- A 9217 × 9216 array holding the table, re-laid row-major as 1 × 9217 × 1 × 96 × 96, is the result. -/
theorem shapeCast_table (x : FVec F S4 .f32) (T : S2d.Idx → F .f32) (hT : ∀ i, T i = G2d x (i 0) (i 1))
    (h : S2d.ShapeCasts S5) : shapeCast S5 T h = G5 x := by
  funext j
  have h0 : (j 0).val < 1 := (j 0).isLt
  have h2 : (j 2).val < 1 := (j 2).isLt
  have h3 : (j 3).val < 96 := (j 3).isLt
  have h4 : (j 4).val < 96 := (j 4).isLt
  rw [shapeCast_apply T h j (ix2 (j 1) (pix j)) (by
    rw [Shape.rowMajor_val_two, Shape.rowMajor_val_five]
    show (j 1).val * 9216 + (96 * (j 3).val + (j 4).val)
      = (((((j 0).val * 9217 + (j 1).val) * 1 + (j 2).val) * 96 + (j 3).val) * 96 + (j 4).val)
    omega), hT]
  rfl

/-- The centre of the pixel a 5-D index names, read through the image dropped to 1 × 96 × 96 or flattened to 9216. -/
theorem bias_two_ways (x : FVec F S4 .f32) (j : S5.Idx) (h3 : S4.ShapeCasts S3) :
    shapeCast S3 (bias4 x) h3 (ix3 (j 2) (j 3) (j 4)) = shapeCast SN (bias4 x) sc4N (ix1 (pix j)) := by
  have h2 : (j 2).val < 1 := (j 2).isLt
  have h3' : (j 3).val < 96 := (j 3).isLt
  have h4 : (j 4).val < 96 := (j 4).isLt
  rw [shapeCast_apply (bias4 x) h3 _ (ix4 (0 : Fin 1) (0 : Fin 1) (j 3) (j 4)) (by
      rw [Shape.rowMajor_val_four, Shape.rowMajor_val_three]
      show (((0 * 1 + 0) * 96 + (j 3).val) * 96 + (j 4).val) = ((j 2).val * 96 + (j 3).val) * 96 + (j 4).val
      omega),
    shapeCast_apply (bias4 x) sc4N _ (ix4 (0 : Fin 1) (0 : Fin 1) (j 3) (j 4)) (by
      rw [Shape.rowMajor_val_four, Shape.rowMajor_val_one]
      show (((0 * 1 + 0) * 96 + (j 3).val) * 96 + (j 4).val) = 96 * (j 3).val + (j 4).val
      omega)]

end Cert.Zono
end
-- ==== Proof.KernelRun.lean ====
import proofs.«118784_j19104014532646_2_alg».proof.Proof.KernelValue
import proofs.«118784_j19104014532646_2_alg».proof.Proof.SpecLayout
import Idealize.ShloMosaic.Lib.Pipeline.Value
import Idealize.ShloMosaic.Lib.StableHlo.Run

/-! The kernel's run, read: after the region the result array holds the table; the one host line after it re-lays the
    table out as 1 × 9217 × 1 × 96 × 96, so the program's result is the result `G5` of the argument image, which is left
    unchanged. -/

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.ZValue
open Cert.KernelIdeal Cert.KernelIdeal.Gen Cert.Zono Cert.KernelIdeal.Entry
variable {F : FTy → Type} [FloatOps F]
variable (m : (ℓ : Loc nD τ sig) → Buf (Elt F) ℓ) (ρ : Dev nD → PrngReg)

/-- The host line after the region, applied to the result array as the region leaves it. -/
theorem tail_result (c : Dev nD) :
    Pipeline.afterTail₀ cfgs (dats m) 0 (V0 m) [hostOps1] c main_v26 = G5 (xin m c) := by
  have hW : Pipeline.withArrays (cfgs 0).spec c (V0 m c) (fun w => (dats m 0 c).arrAt w (cfgs 0).N)
      (Proc.devRef .tc main_v25) = table m c :=
    (Pipeline.withArrays_arr spec0 launch0.win.arr_inj c _ _ 3).trans (final m c)
  unfold Pipeline.afterTail₀
  show StableHlo.after hostOps1 _ (Proc.devRef .tc main_v26) = _
  after_results
  rw [hW]
  exact shapeCast_table (xin m c) (table m c) (fun _ => rfl) _

/-- Every weakly fair execution of the kernel's program ends with the result array at `G5` of the argument image and
    the argument unchanged. -/
theorem run : θ_run defs (onTc (τ := τ) (main (F := F))) ⟨m, fun _ => 0, ρ⟩ fun r => ∀ c : Dev nD,
      r.2.mem ((c.tc : Thread nD τ).loc main_v26) = G5 (xin m c)
      ∧ r.2.mem ((c.tc : Thread nD τ).loc main_arg0) = m ((c.tc : Thread nD τ).loc main_arg0) :=
  (θ_run defs _ _).mono (fun _ h c =>
      ⟨((h c).2 main_v26 (Pipeline.mem_restRefs_of main_v26 (by decide) (by decide))).trans (tail_result m c),
       ((h c).2 main_arg0 (Pipeline.mem_restRefs_of main_arg0 (by decide) (by decide))).trans (W_main_arg0 m (dats m) c)⟩)
    (run_main m ρ)

end Cert.KernelIdeal.ZValue
end
-- ==== Proof.RefRun.lean ====
/-
  The reference program's @main as one straight line of its host operations: every
  operation of @main in order, each call of a module-local function replaced by the callee's operations over
  that call's record of buffers (the callee's parameters read as the call's arguments), nested calls likewise.
  `main_eq` states that @main is the sequence of that list; `run_main` is the library's run of such a sequence:
  every weakly fair execution terminates with every buffer at the fold of the list over the launch contents.
-/
import proofs.«118784_j19104014532646_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first 60 statements, the callees' inline: 188 operations. -/
abbrev ops0 : List (HloOp τ sig (Elt F)) :=
  [ StableHlo.nullary main_cst (constant S_ .f32 0x3DCCCCCD#32),
    StableHlo.unary main_cst main_v0 (broadcastInDim S1x1x96x96 ![] bcast_S_S1x1x96x96 : (⟨S_, .f32⟩ : BufTy).Contents (Elt F) → (⟨S1x1x96x96, .f32⟩ : BufTy).Contents (Elt F)),
    StableHlo.binary main_v0 main_arg0 main_v1 (subf : (⟨S1x1x96x96, .f32⟩ : BufTy).Contents (Elt F) → (⟨S1x1x96x96, .f32⟩ : BufTy).Contents (Elt F) → (⟨S1x1x96x96, .f32⟩ : BufTy).Contents (Elt F)),
    StableHlo.TRef.nullary main_call0.cst (constant S_ .f32 0x00000000#32),
    StableHlo.TRef.unary main_call0.cst main_call0.v0 (broadcastInDim S1x1x96x96 ![] bcast_S_S1x1x96x96),
    StableHlo.TRef.binary (.of main_v1 : StableHlo.TRef sig ⟨S1x1x96x96, .f32⟩) main_call0.v0 main_call0.v1 maximumf,
    StableHlo.nullary main_cst_0 (constant S_ .f32 0x3F000000#32),
    StableHlo.unary main_cst_0 main_v3 (broadcastInDim S1x1x96x96 ![] bcast_S_S1x1x96x96 : (⟨S_, .f32⟩ : BufTy).Contents (Elt F) → (⟨S1x1x96x96, .f32⟩ : BufTy).Contents (Elt F)),
    StableHlo.binary main_v2 main_v3 main_v4 (mulf : (⟨S1x1x96x96, .f32⟩ : BufTy).Contents (Elt F) → (⟨S1x1x96x96, .f32⟩ : BufTy).Contents (Elt F) → (⟨S1x1x96x96, .f32⟩ : BufTy).Contents (Elt F)),
    StableHlo.nullary main_cst_1 (constant S_ .f32 0x3F666666#32),
    StableHlo.unary main_cst_1 main_v5 (broadcastInDim S1x1x96x96 ![] bcast_S_S1x1x96x96 : (⟨S_, .f32⟩ : BufTy).Contents (Elt F) → (⟨S1x1x96x96, .f32⟩ : BufTy).Contents (Elt F)),
    StableHlo.binary main_arg0 main_v5 main_v6 (subf : (⟨S1x1x96x96, .f32⟩ : BufTy).Contents (Elt F) → (⟨S1x1x96x96, .f32⟩ : BufTy).Contents (Elt F) → (⟨S1x1x96x96, .f32⟩ : BufTy).Contents (Elt F)),
    StableHlo.TRef.nullary main_call1.cst (constant S_ .f32 0x00000000#32),
    StableHlo.TRef.unary main_call1.cst main_call1.v0 (broadcastInDim S1x1x96x96 ![] bcast_S_S1x1x96x96),
    StableHlo.TRef.binary (.of main_v6 : StableHlo.TRef sig ⟨S1x1x96x96, .f32⟩) main_call1.v0 main_call1.v1 maximumf,
    StableHlo.nullary main_cst_2 (constant S_ .f32 0x3F000000#32),
    StableHlo.unary main_cst_2 main_v8 (broadcastInDim S1x1x96x96 ![] bcast_S_S1x1x96x96 : (⟨S_, .f32⟩ : BufTy).Contents (Elt F) → (⟨S1x1x96x96, .f32⟩ : BufTy).Contents (Elt F)),
    StableHlo.binary main_v7 main_v8 main_v9 (mulf : (⟨S1x1x96x96, .f32⟩ : BufTy).Contents (Elt F) → (⟨S1x1x96x96, .f32⟩ : BufTy).Contents (Elt F) → (⟨S1x1x96x96, .f32⟩ : BufTy).Contents (Elt F)),
    StableHlo.binary main_arg0 main_v4 main_v10 (addf : (⟨S1x1x96x96, .f32⟩ : BufTy).Contents (Elt F) → (⟨S1x1x96x96, .f32⟩ : BufTy).Contents (Elt F) → (⟨S1x1x96x96, .f32⟩ : BufTy).Contents (Elt F)),
    StableHlo.binary main_v10 main_v9 main_v11 (subf : (⟨S1x1x96x96, .f32⟩ : BufTy).Contents (Elt F) → (⟨S1x1x96x96, .f32⟩ : BufTy).Contents (Elt F) → (⟨S1x1x96x96, .f32⟩ : BufTy).Contents (Elt F)),
    StableHlo.nullary main_cst_3 (constant S_ .f32 0x3DCCCCCD#32),
    StableHlo.unary main_cst_3 main_v12 (broadcastInDim S1x1x96x96 ![] bcast_S_S1x1x96x96 : (⟨S_, .f32⟩ : BufTy).Contents (Elt F) → (⟨S1x1x96x96, .f32⟩ : BufTy).Contents (Elt F)),
    StableHlo.binary main_v12 main_v4 main_v13 (subf : (⟨S1x1x96x96, .f32⟩ : BufTy).Contents (Elt F) → (⟨S1x1x96x96, .f32⟩ : BufTy).Contents (Elt F) → (⟨S1x1x96x96, .f32⟩ : BufTy).Contents (Elt F)),
    StableHlo.binary main_v13 main_v9 main_v14 (subf : (⟨S1x1x96x96, .f32⟩ : BufTy).Contents (Elt F) → (⟨S1x1x96x96, .f32⟩ : BufTy).Contents (Elt F) → (⟨S1x1x96x96, .f32⟩ : BufTy).Contents (Elt F)),
    StableHlo.reshape main_v14 main_v15 rfl shapeCasts_S1x1x96x96_S9216,
    StableHlo.nullary main_cst_4 (constant S_ .f32 0x00000000#32),
    StableHlo.unary main_cst_4 main_v16 (broadcastInDim S9216 ![] bcast_S_S9216 : (⟨S_, .f32⟩ : BufTy).Contents (Elt F) → (⟨S9216, .f32⟩ : BufTy).Contents (Elt F)),
    StableHlo.binary main_v15 main_v16 main_v17 (cmpf .oge : (⟨S9216, .f32⟩ : BufTy).Contents (Elt F) → (⟨S9216, .f32⟩ : BufTy).Contents (Elt F) → (⟨S9216, .i1⟩ : BufTy).Contents (Elt F)),
    StableHlo.unary main_v17 main_v18 ((extui 32 · natLt_1_32) : (⟨S9216, .i1⟩ : BufTy).Contents (Elt F) → (⟨S9216, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v18 : StableHlo.TRef sig ⟨S9216, .i32⟩) main_call2.call0.v0 main_call2.call0.v1 (fun x v => Host.reduceWindow IntOp.addi ![9216] ![1] ![9215] ![0] x v reduceWindows_S9216_S9216_w9216s1p9215_0 h_S_),
    StableHlo.nullary main_c (constantI S_ 32 9217#32),
    StableHlo.TRef.unary (.of main_c : StableHlo.TRef sig ⟨S_, .i32⟩) main_call3.v0 id,
    StableHlo.TRef.unary main_call3.v0 main_call3.v1 (broadcastInDim S9216 ![] bcast_S_S9216),
    StableHlo.TRef.ternary (.of main_v17 : StableHlo.TRef sig ⟨S9216, .i1⟩) (.of main_v19 : StableHlo.TRef sig ⟨S9216, .i32⟩) main_call3.v1 main_call3.v2 select,
    StableHlo.nullary main_v21 (iotaInDim S9216 32 0),
    StableHlo.nullary main_c_5 (constantI S_ 32 96#32),
    StableHlo.TRef.unary (.of main_c_5 : StableHlo.TRef sig ⟨S_, .i32⟩) main_call4.v0 id,
    StableHlo.TRef.unary main_call4.v0 main_call4.call0.v0 (broadcastInDim S9216 ![] bcast_S_S9216),
    StableHlo.TRef.binary (.of main_v21 : StableHlo.TRef sig ⟨S9216, .i32⟩) main_call4.call0.v0 main_call4.call0.v1 Host.divsi,
    StableHlo.TRef.unary (.of main_v21 : StableHlo.TRef sig ⟨S9216, .i32⟩) main_call4.call0.v2 signi,
    StableHlo.TRef.unary main_call4.v0 main_call4.call0.v3 signi,
    StableHlo.TRef.unary main_call4.call0.v3 main_call4.call0.v4 (broadcastInDim S9216 ![] bcast_S_S9216),
    StableHlo.TRef.binary main_call4.call0.v2 main_call4.call0.v4 main_call4.call0.v5 (cmpi .ne),
    StableHlo.TRef.unary main_call4.v0 main_call4.call0.v6 (broadcastInDim S9216 ![] bcast_S_S9216),
    StableHlo.TRef.binary (.of main_v21 : StableHlo.TRef sig ⟨S9216, .i32⟩) main_call4.call0.v6 main_call4.call0.v7 Host.remsi,
    StableHlo.TRef.nullary main_call4.call0.c (constantI S_ 32 0#32),
    StableHlo.TRef.unary main_call4.call0.c main_call4.call0.v8 (broadcastInDim S9216 ![] bcast_S_S9216),
    StableHlo.TRef.binary main_call4.call0.v7 main_call4.call0.v8 main_call4.call0.v9 (cmpi .ne),
    StableHlo.TRef.binary main_call4.call0.v5 main_call4.call0.v9 main_call4.call0.v10 andi,
    StableHlo.TRef.nullary main_call4.call0.c_0 (constantI S_ 32 1#32),
    StableHlo.TRef.unary main_call4.call0.c_0 main_call4.call0.v11 (broadcastInDim S9216 ![] bcast_S_S9216),
    StableHlo.TRef.binary main_call4.call0.v1 main_call4.call0.v11 main_call4.call0.v12 subi,
    StableHlo.TRef.ternary main_call4.call0.v10 main_call4.call0.v12 main_call4.call0.v1 main_call4.call0.call0.v0 select,
    StableHlo.TRef.nullary main_call4.call1.c (constantI S_ 32 0#32),
    StableHlo.TRef.binary main_call4.v0 main_call4.call1.c main_call4.call1.v0 (cmpi .eq),
    StableHlo.TRef.nullary main_call4.call1.c_0 (constantI S_ 32 1#32),
    StableHlo.TRef.ternary main_call4.call1.v0 main_call4.call1.c_0 main_call4.v0 main_call4.call1.call0.v0 select,
    StableHlo.TRef.unary main_call4.call1.call0.v0 main_call4.call1.v2 (broadcastInDim S9216 ![] bcast_S_S9216),
    StableHlo.TRef.binary (.of main_v21 : StableHlo.TRef sig ⟨S9216, .i32⟩) main_call4.call1.v2 main_call4.call1.v3 Host.remsi,
    StableHlo.TRef.nullary main_call4.call1.c_1 (constantI S_ 32 0#32),
    StableHlo.TRef.unary main_call4.call1.c_1 main_call4.call1.v4 (broadcastInDim S9216 ![] bcast_S_S9216),
    StableHlo.TRef.binary main_call4.call1.v3 main_call4.call1.v4 main_call4.call1.v5 (cmpi .ne),
    StableHlo.TRef.nullary main_call4.call1.c_2 (constantI S_ 32 0#32),
    StableHlo.TRef.unary main_call4.call1.c_2 main_call4.call1.v6 (broadcastInDim S9216 ![] bcast_S_S9216),
    StableHlo.TRef.binary main_call4.call1.v3 main_call4.call1.v6 main_call4.call1.v7 (cmpi .slt),
    StableHlo.TRef.nullary main_call4.call1.c_3 (constantI S_ 32 0#32),
    StableHlo.TRef.binary main_call4.call1.call0.v0 main_call4.call1.c_3 main_call4.call1.v8 (cmpi .slt),
    StableHlo.TRef.unary main_call4.call1.v8 main_call4.call1.v9 (broadcastInDim S9216 ![] bcast_S_S9216),
    StableHlo.TRef.binary main_call4.call1.v7 main_call4.call1.v9 main_call4.call1.v10 (cmpi .ne),
    StableHlo.TRef.binary main_call4.call1.v10 main_call4.call1.v5 main_call4.call1.v11 andi,
    StableHlo.TRef.unary main_call4.call1.call0.v0 main_call4.call1.v12 (broadcastInDim S9216 ![] bcast_S_S9216),
    StableHlo.TRef.binary main_call4.call1.v3 main_call4.call1.v12 main_call4.call1.v13 addi,
    StableHlo.TRef.ternary main_call4.call1.v11 main_call4.call1.v13 main_call4.call1.v3 main_call4.call1.v14 select,
    StableHlo.nullary main_c_6 (constantI S_ 32 96#32),
    StableHlo.TRef.unary (.of main_c_6 : StableHlo.TRef sig ⟨S_, .i32⟩) main_call5.v0 id,
    StableHlo.TRef.unary main_call5.v0 main_call5.call0.v0 (broadcastInDim S9216 ![] bcast_S_S9216),
    StableHlo.TRef.binary (.of main_v22_0 : StableHlo.TRef sig ⟨S9216, .i32⟩) main_call5.call0.v0 main_call5.call0.v1 Host.divsi,
    StableHlo.TRef.unary (.of main_v22_0 : StableHlo.TRef sig ⟨S9216, .i32⟩) main_call5.call0.v2 signi,
    StableHlo.TRef.unary main_call5.v0 main_call5.call0.v3 signi,
    StableHlo.TRef.unary main_call5.call0.v3 main_call5.call0.v4 (broadcastInDim S9216 ![] bcast_S_S9216),
    StableHlo.TRef.binary main_call5.call0.v2 main_call5.call0.v4 main_call5.call0.v5 (cmpi .ne),
    StableHlo.TRef.unary main_call5.v0 main_call5.call0.v6 (broadcastInDim S9216 ![] bcast_S_S9216),
    StableHlo.TRef.binary (.of main_v22_0 : StableHlo.TRef sig ⟨S9216, .i32⟩) main_call5.call0.v6 main_call5.call0.v7 Host.remsi,
    StableHlo.TRef.nullary main_call5.call0.c (constantI S_ 32 0#32),
    StableHlo.TRef.unary main_call5.call0.c main_call5.call0.v8 (broadcastInDim S9216 ![] bcast_S_S9216),
    StableHlo.TRef.binary main_call5.call0.v7 main_call5.call0.v8 main_call5.call0.v9 (cmpi .ne),
    StableHlo.TRef.binary main_call5.call0.v5 main_call5.call0.v9 main_call5.call0.v10 andi,
    StableHlo.TRef.nullary main_call5.call0.c_0 (constantI S_ 32 1#32),
    StableHlo.TRef.unary main_call5.call0.c_0 main_call5.call0.v11 (broadcastInDim S9216 ![] bcast_S_S9216),
    StableHlo.TRef.binary main_call5.call0.v1 main_call5.call0.v11 main_call5.call0.v12 subi,
    StableHlo.TRef.ternary main_call5.call0.v10 main_call5.call0.v12 main_call5.call0.v1 main_call5.call0.call0.v0 select,
    StableHlo.TRef.nullary main_call5.call1.c (constantI S_ 32 0#32),
    StableHlo.TRef.binary main_call5.v0 main_call5.call1.c main_call5.call1.v0 (cmpi .eq),
    StableHlo.TRef.nullary main_call5.call1.c_0 (constantI S_ 32 1#32),
    StableHlo.TRef.ternary main_call5.call1.v0 main_call5.call1.c_0 main_call5.v0 main_call5.call1.call0.v0 select,
    StableHlo.TRef.unary main_call5.call1.call0.v0 main_call5.call1.v2 (broadcastInDim S9216 ![] bcast_S_S9216),
    StableHlo.TRef.binary (.of main_v22_0 : StableHlo.TRef sig ⟨S9216, .i32⟩) main_call5.call1.v2 main_call5.call1.v3 Host.remsi,
    StableHlo.TRef.nullary main_call5.call1.c_1 (constantI S_ 32 0#32),
    StableHlo.TRef.unary main_call5.call1.c_1 main_call5.call1.v4 (broadcastInDim S9216 ![] bcast_S_S9216),
    StableHlo.TRef.binary main_call5.call1.v3 main_call5.call1.v4 main_call5.call1.v5 (cmpi .ne),
    StableHlo.TRef.nullary main_call5.call1.c_2 (constantI S_ 32 0#32),
    StableHlo.TRef.unary main_call5.call1.c_2 main_call5.call1.v6 (broadcastInDim S9216 ![] bcast_S_S9216),
    StableHlo.TRef.binary main_call5.call1.v3 main_call5.call1.v6 main_call5.call1.v7 (cmpi .slt),
    StableHlo.TRef.nullary main_call5.call1.c_3 (constantI S_ 32 0#32),
    StableHlo.TRef.binary main_call5.call1.call0.v0 main_call5.call1.c_3 main_call5.call1.v8 (cmpi .slt),
    StableHlo.TRef.unary main_call5.call1.v8 main_call5.call1.v9 (broadcastInDim S9216 ![] bcast_S_S9216),
    StableHlo.TRef.binary main_call5.call1.v7 main_call5.call1.v9 main_call5.call1.v10 (cmpi .ne),
    StableHlo.TRef.binary main_call5.call1.v10 main_call5.call1.v5 main_call5.call1.v11 andi,
    StableHlo.TRef.unary main_call5.call1.call0.v0 main_call5.call1.v12 (broadcastInDim S9216 ![] bcast_S_S9216),
    StableHlo.TRef.binary main_call5.call1.v3 main_call5.call1.v12 main_call5.call1.v13 addi,
    StableHlo.TRef.ternary main_call5.call1.v11 main_call5.call1.v13 main_call5.call1.v3 main_call5.call1.v14 select,
    StableHlo.nullary main_c_7 (constantI S_ 32 1#32),
    StableHlo.TRef.unary (.of main_c_7 : StableHlo.TRef sig ⟨S_, .i32⟩) main_call6.v0 id,
    StableHlo.TRef.unary main_call6.v0 main_call6.call0.v0 (broadcastInDim S9216 ![] bcast_S_S9216),
    StableHlo.TRef.binary (.of main_v23_0 : StableHlo.TRef sig ⟨S9216, .i32⟩) main_call6.call0.v0 main_call6.call0.v1 Host.divsi,
    StableHlo.TRef.unary (.of main_v23_0 : StableHlo.TRef sig ⟨S9216, .i32⟩) main_call6.call0.v2 signi,
    StableHlo.TRef.unary main_call6.v0 main_call6.call0.v3 signi,
    StableHlo.TRef.unary main_call6.call0.v3 main_call6.call0.v4 (broadcastInDim S9216 ![] bcast_S_S9216),
    StableHlo.TRef.binary main_call6.call0.v2 main_call6.call0.v4 main_call6.call0.v5 (cmpi .ne),
    StableHlo.TRef.unary main_call6.v0 main_call6.call0.v6 (broadcastInDim S9216 ![] bcast_S_S9216),
    StableHlo.TRef.binary (.of main_v23_0 : StableHlo.TRef sig ⟨S9216, .i32⟩) main_call6.call0.v6 main_call6.call0.v7 Host.remsi,
    StableHlo.TRef.nullary main_call6.call0.c (constantI S_ 32 0#32),
    StableHlo.TRef.unary main_call6.call0.c main_call6.call0.v8 (broadcastInDim S9216 ![] bcast_S_S9216),
    StableHlo.TRef.binary main_call6.call0.v7 main_call6.call0.v8 main_call6.call0.v9 (cmpi .ne),
    StableHlo.TRef.binary main_call6.call0.v5 main_call6.call0.v9 main_call6.call0.v10 andi,
    StableHlo.TRef.nullary main_call6.call0.c_0 (constantI S_ 32 1#32),
    StableHlo.TRef.unary main_call6.call0.c_0 main_call6.call0.v11 (broadcastInDim S9216 ![] bcast_S_S9216),
    StableHlo.TRef.binary main_call6.call0.v1 main_call6.call0.v11 main_call6.call0.v12 subi,
    StableHlo.TRef.ternary main_call6.call0.v10 main_call6.call0.v12 main_call6.call0.v1 main_call6.call0.call0.v0 select,
    StableHlo.TRef.nullary main_call6.call1.c (constantI S_ 32 0#32),
    StableHlo.TRef.binary main_call6.v0 main_call6.call1.c main_call6.call1.v0 (cmpi .eq),
    StableHlo.TRef.nullary main_call6.call1.c_0 (constantI S_ 32 1#32),
    StableHlo.TRef.ternary main_call6.call1.v0 main_call6.call1.c_0 main_call6.v0 main_call6.call1.call0.v0 select,
    StableHlo.TRef.unary main_call6.call1.call0.v0 main_call6.call1.v2 (broadcastInDim S9216 ![] bcast_S_S9216),
    StableHlo.TRef.binary (.of main_v23_0 : StableHlo.TRef sig ⟨S9216, .i32⟩) main_call6.call1.v2 main_call6.call1.v3 Host.remsi,
    StableHlo.TRef.nullary main_call6.call1.c_1 (constantI S_ 32 0#32),
    StableHlo.TRef.unary main_call6.call1.c_1 main_call6.call1.v4 (broadcastInDim S9216 ![] bcast_S_S9216),
    StableHlo.TRef.binary main_call6.call1.v3 main_call6.call1.v4 main_call6.call1.v5 (cmpi .ne),
    StableHlo.TRef.nullary main_call6.call1.c_2 (constantI S_ 32 0#32),
    StableHlo.TRef.unary main_call6.call1.c_2 main_call6.call1.v6 (broadcastInDim S9216 ![] bcast_S_S9216),
    StableHlo.TRef.binary main_call6.call1.v3 main_call6.call1.v6 main_call6.call1.v7 (cmpi .slt),
    StableHlo.TRef.nullary main_call6.call1.c_3 (constantI S_ 32 0#32),
    StableHlo.TRef.binary main_call6.call1.call0.v0 main_call6.call1.c_3 main_call6.call1.v8 (cmpi .slt),
    StableHlo.TRef.unary main_call6.call1.v8 main_call6.call1.v9 (broadcastInDim S9216 ![] bcast_S_S9216),
    StableHlo.TRef.binary main_call6.call1.v7 main_call6.call1.v9 main_call6.call1.v10 (cmpi .ne),
    StableHlo.TRef.binary main_call6.call1.v10 main_call6.call1.v5 main_call6.call1.v11 andi,
    StableHlo.TRef.unary main_call6.call1.call0.v0 main_call6.call1.v12 (broadcastInDim S9216 ![] bcast_S_S9216),
    StableHlo.TRef.binary main_call6.call1.v3 main_call6.call1.v12 main_call6.call1.v13 addi,
    StableHlo.TRef.ternary main_call6.call1.v11 main_call6.call1.v13 main_call6.call1.v3 main_call6.call1.v14 select,
    StableHlo.nullary main_c_8 (constantI S_ 32 0#32),
    StableHlo.unary main_c_8 main_v25 (broadcastInDim S9216 ![] bcast_S_S9216 : (⟨S_, .i32⟩ : BufTy).Contents (Elt F) → (⟨S9216, .i32⟩ : BufTy).Contents (Elt F)),
    StableHlo.binary main_v24_0 main_v25 main_v26 (cmpi .sgt : (⟨S9216, .i32⟩ : BufTy).Contents (Elt F) → (⟨S9216, .i32⟩ : BufTy).Contents (Elt F) → (⟨S9216, .i1⟩ : BufTy).Contents (Elt F)),
    StableHlo.nullary main_c_9 (constantI S_ 32 4294967295#32),
    StableHlo.unary main_c_9 main_v27 (broadcastInDim S9216 ![] bcast_S_S9216 : (⟨S_, .i32⟩ : BufTy).Contents (Elt F) → (⟨S9216, .i32⟩ : BufTy).Contents (Elt F)),
    StableHlo.binary main_v24_0 main_v27 main_v28 (cmpi .slt : (⟨S9216, .i32⟩ : BufTy).Contents (Elt F) → (⟨S9216, .i32⟩ : BufTy).Contents (Elt F) → (⟨S9216, .i1⟩ : BufTy).Contents (Elt F)),
    StableHlo.nullary main_c_10 (constantI S_ 32 0#32),
    StableHlo.TRef.unary (.of main_c_10 : StableHlo.TRef sig ⟨S_, .i32⟩) main_call7.v0 id,
    StableHlo.TRef.unary main_call7.v0 main_call7.v1 (broadcastInDim S9216 ![] bcast_S_S9216),
    StableHlo.TRef.ternary (.of main_v28 : StableHlo.TRef sig ⟨S9216, .i1⟩) main_call7.v1 (.of main_v24_1 : StableHlo.TRef sig ⟨S9216, .i32⟩) main_call7.v2 select,
    StableHlo.nullary main_c_11 (constantI S_ 32 0#32),
    StableHlo.TRef.unary (.of main_c_11 : StableHlo.TRef sig ⟨S_, .i32⟩) main_call8.v0 id,
    StableHlo.TRef.unary main_call8.v0 main_call8.v1 (broadcastInDim S9216 ![] bcast_S_S9216),
    StableHlo.TRef.ternary (.of main_v26 : StableHlo.TRef sig ⟨S9216, .i1⟩) main_call8.v1 (.of main_v29 : StableHlo.TRef sig ⟨S9216, .i32⟩) main_call8.v2 select,
    StableHlo.nullary main_c_12 (constantI S_ 32 0#32),
    StableHlo.TRef.unary (.of main_c_12 : StableHlo.TRef sig ⟨S_, .i32⟩) main_call9.v0 id,
    StableHlo.TRef.unary main_call9.v0 main_call9.v1 (broadcastInDim S9216 ![] bcast_S_S9216),
    StableHlo.TRef.ternary (.of main_v28 : StableHlo.TRef sig ⟨S9216, .i1⟩) main_call9.v1 (.of main_v23_1 : StableHlo.TRef sig ⟨S9216, .i32⟩) main_call9.v2 select,
    StableHlo.nullary main_c_13 (constantI S_ 32 95#32),
    StableHlo.TRef.unary (.of main_c_13 : StableHlo.TRef sig ⟨S_, .i32⟩) main_call10.v0 id,
    StableHlo.TRef.unary main_call10.v0 main_call10.v1 (broadcastInDim S9216 ![] bcast_S_S9216),
    StableHlo.TRef.ternary (.of main_v26 : StableHlo.TRef sig ⟨S9216, .i1⟩) main_call10.v1 (.of main_v31 : StableHlo.TRef sig ⟨S9216, .i32⟩) main_call10.v2 select,
    StableHlo.nullary main_c_14 (constantI S_ 32 0#32),
    StableHlo.TRef.unary (.of main_c_14 : StableHlo.TRef sig ⟨S_, .i32⟩) main_call11.v0 id,
    StableHlo.TRef.unary main_call11.v0 main_call11.v1 (broadcastInDim S9216 ![] bcast_S_S9216),
    StableHlo.TRef.ternary (.of main_v28 : StableHlo.TRef sig ⟨S9216, .i1⟩) main_call11.v1 (.of main_v22_1 : StableHlo.TRef sig ⟨S9216, .i32⟩) main_call11.v2 select,
    StableHlo.nullary main_c_15 (constantI S_ 32 95#32),
    StableHlo.TRef.unary (.of main_c_15 : StableHlo.TRef sig ⟨S_, .i32⟩) main_call12.v0 id,
    StableHlo.TRef.unary main_call12.v0 main_call12.v1 (broadcastInDim S9216 ![] bcast_S_S9216),
    StableHlo.TRef.ternary (.of main_v26 : StableHlo.TRef sig ⟨S9216, .i1⟩) main_call12.v1 (.of main_v33 : StableHlo.TRef sig ⟨S9216, .i32⟩) main_call12.v2 select,
    StableHlo.nullary main_cst_16 (constant S_ .f32 0x00000000#32),
    StableHlo.unary main_cst_16 main_v35 (broadcastInDim S1x9217x1x96x96 ![] bcast_S_S1x9217x1x96x96 : (⟨S_, .f32⟩ : BufTy).Contents (Elt F) → (⟨S1x9217x1x96x96, .f32⟩ : BufTy).Contents (Elt F)),
    StableHlo.reshape main_v11 main_v36 rfl shapeCasts_S1x1x96x96_S1x96x96,
    StableHlo.nullary main_c_17 (constantI S_ 32 0#32),
    StableHlo.unary main_c_17 main_v37 (broadcastInDim S1 ![] bcast_S_S1 : (⟨S_, .i32⟩ : BufTy).Contents (Elt F) → (⟨S1, .i32⟩ : BufTy).Contents (Elt F)),
    StableHlo.nullary main_c_18 (constantI S_ 32 0#32),
    StableHlo.unary main_c_18 main_v38 (broadcastInDim S1 ![] bcast_S_S1 : (⟨S_, .i32⟩ : BufTy).Contents (Elt F) → (⟨S1, .i32⟩ : BufTy).Contents (Elt F)) ]

/-- The operations of @main's remaining statements: 40 operations. -/
abbrev ops1 : List (HloOp τ sig (Elt F)) :=
  [ StableHlo.binary main_v37 main_v38 main_v39 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v35 main_v39 main_v36 main_v40 ((fun x i u => Host.scatter scatter_S1x9217x1x96x96_S2_S1x96x96_012_01_01_0 (fun _ b => b) x i u) : (⟨S1x9217x1x96x96, .f32⟩ : BufTy).Contents (Elt F) → (⟨S2, .i32⟩ : BufTy).Contents (Elt F) → (⟨S1x96x96, .f32⟩ : BufTy).Contents (Elt F) → (⟨S1x9217x1x96x96, .f32⟩ : BufTy).Contents (Elt F)),
    StableHlo.nullary main_c_19 (constantI S_ 32 0#32),
    StableHlo.unary main_c_19 main_v41 (broadcastInDim S9216 ![] bcast_S_S9216 : (⟨S_, .i32⟩ : BufTy).Contents (Elt F) → (⟨S9216, .i32⟩ : BufTy).Contents (Elt F)),
    StableHlo.binary main_v20 main_v41 main_v42 (cmpi .slt : (⟨S9216, .i32⟩ : BufTy).Contents (Elt F) → (⟨S9216, .i32⟩ : BufTy).Contents (Elt F) → (⟨S9216, .i1⟩ : BufTy).Contents (Elt F)),
    StableHlo.nullary main_c_20 (constantI S_ 32 9217#32),
    StableHlo.unary main_c_20 main_v43 (broadcastInDim S9216 ![] bcast_S_S9216 : (⟨S_, .i32⟩ : BufTy).Contents (Elt F) → (⟨S9216, .i32⟩ : BufTy).Contents (Elt F)),
    StableHlo.binary main_v20 main_v43 main_v44 (addi : (⟨S9216, .i32⟩ : BufTy).Contents (Elt F) → (⟨S9216, .i32⟩ : BufTy).Contents (Elt F) → (⟨S9216, .i32⟩ : BufTy).Contents (Elt F)),
    StableHlo.ternary main_v42 main_v44 main_v20 main_v45 (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)),
    StableHlo.nullary main_c_21 (constantI S_ 32 0#32),
    StableHlo.unary main_c_21 main_v46 (broadcastInDim S9216 ![] bcast_S_S9216 : (⟨S_, .i32⟩ : BufTy).Contents (Elt F) → (⟨S9216, .i32⟩ : BufTy).Contents (Elt F)),
    StableHlo.binary main_v30 main_v46 main_v47 (cmpi .slt : (⟨S9216, .i32⟩ : BufTy).Contents (Elt F) → (⟨S9216, .i32⟩ : BufTy).Contents (Elt F) → (⟨S9216, .i1⟩ : BufTy).Contents (Elt F)),
    StableHlo.nullary main_c_22 (constantI S_ 32 1#32),
    StableHlo.unary main_c_22 main_v48 (broadcastInDim S9216 ![] bcast_S_S9216 : (⟨S_, .i32⟩ : BufTy).Contents (Elt F) → (⟨S9216, .i32⟩ : BufTy).Contents (Elt F)),
    StableHlo.binary main_v30 main_v48 main_v49 (addi : (⟨S9216, .i32⟩ : BufTy).Contents (Elt F) → (⟨S9216, .i32⟩ : BufTy).Contents (Elt F) → (⟨S9216, .i32⟩ : BufTy).Contents (Elt F)),
    StableHlo.ternary main_v47 main_v49 main_v30 main_v50 (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)),
    StableHlo.nullary main_c_23 (constantI S_ 32 0#32),
    StableHlo.unary main_c_23 main_v51 (broadcastInDim S9216 ![] bcast_S_S9216 : (⟨S_, .i32⟩ : BufTy).Contents (Elt F) → (⟨S9216, .i32⟩ : BufTy).Contents (Elt F)),
    StableHlo.binary main_v32 main_v51 main_v52 (cmpi .slt : (⟨S9216, .i32⟩ : BufTy).Contents (Elt F) → (⟨S9216, .i32⟩ : BufTy).Contents (Elt F) → (⟨S9216, .i1⟩ : BufTy).Contents (Elt F)),
    StableHlo.nullary main_c_24 (constantI S_ 32 96#32),
    StableHlo.unary main_c_24 main_v53 (broadcastInDim S9216 ![] bcast_S_S9216 : (⟨S_, .i32⟩ : BufTy).Contents (Elt F) → (⟨S9216, .i32⟩ : BufTy).Contents (Elt F)),
    StableHlo.binary main_v32 main_v53 main_v54 (addi : (⟨S9216, .i32⟩ : BufTy).Contents (Elt F) → (⟨S9216, .i32⟩ : BufTy).Contents (Elt F) → (⟨S9216, .i32⟩ : BufTy).Contents (Elt F)),
    StableHlo.ternary main_v52 main_v54 main_v32 main_v55 (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)),
    StableHlo.nullary main_c_25 (constantI S_ 32 0#32),
    StableHlo.unary main_c_25 main_v56 (broadcastInDim S9216 ![] bcast_S_S9216 : (⟨S_, .i32⟩ : BufTy).Contents (Elt F) → (⟨S9216, .i32⟩ : BufTy).Contents (Elt F)),
    StableHlo.binary main_v34 main_v56 main_v57 (cmpi .slt : (⟨S9216, .i32⟩ : BufTy).Contents (Elt F) → (⟨S9216, .i32⟩ : BufTy).Contents (Elt F) → (⟨S9216, .i1⟩ : BufTy).Contents (Elt F)),
    StableHlo.nullary main_c_26 (constantI S_ 32 96#32),
    StableHlo.unary main_c_26 main_v58 (broadcastInDim S9216 ![] bcast_S_S9216 : (⟨S_, .i32⟩ : BufTy).Contents (Elt F) → (⟨S9216, .i32⟩ : BufTy).Contents (Elt F)),
    StableHlo.binary main_v34 main_v58 main_v59 (addi : (⟨S9216, .i32⟩ : BufTy).Contents (Elt F) → (⟨S9216, .i32⟩ : BufTy).Contents (Elt F) → (⟨S9216, .i32⟩ : BufTy).Contents (Elt F)),
    StableHlo.ternary main_v57 main_v59 main_v34 main_v60 (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)),
    StableHlo.nullary main_c_27 (constantI S_ 32 0#32),
    StableHlo.unary main_c_27 main_v61 (broadcastInDim S9216 ![] bcast_S_S9216 : (⟨S_, .i32⟩ : BufTy).Contents (Elt F) → (⟨S9216, .i32⟩ : BufTy).Contents (Elt F)),
    StableHlo.unary main_v61 main_v62 (id : (⟨S9216, .i32⟩ : BufTy).Contents (Elt F) → (⟨S9216, .i32⟩ : BufTy).Contents (Elt F)),
    StableHlo.unary main_v62 main_v63 (broadcastInDim S9216x1 ![0] bcast_S9216_S9216x1_0 : (⟨S9216, .i32⟩ : BufTy).Contents (Elt F) → (⟨S9216x1, .i32⟩ : BufTy).Contents (Elt F)),
    StableHlo.unary main_v45 main_v64 (broadcastInDim S9216x1 ![0] bcast_S9216_S9216x1_0 : (⟨S9216, .i32⟩ : BufTy).Contents (Elt F) → (⟨S9216x1, .i32⟩ : BufTy).Contents (Elt F)),
    StableHlo.unary main_v50 main_v65 (broadcastInDim S9216x1 ![0] bcast_S9216_S9216x1_0 : (⟨S9216, .i32⟩ : BufTy).Contents (Elt F) → (⟨S9216x1, .i32⟩ : BufTy).Contents (Elt F)),
    StableHlo.unary main_v55 main_v66 (broadcastInDim S9216x1 ![0] bcast_S9216_S9216x1_0 : (⟨S9216, .i32⟩ : BufTy).Contents (Elt F) → (⟨S9216x1, .i32⟩ : BufTy).Contents (Elt F)),
    StableHlo.unary main_v60 main_v67 (broadcastInDim S9216x1 ![0] bcast_S9216_S9216x1_0 : (⟨S9216, .i32⟩ : BufTy).Contents (Elt F) → (⟨S9216x1, .i32⟩ : BufTy).Contents (Elt F)),
    StableHlo.nary ![main_v63, main_v64, main_v65, main_v66, main_v67] main_v68 (fun u => concatenate S9216x5 1 [⟨S9216x1, u 0⟩, ⟨S9216x1, u 1⟩, ⟨S9216x1, u 2⟩, ⟨S9216x1, u 3⟩, ⟨S9216x1, u 4⟩] concatenates_S9216x1_S9216x1_S9216x1_S9216x1_S9216x1_S9216x5_d1),
    StableHlo.ternary main_v40 main_v68 main_v15 main_v69 ((fun x i u => Host.scatter scatter_S1x9217x1x96x96_S9216x5_S9216_n_01234_01234_1 (fun _ b => b) x i u) : (⟨S1x9217x1x96x96, .f32⟩ : BufTy).Contents (Elt F) → (⟨S9216x5, .i32⟩ : BufTy).Contents (Elt F) → (⟨S9216, .f32⟩ : BufTy).Contents (Elt F) → (⟨S1x9217x1x96x96, .f32⟩ : BufTy).Contents (Elt F)) ]

/-- Every host operation of @main, in order: 228 operations. -/
abbrev ops : List (HloOp τ sig (Elt F)) := ops0 ++ ops1

set_option maxRecDepth 8192 in
theorem main_part0_eq (c : Dev nD) : main_part0 (F := F) c = seq ops0 := by
  simp only [main_part0, fn_relu.body, fn_cumsum.body, fn_cumsum_0.body, fn_where.body, fn_where_1.body, fn_where_2.body,
    fn_where_3.body, fn_floor_divide.body, fn_remainder.body, fn_divmod.body, seq, bind_assoc, pure_bind]
  rfl

set_option maxRecDepth 8192 in
theorem main_part1_eq (c : Dev nD) : main_part1 (F := F) c = seq ops1 := by
  simp only [main_part1, seq, bind_assoc, pure_bind]

/-- @main is that straight line: the functions' definitions unfolded at their calls and the records at their
    fields, both sides are one chain of operation steps once sequencing is reassociated. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., binary_bufs_sub ..,
    reshape_bufs_sub .., nullary_bufs_sub .., unary_bufs_sub .., binary_bufs_sub .., unary_bufs_sub .., nullary_bufs_sub ..,
    unary_bufs_sub .., binary_bufs_sub .., nullary_bufs_sub .., unary_bufs_sub .., unary_bufs_sub .., ternary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., reshape_bufs_sub .., nullary_bufs_sub .., unary_bufs_sub ..,
    nullary_bufs_sub .., unary_bufs_sub ..⟩

theorem ops1_sub : (ops1 : List (HloOp τ sig (Elt F))).Forall fun op => op.bufs ⊆ tcRefs τ sig :=
  ⟨binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., unary_bufs_sub .., unary_bufs_sub .., unary_bufs_sub .., unary_bufs_sub ..,
    unary_bufs_sub .., unary_bufs_sub .., nary_bufs_sub .., ternary_bufs_sub ..⟩

theorem ops_sub : (ops : List (HloOp τ sig (Elt F))).Forall fun op => op.bufs ⊆ tcRefs τ sig :=
  List.forall_append.mpr ⟨ops0_sub, ops1_sub⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStages.lean ====
/-
  The fold of the reference program's line of operations, read one operation at a time. The line is single-assignment:
  each operation writes one buffer of its own, after every operation that reads it and before none that writes it. So
  after the whole line each written buffer holds its operation's function of what the operands hold after the whole
  line (`val_‹buffer›`), and the argument holds what it held (`val_main_arg0`).
-/
import proofs.«118784_j19104014532646_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The fold of a line in which every operation writes one buffer of its own -/

section Fold

variable {τ' : Topo} {sig' : RefSig} {Val : EltTy → Type}

/-- The fold of two lines run one after the other is the second's fold from the first's. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

variable {l : List (HloOp τ' sig' Val)} {W : List (Ref sig' .tc)} {Wn : List Nat}

/-- The suffix of a line whose operations write the references `W`, one each, writes the suffix of `W`. -/
theorem writes_drop
    (hw : l.map (fun op => op.writes) = W.map fun y => ({Proc.devRef (τ := τ') .tc y} : Finset (DevRef τ' sig')))
    (k : Nat) :
    (l.drop k).map (fun op => op.writes) = (W.drop k).map fun y => ({Proc.devRef (τ := τ') .tc y} : Finset (DevRef τ' sig')) := by
  simpa only [List.map_drop] using congrArg (List.drop k) hw

/-- A reference whose index is none of the written references' keeps its contents. -/
theorem after_keep
    (hw : l.map (fun op => op.writes) = W.map fun y => ({Proc.devRef (τ := τ') .tc y} : Finset (DevRef τ' sig')))
    (hn : W.map (fun y => y.idx.val) = Wn)
    (V : Valuation τ' sig' Val) (r : Ref sig' .tc) (hr : r.idx.val ∉ Wn) :
    after l V (Proc.devRef .tc r) = V (Proc.devRef .tc r) := by
  refine after_of_forall_not_mem l V fun op hop hb => hr ?_
  have h1 : op.writes ∈ l.map (fun op => op.writes) := List.mem_map_of_mem hop
  rw [hw] at h1
  obtain ⟨y, hy, he⟩ := List.mem_map.mp h1
  rw [← he, Finset.mem_singleton] at hb
  have h2 : r = y := Proc.devRef_injective _ hb
  rw [← hn, h2]
  exact List.mem_map_of_mem hy

/-- A reference no operation from position `k` on writes holds after the line what it holds after the first `k` operations. -/
theorem after_take
    (hw : l.map (fun op => op.writes) = W.map fun y => ({Proc.devRef (τ := τ') .tc y} : Finset (DevRef τ' sig')))
    (hn : W.map (fun y => y.idx.val) = Wn)
    (k : Nat) (V : Valuation τ' sig' Val) (r : Ref sig' .tc) (hr : r.idx.val ∉ Wn.drop k) :
    after l V (Proc.devRef .tc r) = after (l.take k) V (Proc.devRef .tc r) := by
  have h : after l V = after (l.drop k) (after (l.take k) V) := by
    rw [← after_append, List.take_append_drop]
  rw [h]
  exact after_keep (writes_drop hw k) (by rw [List.map_drop, hn]) _ r hr

/-- A reference no operation after position `k` writes holds after the line what operation `k` leaves in it
    from the contents after the first `k` operations. -/
theorem after_at
    (hw : l.map (fun op => op.writes) = W.map fun y => ({Proc.devRef (τ := τ') .tc y} : Finset (DevRef τ' sig')))
    (hn : W.map (fun y => y.idx.val) = Wn)
    (k : Nat) (op : HloOp τ' sig' Val) (hop : l[k]? = some op) (V : Valuation τ' sig' Val) (y : Ref sig' .tc)
    (hy : y.idx.val ∉ Wn.drop (k + 1)) :
    after l V (Proc.devRef .tc y) = op.result (after (l.take k) V) (Proc.devRef .tc y) := by
  obtain ⟨hk, rfl⟩ := List.getElem?_eq_some_iff.mp hop
  have h : after l V = after (l.drop (k + 1)) (l[k].result (after (l.take k) V)) := by
    rw [← after_cons, ← List.drop_eq_getElem_cons hk, ← after_append, List.take_append_drop]
  rw [h]
  exact after_keep (writes_drop hw (k + 1)) (by rw [List.map_drop, hn]) _ y hy

end Fold
attribute [local irreducible] Host.reduceWindow Host.scatter concatenate

/-! ## This line -/

/-- The buffer each operation writes, in order. -/
abbrev wr : List (Ref sig .tc) :=
  [ main_cst, main_v0, main_v1, main_call0_cst, main_call0_v0, main_v2, main_cst_0, main_v3, main_v4, main_cst_1, main_v5, main_v6, main_call1_cst, main_call1_v0, main_v7, main_cst_2, main_v8, main_v9, main_v10, main_v11, main_cst_3, main_v12, main_v13, main_v14, main_v15, main_cst_4, main_v16, main_v17, main_v18, main_call2_call0_c, main_call2_call0_v0, main_v19, main_c, main_call3_v0, main_call3_v1, main_v20, main_v21, main_c_5, main_call4_v0, main_call4_call0_v0, main_call4_call0_v1, main_call4_call0_v2, main_call4_call0_v3, main_call4_call0_v4, main_call4_call0_v5, main_call4_call0_v6, main_call4_call0_v7, main_call4_call0_c, main_call4_call0_v8, main_call4_call0_v9, main_call4_call0_v10, main_call4_call0_c_0, main_call4_call0_v11, main_call4_call0_v12, main_v22_0, main_call4_call1_c, main_call4_call1_v0, main_call4_call1_c_0, main_call4_call1_v1, main_call4_call1_v2, main_call4_call1_v3, main_call4_call1_c_1, main_call4_call1_v4, main_call4_call1_v5, main_call4_call1_c_2, main_call4_call1_v6, main_call4_call1_v7, main_call4_call1_c_3, main_call4_call1_v8, main_call4_call1_v9, main_call4_call1_v10, main_call4_call1_v11, main_call4_call1_v12, main_call4_call1_v13, main_v22_1, main_c_6, main_call5_v0, main_call5_call0_v0, main_call5_call0_v1, main_call5_call0_v2, main_call5_call0_v3, main_call5_call0_v4, main_call5_call0_v5, main_call5_call0_v6, main_call5_call0_v7, main_call5_call0_c, main_call5_call0_v8, main_call5_call0_v9, main_call5_call0_v10, main_call5_call0_c_0, main_call5_call0_v11, main_call5_call0_v12, main_v23_0, main_call5_call1_c, main_call5_call1_v0, main_call5_call1_c_0, main_call5_call1_v1, main_call5_call1_v2, main_call5_call1_v3, main_call5_call1_c_1, main_call5_call1_v4, main_call5_call1_v5, main_call5_call1_c_2, main_call5_call1_v6, main_call5_call1_v7, main_call5_call1_c_3, main_call5_call1_v8, main_call5_call1_v9, main_call5_call1_v10, main_call5_call1_v11, main_call5_call1_v12, main_call5_call1_v13, main_v23_1, main_c_7, main_call6_v0, main_call6_call0_v0, main_call6_call0_v1, main_call6_call0_v2, main_call6_call0_v3, main_call6_call0_v4, main_call6_call0_v5, main_call6_call0_v6, main_call6_call0_v7, main_call6_call0_c, main_call6_call0_v8, main_call6_call0_v9, main_call6_call0_v10, main_call6_call0_c_0, main_call6_call0_v11, main_call6_call0_v12, main_v24_0, main_call6_call1_c, main_call6_call1_v0, main_call6_call1_c_0, main_call6_call1_v1, main_call6_call1_v2, main_call6_call1_v3, main_call6_call1_c_1, main_call6_call1_v4, main_call6_call1_v5, main_call6_call1_c_2, main_call6_call1_v6, main_call6_call1_v7, main_call6_call1_c_3, main_call6_call1_v8, main_call6_call1_v9, main_call6_call1_v10, main_call6_call1_v11, main_call6_call1_v12, main_call6_call1_v13, main_v24_1, main_c_8, main_v25, main_v26, main_c_9, main_v27, main_v28, main_c_10, main_call7_v0, main_call7_v1, main_v29, main_c_11, main_call8_v0, main_call8_v1, main_v30, main_c_12, main_call9_v0, main_call9_v1, main_v31, main_c_13, main_call10_v0, main_call10_v1, main_v32, main_c_14, main_call11_v0, main_call11_v1, main_v33, main_c_15, main_call12_v0, main_call12_v1, main_v34, main_cst_16, main_v35, main_v36, main_c_17, main_v37, main_c_18, main_v38, main_v39, main_v40, main_c_19, main_v41, main_v42, main_c_20, main_v43, main_v44, main_v45, main_c_21, main_v46, main_v47, main_c_22, main_v48, main_v49, main_v50, main_c_23, main_v51, main_v52, main_c_24, main_v53, main_v54, main_v55, main_c_25, main_v56, main_v57, main_c_26, main_v58, main_v59, main_v60, main_c_27, main_v61, main_v62, main_v63, main_v64, main_v65, main_v66, main_v67, main_v68, main_v69 ]

/-- Their indices. -/
abbrev wrIx : List Nat :=
  [ 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207, 208, 209, 210, 211, 212, 213, 214, 215, 216, 217, 218, 219, 220, 221, 222, 223, 224, 225, 226, 227, 228 ]

theorem ops_writes : (ops (F := F)).map (fun op => op.writes) = wr.map fun y => ({(y : DevRef τ sig)} : Finset (DevRef τ sig)) := rfl

theorem wr_ix : wr.map (fun y => y.idx.val) = wrIx := by decide

theorem opnd (k : Nat) (V : Valuation τ sig (Elt F)) (r : Ref sig .tc) (hr : r.idx.val ∉ wrIx.drop k) :
    after ops V (r : DevRef τ sig) = after (ops.take k) V (r : DevRef τ sig) :=
  after_take ops_writes wr_ix k V r hr

theorem step (k : Nat) (op : HloOp τ sig (Elt F)) (hop : (ops (F := F))[k]? = some op) (V : Valuation τ sig (Elt F))
    (y : Ref sig .tc) (hy : y.idx.val ∉ wrIx.drop (k + 1)) :
    after ops V (y : DevRef τ sig) = op.result (after (ops.take k) V) (y : DevRef τ sig) :=
  after_at ops_writes wr_ix k op hop V y hy

/-- The argument is written by no operation. -/
theorem val_main_arg0 (V : Valuation τ sig (Elt F)) :
    after ops V (main_arg0 : DevRef τ sig) = V (main_arg0 : DevRef τ sig) :=
  after_keep ops_writes wr_ix V main_arg0 (by decide)

theorem val_main_cst (V : Valuation τ sig (Elt F)) :
    after ops V (main_cst : DevRef τ sig) = (constant S_ .f32 0x3DCCCCCD#32 : (⟨S_, .f32⟩ : BufTy).Contents (Elt F)) := by
  rw [step 0 _ rfl V main_cst (by decide)]
  generalize after (List.take 0 ops) V = W
  exact nullary_result ..

theorem val_main_v0 (V : Valuation τ sig (Elt F)) :
    after ops V (main_v0 : DevRef τ sig) = (broadcastInDim S1x1x96x96 ![] bcast_S_S1x1x96x96 : (⟨S_, .f32⟩ : BufTy).Contents (Elt F) → (⟨S1x1x96x96, .f32⟩ : BufTy).Contents (Elt F)) (after ops V (main_cst : DevRef τ sig)) := by
  rw [opnd 1 V main_cst (by decide), step 1 _ rfl V main_v0 (by decide)]
  generalize after (List.take 1 ops) V = W
  exact unary_result ..

theorem val_main_v1 (V : Valuation τ sig (Elt F)) :
    after ops V (main_v1 : DevRef τ sig) = (subf : (⟨S1x1x96x96, .f32⟩ : BufTy).Contents (Elt F) → (⟨S1x1x96x96, .f32⟩ : BufTy).Contents (Elt F) → (⟨S1x1x96x96, .f32⟩ : BufTy).Contents (Elt F)) (after ops V (main_v0 : DevRef τ sig)) (after ops V (main_arg0 : DevRef τ sig)) := by
  rw [opnd 2 V main_v0 (by decide), opnd 2 V main_arg0 (by decide), step 2 _ rfl V main_v1 (by decide)]
  generalize after (List.take 2 ops) V = W
  exact binary_result ..

theorem val_main_call0_cst (V : Valuation τ sig (Elt F)) :
    after ops V (main_call0_cst : DevRef τ sig) = (constant S_ .f32 0x00000000#32 : (⟨S_, .f32⟩ : BufTy).Contents (Elt F)) := by
  rw [step 3 _ rfl V main_call0_cst (by decide)]
  generalize after (List.take 3 ops) V = W
  exact nullary_result ..

theorem val_main_call0_v0 (V : Valuation τ sig (Elt F)) :
    after ops V (main_call0_v0 : DevRef τ sig) = (broadcastInDim S1x1x96x96 ![] bcast_S_S1x1x96x96 : (⟨S_, .f32⟩ : BufTy).Contents (Elt F) → (⟨S1x1x96x96, .f32⟩ : BufTy).Contents (Elt F)) (after ops V (main_call0_cst : DevRef τ sig)) := by
  rw [opnd 4 V main_call0_cst (by decide), step 4 _ rfl V main_call0_v0 (by decide)]
  generalize after (List.take 4 ops) V = W
  exact unary_result ..

theorem val_main_v2 (V : Valuation τ sig (Elt F)) :
    after ops V (main_v2 : DevRef τ sig) = (maximumf : (⟨S1x1x96x96, .f32⟩ : BufTy).Contents (Elt F) → (⟨S1x1x96x96, .f32⟩ : BufTy).Contents (Elt F) → (⟨S1x1x96x96, .f32⟩ : BufTy).Contents (Elt F)) (after ops V (main_v1 : DevRef τ sig)) (after ops V (main_call0_v0 : DevRef τ sig)) := by
  rw [opnd 5 V main_v1 (by decide), opnd 5 V main_call0_v0 (by decide), step 5 _ rfl V main_v2 (by decide)]
  generalize after (List.take 5 ops) V = W
  exact binary_result ..

theorem val_main_cst_0 (V : Valuation τ sig (Elt F)) :
    after ops V (main_cst_0 : DevRef τ sig) = (constant S_ .f32 0x3F000000#32 : (⟨S_, .f32⟩ : BufTy).Contents (Elt F)) := by
  rw [step 6 _ rfl V main_cst_0 (by decide)]
  generalize after (List.take 6 ops) V = W
  exact nullary_result ..

theorem val_main_v3 (V : Valuation τ sig (Elt F)) :
    after ops V (main_v3 : DevRef τ sig) = (broadcastInDim S1x1x96x96 ![] bcast_S_S1x1x96x96 : (⟨S_, .f32⟩ : BufTy).Contents (Elt F) → (⟨S1x1x96x96, .f32⟩ : BufTy).Contents (Elt F)) (after ops V (main_cst_0 : DevRef τ sig)) := by
  rw [opnd 7 V main_cst_0 (by decide), step 7 _ rfl V main_v3 (by decide)]
  generalize after (List.take 7 ops) V = W
  exact unary_result ..

theorem val_main_v4 (V : Valuation τ sig (Elt F)) :
    after ops V (main_v4 : DevRef τ sig) = (mulf : (⟨S1x1x96x96, .f32⟩ : BufTy).Contents (Elt F) → (⟨S1x1x96x96, .f32⟩ : BufTy).Contents (Elt F) → (⟨S1x1x96x96, .f32⟩ : BufTy).Contents (Elt F)) (after ops V (main_v2 : DevRef τ sig)) (after ops V (main_v3 : DevRef τ sig)) := by
  rw [opnd 8 V main_v2 (by decide), opnd 8 V main_v3 (by decide), step 8 _ rfl V main_v4 (by decide)]
  generalize after (List.take 8 ops) V = W
  exact binary_result ..

theorem val_main_cst_1 (V : Valuation τ sig (Elt F)) :
    after ops V (main_cst_1 : DevRef τ sig) = (constant S_ .f32 0x3F666666#32 : (⟨S_, .f32⟩ : BufTy).Contents (Elt F)) := by
  rw [step 9 _ rfl V main_cst_1 (by decide)]
  generalize after (List.take 9 ops) V = W
  exact nullary_result ..

theorem val_main_v5 (V : Valuation τ sig (Elt F)) :
    after ops V (main_v5 : DevRef τ sig) = (broadcastInDim S1x1x96x96 ![] bcast_S_S1x1x96x96 : (⟨S_, .f32⟩ : BufTy).Contents (Elt F) → (⟨S1x1x96x96, .f32⟩ : BufTy).Contents (Elt F)) (after ops V (main_cst_1 : DevRef τ sig)) := by
  rw [opnd 10 V main_cst_1 (by decide), step 10 _ rfl V main_v5 (by decide)]
  generalize after (List.take 10 ops) V = W
  exact unary_result ..

theorem val_main_v6 (V : Valuation τ sig (Elt F)) :
    after ops V (main_v6 : DevRef τ sig) = (subf : (⟨S1x1x96x96, .f32⟩ : BufTy).Contents (Elt F) → (⟨S1x1x96x96, .f32⟩ : BufTy).Contents (Elt F) → (⟨S1x1x96x96, .f32⟩ : BufTy).Contents (Elt F)) (after ops V (main_arg0 : DevRef τ sig)) (after ops V (main_v5 : DevRef τ sig)) := by
  rw [opnd 11 V main_arg0 (by decide), opnd 11 V main_v5 (by decide), step 11 _ rfl V main_v6 (by decide)]
  generalize after (List.take 11 ops) V = W
  exact binary_result ..

theorem val_main_call1_cst (V : Valuation τ sig (Elt F)) :
    after ops V (main_call1_cst : DevRef τ sig) = (constant S_ .f32 0x00000000#32 : (⟨S_, .f32⟩ : BufTy).Contents (Elt F)) := by
  rw [step 12 _ rfl V main_call1_cst (by decide)]
  generalize after (List.take 12 ops) V = W
  exact nullary_result ..

theorem val_main_call1_v0 (V : Valuation τ sig (Elt F)) :
    after ops V (main_call1_v0 : DevRef τ sig) = (broadcastInDim S1x1x96x96 ![] bcast_S_S1x1x96x96 : (⟨S_, .f32⟩ : BufTy).Contents (Elt F) → (⟨S1x1x96x96, .f32⟩ : BufTy).Contents (Elt F)) (after ops V (main_call1_cst : DevRef τ sig)) := by
  rw [opnd 13 V main_call1_cst (by decide), step 13 _ rfl V main_call1_v0 (by decide)]
  generalize after (List.take 13 ops) V = W
  exact unary_result ..

theorem val_main_v7 (V : Valuation τ sig (Elt F)) :
    after ops V (main_v7 : DevRef τ sig) = (maximumf : (⟨S1x1x96x96, .f32⟩ : BufTy).Contents (Elt F) → (⟨S1x1x96x96, .f32⟩ : BufTy).Contents (Elt F) → (⟨S1x1x96x96, .f32⟩ : BufTy).Contents (Elt F)) (after ops V (main_v6 : DevRef τ sig)) (after ops V (main_call1_v0 : DevRef τ sig)) := by
  rw [opnd 14 V main_v6 (by decide), opnd 14 V main_call1_v0 (by decide), step 14 _ rfl V main_v7 (by decide)]
  generalize after (List.take 14 ops) V = W
  exact binary_result ..

theorem val_main_cst_2 (V : Valuation τ sig (Elt F)) :
    after ops V (main_cst_2 : DevRef τ sig) = (constant S_ .f32 0x3F000000#32 : (⟨S_, .f32⟩ : BufTy).Contents (Elt F)) := by
  rw [step 15 _ rfl V main_cst_2 (by decide)]
  generalize after (List.take 15 ops) V = W
  exact nullary_result ..

theorem val_main_v8 (V : Valuation τ sig (Elt F)) :
    after ops V (main_v8 : DevRef τ sig) = (broadcastInDim S1x1x96x96 ![] bcast_S_S1x1x96x96 : (⟨S_, .f32⟩ : BufTy).Contents (Elt F) → (⟨S1x1x96x96, .f32⟩ : BufTy).Contents (Elt F)) (after ops V (main_cst_2 : DevRef τ sig)) := by
  rw [opnd 16 V main_cst_2 (by decide), step 16 _ rfl V main_v8 (by decide)]
  generalize after (List.take 16 ops) V = W
  exact unary_result ..

theorem val_main_v9 (V : Valuation τ sig (Elt F)) :
    after ops V (main_v9 : DevRef τ sig) = (mulf : (⟨S1x1x96x96, .f32⟩ : BufTy).Contents (Elt F) → (⟨S1x1x96x96, .f32⟩ : BufTy).Contents (Elt F) → (⟨S1x1x96x96, .f32⟩ : BufTy).Contents (Elt F)) (after ops V (main_v7 : DevRef τ sig)) (after ops V (main_v8 : DevRef τ sig)) := by
  rw [opnd 17 V main_v7 (by decide), opnd 17 V main_v8 (by decide), step 17 _ rfl V main_v9 (by decide)]
  generalize after (List.take 17 ops) V = W
  exact binary_result ..

theorem val_main_v10 (V : Valuation τ sig (Elt F)) :
    after ops V (main_v10 : DevRef τ sig) = (addf : (⟨S1x1x96x96, .f32⟩ : BufTy).Contents (Elt F) → (⟨S1x1x96x96, .f32⟩ : BufTy).Contents (Elt F) → (⟨S1x1x96x96, .f32⟩ : BufTy).Contents (Elt F)) (after ops V (main_arg0 : DevRef τ sig)) (after ops V (main_v4 : DevRef τ sig)) := by
  rw [opnd 18 V main_arg0 (by decide), opnd 18 V main_v4 (by decide), step 18 _ rfl V main_v10 (by decide)]
  generalize after (List.take 18 ops) V = W
  exact binary_result ..

theorem val_main_v11 (V : Valuation τ sig (Elt F)) :
    after ops V (main_v11 : DevRef τ sig) = (subf : (⟨S1x1x96x96, .f32⟩ : BufTy).Contents (Elt F) → (⟨S1x1x96x96, .f32⟩ : BufTy).Contents (Elt F) → (⟨S1x1x96x96, .f32⟩ : BufTy).Contents (Elt F)) (after ops V (main_v10 : DevRef τ sig)) (after ops V (main_v9 : DevRef τ sig)) := by
  rw [opnd 19 V main_v10 (by decide), opnd 19 V main_v9 (by decide), step 19 _ rfl V main_v11 (by decide)]
  generalize after (List.take 19 ops) V = W
  exact binary_result ..

theorem val_main_cst_3 (V : Valuation τ sig (Elt F)) :
    after ops V (main_cst_3 : DevRef τ sig) = (constant S_ .f32 0x3DCCCCCD#32 : (⟨S_, .f32⟩ : BufTy).Contents (Elt F)) := by
  rw [step 20 _ rfl V main_cst_3 (by decide)]
  generalize after (List.take 20 ops) V = W
  exact nullary_result ..

theorem val_main_v12 (V : Valuation τ sig (Elt F)) :
    after ops V (main_v12 : DevRef τ sig) = (broadcastInDim S1x1x96x96 ![] bcast_S_S1x1x96x96 : (⟨S_, .f32⟩ : BufTy).Contents (Elt F) → (⟨S1x1x96x96, .f32⟩ : BufTy).Contents (Elt F)) (after ops V (main_cst_3 : DevRef τ sig)) := by
  rw [opnd 21 V main_cst_3 (by decide), step 21 _ rfl V main_v12 (by decide)]
  generalize after (List.take 21 ops) V = W
  exact unary_result ..

theorem val_main_v13 (V : Valuation τ sig (Elt F)) :
    after ops V (main_v13 : DevRef τ sig) = (subf : (⟨S1x1x96x96, .f32⟩ : BufTy).Contents (Elt F) → (⟨S1x1x96x96, .f32⟩ : BufTy).Contents (Elt F) → (⟨S1x1x96x96, .f32⟩ : BufTy).Contents (Elt F)) (after ops V (main_v12 : DevRef τ sig)) (after ops V (main_v4 : DevRef τ sig)) := by
  rw [opnd 22 V main_v12 (by decide), opnd 22 V main_v4 (by decide), step 22 _ rfl V main_v13 (by decide)]
  generalize after (List.take 22 ops) V = W
  exact binary_result ..

theorem val_main_v14 (V : Valuation τ sig (Elt F)) :
    after ops V (main_v14 : DevRef τ sig) = (subf : (⟨S1x1x96x96, .f32⟩ : BufTy).Contents (Elt F) → (⟨S1x1x96x96, .f32⟩ : BufTy).Contents (Elt F) → (⟨S1x1x96x96, .f32⟩ : BufTy).Contents (Elt F)) (after ops V (main_v13 : DevRef τ sig)) (after ops V (main_v9 : DevRef τ sig)) := by
  rw [opnd 23 V main_v13 (by decide), opnd 23 V main_v9 (by decide), step 23 _ rfl V main_v14 (by decide)]
  generalize after (List.take 23 ops) V = W
  exact binary_result ..

theorem val_main_v15 (V : Valuation τ sig (Elt F)) :
    after ops V (main_v15 : DevRef τ sig) = (shapeCast S9216 (after ops V (main_v14 : DevRef τ sig) : (⟨S1x1x96x96, .f32⟩ : BufTy).Contents (Elt F)) shapeCasts_S1x1x96x96_S9216 : (⟨S9216, .f32⟩ : BufTy).Contents (Elt F)) := by
  rw [opnd 24 V main_v14 (by decide), step 24 _ rfl V main_v15 (by decide)]
  generalize after (List.take 24 ops) V = W
  exact reshape_result ..

theorem val_main_cst_4 (V : Valuation τ sig (Elt F)) :
    after ops V (main_cst_4 : DevRef τ sig) = (constant S_ .f32 0x00000000#32 : (⟨S_, .f32⟩ : BufTy).Contents (Elt F)) := by
  rw [step 25 _ rfl V main_cst_4 (by decide)]
  generalize after (List.take 25 ops) V = W
  exact nullary_result ..

theorem val_main_v16 (V : Valuation τ sig (Elt F)) :
    after ops V (main_v16 : DevRef τ sig) = (broadcastInDim S9216 ![] bcast_S_S9216 : (⟨S_, .f32⟩ : BufTy).Contents (Elt F) → (⟨S9216, .f32⟩ : BufTy).Contents (Elt F)) (after ops V (main_cst_4 : DevRef τ sig)) := by
  rw [opnd 26 V main_cst_4 (by decide), step 26 _ rfl V main_v16 (by decide)]
  generalize after (List.take 26 ops) V = W
  exact unary_result ..

theorem val_main_v17 (V : Valuation τ sig (Elt F)) :
    after ops V (main_v17 : DevRef τ sig) = (cmpf .oge : (⟨S9216, .f32⟩ : BufTy).Contents (Elt F) → (⟨S9216, .f32⟩ : BufTy).Contents (Elt F) → (⟨S9216, .i1⟩ : BufTy).Contents (Elt F)) (after ops V (main_v15 : DevRef τ sig)) (after ops V (main_v16 : DevRef τ sig)) := by
  rw [opnd 27 V main_v15 (by decide), opnd 27 V main_v16 (by decide), step 27 _ rfl V main_v17 (by decide)]
  generalize after (List.take 27 ops) V = W
  exact binary_result ..

theorem val_main_v18 (V : Valuation τ sig (Elt F)) :
    after ops V (main_v18 : DevRef τ sig) = (extui 32 (after ops V (main_v17 : DevRef τ sig) : (⟨S9216, .i1⟩ : BufTy).Contents (Elt F)) natLt_1_32 : (⟨S9216, .i32⟩ : BufTy).Contents (Elt F)) := by
  rw [opnd 28 V main_v17 (by decide), step 28 _ rfl V main_v18 (by decide)]
  generalize after (List.take 28 ops) V = W
  exact unary_result ..

theorem val_main_call2_call0_c (V : Valuation τ sig (Elt F)) :
    after ops V (main_call2_call0_c : DevRef τ sig) = (constantI S_ 32 0#32 : (⟨S_, .i32⟩ : BufTy).Contents (Elt F)) := by
  rw [step 29 _ rfl V main_call2_call0_c (by decide)]
  generalize after (List.take 29 ops) V = W
  exact nullary_result ..

theorem val_main_call2_call0_v0 (V : Valuation τ sig (Elt F)) :
    after ops V (main_call2_call0_v0 : DevRef τ sig) = (broadcastInDim S_ ![] bcast_S_S_ : (⟨S_, .i32⟩ : BufTy).Contents (Elt F) → (⟨S_, .i32⟩ : BufTy).Contents (Elt F)) (after ops V (main_call2_call0_c : DevRef τ sig)) := by
  rw [opnd 30 V main_call2_call0_c (by decide), step 30 _ rfl V main_call2_call0_v0 (by decide)]
  generalize after (List.take 30 ops) V = W
  exact unary_result ..

theorem val_main_v19 (V : Valuation τ sig (Elt F)) :
    after ops V (main_v19 : DevRef τ sig) = (Host.reduceWindow IntOp.addi ![9216] ![1] ![9215] ![0] (after ops V (main_v18 : DevRef τ sig) : (⟨S9216, .i32⟩ : BufTy).Contents (Elt F)) (after ops V (main_call2_call0_v0 : DevRef τ sig) : (⟨S_, .i32⟩ : BufTy).Contents (Elt F)) reduceWindows_S9216_S9216_w9216s1p9215_0 h_S_ : (⟨S9216, .i32⟩ : BufTy).Contents (Elt F)) := by
  rw [opnd 31 V main_v18 (by decide), opnd 31 V main_call2_call0_v0 (by decide), step 31 _ rfl V main_v19 (by decide)]
  generalize after (List.take 31 ops) V = W
  exact binary_result ..

theorem val_main_c (V : Valuation τ sig (Elt F)) :
    after ops V (main_c : DevRef τ sig) = (constantI S_ 32 9217#32 : (⟨S_, .i32⟩ : BufTy).Contents (Elt F)) := by
  rw [step 32 _ rfl V main_c (by decide)]
  generalize after (List.take 32 ops) V = W
  exact nullary_result ..

theorem val_main_call3_v0 (V : Valuation τ sig (Elt F)) :
    after ops V (main_call3_v0 : DevRef τ sig) = (id : (⟨S_, .i32⟩ : BufTy).Contents (Elt F) → (⟨S_, .i32⟩ : BufTy).Contents (Elt F)) (after ops V (main_c : DevRef τ sig)) := by
  rw [opnd 33 V main_c (by decide), step 33 _ rfl V main_call3_v0 (by decide)]
  generalize after (List.take 33 ops) V = W
  exact unary_result ..

theorem val_main_call3_v1 (V : Valuation τ sig (Elt F)) :
    after ops V (main_call3_v1 : DevRef τ sig) = (broadcastInDim S9216 ![] bcast_S_S9216 : (⟨S_, .i32⟩ : BufTy).Contents (Elt F) → (⟨S9216, .i32⟩ : BufTy).Contents (Elt F)) (after ops V (main_call3_v0 : DevRef τ sig)) := by
  rw [opnd 34 V main_call3_v0 (by decide), step 34 _ rfl V main_call3_v1 (by decide)]
  generalize after (List.take 34 ops) V = W
  exact unary_result ..

theorem val_main_v20 (V : Valuation τ sig (Elt F)) :
    after ops V (main_v20 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v17 : DevRef τ sig)) (after ops V (main_v19 : DevRef τ sig)) (after ops V (main_call3_v1 : DevRef τ sig)) := by
  rw [opnd 35 V main_v17 (by decide), opnd 35 V main_v19 (by decide), opnd 35 V main_call3_v1 (by decide), step 35 _ rfl V main_v20 (by decide)]
  generalize after (List.take 35 ops) V = W
  exact ternary_result ..

theorem val_main_v21 (V : Valuation τ sig (Elt F)) :
    after ops V (main_v21 : DevRef τ sig) = (iotaInDim S9216 32 0 : (⟨S9216, .i32⟩ : BufTy).Contents (Elt F)) := by
  rw [step 36 _ rfl V main_v21 (by decide)]
  generalize after (List.take 36 ops) V = W
  exact nullary_result ..

theorem val_main_c_5 (V : Valuation τ sig (Elt F)) :
    after ops V (main_c_5 : DevRef τ sig) = (constantI S_ 32 96#32 : (⟨S_, .i32⟩ : BufTy).Contents (Elt F)) := by
  rw [step 37 _ rfl V main_c_5 (by decide)]
  generalize after (List.take 37 ops) V = W
  exact nullary_result ..

theorem val_main_call4_v0 (V : Valuation τ sig (Elt F)) :
    after ops V (main_call4_v0 : DevRef τ sig) = (id : (⟨S_, .i32⟩ : BufTy).Contents (Elt F) → (⟨S_, .i32⟩ : BufTy).Contents (Elt F)) (after ops V (main_c_5 : DevRef τ sig)) := by
  rw [opnd 38 V main_c_5 (by decide), step 38 _ rfl V main_call4_v0 (by decide)]
  generalize after (List.take 38 ops) V = W
  exact unary_result ..

theorem val_main_call4_call0_v0 (V : Valuation τ sig (Elt F)) :
    after ops V (main_call4_call0_v0 : DevRef τ sig) = (broadcastInDim S9216 ![] bcast_S_S9216 : (⟨S_, .i32⟩ : BufTy).Contents (Elt F) → (⟨S9216, .i32⟩ : BufTy).Contents (Elt F)) (after ops V (main_call4_v0 : DevRef τ sig)) := by
  rw [opnd 39 V main_call4_v0 (by decide), step 39 _ rfl V main_call4_call0_v0 (by decide)]
  generalize after (List.take 39 ops) V = W
  exact unary_result ..

theorem val_main_call4_call0_v1 (V : Valuation τ sig (Elt F)) :
    after ops V (main_call4_call0_v1 : DevRef τ sig) = (Host.divsi : (⟨S9216, .i32⟩ : BufTy).Contents (Elt F) → (⟨S9216, .i32⟩ : BufTy).Contents (Elt F) → (⟨S9216, .i32⟩ : BufTy).Contents (Elt F)) (after ops V (main_v21 : DevRef τ sig)) (after ops V (main_call4_call0_v0 : DevRef τ sig)) := by
  rw [opnd 40 V main_v21 (by decide), opnd 40 V main_call4_call0_v0 (by decide), step 40 _ rfl V main_call4_call0_v1 (by decide)]
  generalize after (List.take 40 ops) V = W
  exact binary_result ..

theorem val_main_call4_call0_v2 (V : Valuation τ sig (Elt F)) :
    after ops V (main_call4_call0_v2 : DevRef τ sig) = (signi : (⟨S9216, .i32⟩ : BufTy).Contents (Elt F) → (⟨S9216, .i32⟩ : BufTy).Contents (Elt F)) (after ops V (main_v21 : DevRef τ sig)) := by
  rw [opnd 41 V main_v21 (by decide), step 41 _ rfl V main_call4_call0_v2 (by decide)]
  generalize after (List.take 41 ops) V = W
  exact unary_result ..

theorem val_main_call4_call0_v3 (V : Valuation τ sig (Elt F)) :
    after ops V (main_call4_call0_v3 : DevRef τ sig) = (signi : (⟨S_, .i32⟩ : BufTy).Contents (Elt F) → (⟨S_, .i32⟩ : BufTy).Contents (Elt F)) (after ops V (main_call4_v0 : DevRef τ sig)) := by
  rw [opnd 42 V main_call4_v0 (by decide), step 42 _ rfl V main_call4_call0_v3 (by decide)]
  generalize after (List.take 42 ops) V = W
  exact unary_result ..

theorem val_main_call4_call0_v4 (V : Valuation τ sig (Elt F)) :
    after ops V (main_call4_call0_v4 : DevRef τ sig) = (broadcastInDim S9216 ![] bcast_S_S9216 : (⟨S_, .i32⟩ : BufTy).Contents (Elt F) → (⟨S9216, .i32⟩ : BufTy).Contents (Elt F)) (after ops V (main_call4_call0_v3 : DevRef τ sig)) := by
  rw [opnd 43 V main_call4_call0_v3 (by decide), step 43 _ rfl V main_call4_call0_v4 (by decide)]
  generalize after (List.take 43 ops) V = W
  exact unary_result ..

theorem val_main_call4_call0_v5 (V : Valuation τ sig (Elt F)) :
    after ops V (main_call4_call0_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call4_call0_v2 : DevRef τ sig)) (after ops V (main_call4_call0_v4 : DevRef τ sig)) := by
  rw [opnd 44 V main_call4_call0_v2 (by decide), opnd 44 V main_call4_call0_v4 (by decide), step 44 _ rfl V main_call4_call0_v5 (by decide)]
  generalize after (List.take 44 ops) V = W
  exact binary_result ..

theorem val_main_call4_call0_v6 (V : Valuation τ sig (Elt F)) :
    after ops V (main_call4_call0_v6 : DevRef τ sig) = (broadcastInDim S9216 ![] bcast_S_S9216 : (⟨S_, .i32⟩ : BufTy).Contents (Elt F) → (⟨S9216, .i32⟩ : BufTy).Contents (Elt F)) (after ops V (main_call4_v0 : DevRef τ sig)) := by
  rw [opnd 45 V main_call4_v0 (by decide), step 45 _ rfl V main_call4_call0_v6 (by decide)]
  generalize after (List.take 45 ops) V = W
  exact unary_result ..

theorem val_main_call4_call0_v7 (V : Valuation τ sig (Elt F)) :
    after ops V (main_call4_call0_v7 : DevRef τ sig) = (Host.remsi : (⟨S9216, .i32⟩ : BufTy).Contents (Elt F) → (⟨S9216, .i32⟩ : BufTy).Contents (Elt F) → (⟨S9216, .i32⟩ : BufTy).Contents (Elt F)) (after ops V (main_v21 : DevRef τ sig)) (after ops V (main_call4_call0_v6 : DevRef τ sig)) := by
  rw [opnd 46 V main_v21 (by decide), opnd 46 V main_call4_call0_v6 (by decide), step 46 _ rfl V main_call4_call0_v7 (by decide)]
  generalize after (List.take 46 ops) V = W
  exact binary_result ..

theorem val_main_call4_call0_c (V : Valuation τ sig (Elt F)) :
    after ops V (main_call4_call0_c : DevRef τ sig) = (constantI S_ 32 0#32 : (⟨S_, .i32⟩ : BufTy).Contents (Elt F)) := by
  rw [step 47 _ rfl V main_call4_call0_c (by decide)]
  generalize after (List.take 47 ops) V = W
  exact nullary_result ..

theorem val_main_call4_call0_v8 (V : Valuation τ sig (Elt F)) :
    after ops V (main_call4_call0_v8 : DevRef τ sig) = (broadcastInDim S9216 ![] bcast_S_S9216 : (⟨S_, .i32⟩ : BufTy).Contents (Elt F) → (⟨S9216, .i32⟩ : BufTy).Contents (Elt F)) (after ops V (main_call4_call0_c : DevRef τ sig)) := by
  rw [opnd 48 V main_call4_call0_c (by decide), step 48 _ rfl V main_call4_call0_v8 (by decide)]
  generalize after (List.take 48 ops) V = W
  exact unary_result ..

theorem val_main_call4_call0_v9 (V : Valuation τ sig (Elt F)) :
    after ops V (main_call4_call0_v9 : DevRef τ sig) = (cmpi .ne : (⟨S9216, .i32⟩ : BufTy).Contents (Elt F) → (⟨S9216, .i32⟩ : BufTy).Contents (Elt F) → (⟨S9216, .i1⟩ : BufTy).Contents (Elt F)) (after ops V (main_call4_call0_v7 : DevRef τ sig)) (after ops V (main_call4_call0_v8 : DevRef τ sig)) := by
  rw [opnd 49 V main_call4_call0_v7 (by decide), opnd 49 V main_call4_call0_v8 (by decide), step 49 _ rfl V main_call4_call0_v9 (by decide)]
  generalize after (List.take 49 ops) V = W
  exact binary_result ..

theorem val_main_call4_call0_v10 (V : Valuation τ sig (Elt F)) :
    after ops V (main_call4_call0_v10 : DevRef τ sig) = (andi : (⟨S9216, .i1⟩ : BufTy).Contents (Elt F) → (⟨S9216, .i1⟩ : BufTy).Contents (Elt F) → (⟨S9216, .i1⟩ : BufTy).Contents (Elt F)) (after ops V (main_call4_call0_v5 : DevRef τ sig)) (after ops V (main_call4_call0_v9 : DevRef τ sig)) := by
  rw [opnd 50 V main_call4_call0_v5 (by decide), opnd 50 V main_call4_call0_v9 (by decide), step 50 _ rfl V main_call4_call0_v10 (by decide)]
  generalize after (List.take 50 ops) V = W
  exact binary_result ..

theorem val_main_call4_call0_c_0 (V : Valuation τ sig (Elt F)) :
    after ops V (main_call4_call0_c_0 : DevRef τ sig) = (constantI S_ 32 1#32 : (⟨S_, .i32⟩ : BufTy).Contents (Elt F)) := by
  rw [step 51 _ rfl V main_call4_call0_c_0 (by decide)]
  generalize after (List.take 51 ops) V = W
  exact nullary_result ..

theorem val_main_call4_call0_v11 (V : Valuation τ sig (Elt F)) :
    after ops V (main_call4_call0_v11 : DevRef τ sig) = (broadcastInDim S9216 ![] bcast_S_S9216 : (⟨S_, .i32⟩ : BufTy).Contents (Elt F) → (⟨S9216, .i32⟩ : BufTy).Contents (Elt F)) (after ops V (main_call4_call0_c_0 : DevRef τ sig)) := by
  rw [opnd 52 V main_call4_call0_c_0 (by decide), step 52 _ rfl V main_call4_call0_v11 (by decide)]
  generalize after (List.take 52 ops) V = W
  exact unary_result ..

theorem val_main_call4_call0_v12 (V : Valuation τ sig (Elt F)) :
    after ops V (main_call4_call0_v12 : DevRef τ sig) = (subi : (⟨S9216, .i32⟩ : BufTy).Contents (Elt F) → (⟨S9216, .i32⟩ : BufTy).Contents (Elt F) → (⟨S9216, .i32⟩ : BufTy).Contents (Elt F)) (after ops V (main_call4_call0_v1 : DevRef τ sig)) (after ops V (main_call4_call0_v11 : DevRef τ sig)) := by
  rw [opnd 53 V main_call4_call0_v1 (by decide), opnd 53 V main_call4_call0_v11 (by decide), step 53 _ rfl V main_call4_call0_v12 (by decide)]
  generalize after (List.take 53 ops) V = W
  exact binary_result ..

theorem val_main_v22_0 (V : Valuation τ sig (Elt F)) :
    after ops V (main_v22_0 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call4_call0_v10 : DevRef τ sig)) (after ops V (main_call4_call0_v12 : DevRef τ sig)) (after ops V (main_call4_call0_v1 : DevRef τ sig)) := by
  rw [opnd 54 V main_call4_call0_v10 (by decide), opnd 54 V main_call4_call0_v12 (by decide), opnd 54 V main_call4_call0_v1 (by decide), step 54 _ rfl V main_v22_0 (by decide)]
  generalize after (List.take 54 ops) V = W
  exact ternary_result ..

theorem val_main_call4_call1_c (V : Valuation τ sig (Elt F)) :
    after ops V (main_call4_call1_c : DevRef τ sig) = (constantI S_ 32 0#32 : (⟨S_, .i32⟩ : BufTy).Contents (Elt F)) := by
  rw [step 55 _ rfl V main_call4_call1_c (by decide)]
  generalize after (List.take 55 ops) V = W
  exact nullary_result ..

theorem val_main_call4_call1_v0 (V : Valuation τ sig (Elt F)) :
    after ops V (main_call4_call1_v0 : DevRef τ sig) = (cmpi .eq : (⟨S_, .i32⟩ : BufTy).Contents (Elt F) → (⟨S_, .i32⟩ : BufTy).Contents (Elt F) → (⟨S_, .i1⟩ : BufTy).Contents (Elt F)) (after ops V (main_call4_v0 : DevRef τ sig)) (after ops V (main_call4_call1_c : DevRef τ sig)) := by
  rw [opnd 56 V main_call4_v0 (by decide), opnd 56 V main_call4_call1_c (by decide), step 56 _ rfl V main_call4_call1_v0 (by decide)]
  generalize after (List.take 56 ops) V = W
  exact binary_result ..

theorem val_main_call4_call1_c_0 (V : Valuation τ sig (Elt F)) :
    after ops V (main_call4_call1_c_0 : DevRef τ sig) = (constantI S_ 32 1#32 : (⟨S_, .i32⟩ : BufTy).Contents (Elt F)) := by
  rw [step 57 _ rfl V main_call4_call1_c_0 (by decide)]
  generalize after (List.take 57 ops) V = W
  exact nullary_result ..

theorem val_main_call4_call1_v1 (V : Valuation τ sig (Elt F)) :
    after ops V (main_call4_call1_v1 : DevRef τ sig) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (main_call4_call1_v0 : DevRef τ sig)) (after ops V (main_call4_call1_c_0 : DevRef τ sig)) (after ops V (main_call4_v0 : DevRef τ sig)) := by
  rw [opnd 58 V main_call4_call1_v0 (by decide), opnd 58 V main_call4_call1_c_0 (by decide), opnd 58 V main_call4_v0 (by decide), step 58 _ rfl V main_call4_call1_v1 (by decide)]
  generalize after (List.take 58 ops) V = W
  exact ternary_result ..

theorem val_main_call4_call1_v2 (V : Valuation τ sig (Elt F)) :
    after ops V (main_call4_call1_v2 : DevRef τ sig) = (broadcastInDim S9216 ![] bcast_S_S9216 : (⟨S_, .i32⟩ : BufTy).Contents (Elt F) → (⟨S9216, .i32⟩ : BufTy).Contents (Elt F)) (after ops V (main_call4_call1_v1 : DevRef τ sig)) := by
  rw [opnd 59 V main_call4_call1_v1 (by decide), step 59 _ rfl V main_call4_call1_v2 (by decide)]
  generalize after (List.take 59 ops) V = W
  exact unary_result ..

theorem val_main_call4_call1_v3 (V : Valuation τ sig (Elt F)) :
    after ops V (main_call4_call1_v3 : DevRef τ sig) = (Host.remsi : (⟨S9216, .i32⟩ : BufTy).Contents (Elt F) → (⟨S9216, .i32⟩ : BufTy).Contents (Elt F) → (⟨S9216, .i32⟩ : BufTy).Contents (Elt F)) (after ops V (main_v21 : DevRef τ sig)) (after ops V (main_call4_call1_v2 : DevRef τ sig)) := by
  rw [opnd 60 V main_v21 (by decide), opnd 60 V main_call4_call1_v2 (by decide), step 60 _ rfl V main_call4_call1_v3 (by decide)]
  generalize after (List.take 60 ops) V = W
  exact binary_result ..

theorem val_main_call4_call1_c_1 (V : Valuation τ sig (Elt F)) :
    after ops V (main_call4_call1_c_1 : DevRef τ sig) = (constantI S_ 32 0#32 : (⟨S_, .i32⟩ : BufTy).Contents (Elt F)) := by
  rw [step 61 _ rfl V main_call4_call1_c_1 (by decide)]
  generalize after (List.take 61 ops) V = W
  exact nullary_result ..

theorem val_main_call4_call1_v4 (V : Valuation τ sig (Elt F)) :
    after ops V (main_call4_call1_v4 : DevRef τ sig) = (broadcastInDim S9216 ![] bcast_S_S9216 : (⟨S_, .i32⟩ : BufTy).Contents (Elt F) → (⟨S9216, .i32⟩ : BufTy).Contents (Elt F)) (after ops V (main_call4_call1_c_1 : DevRef τ sig)) := by
  rw [opnd 62 V main_call4_call1_c_1 (by decide), step 62 _ rfl V main_call4_call1_v4 (by decide)]
  generalize after (List.take 62 ops) V = W
  exact unary_result ..

theorem val_main_call4_call1_v5 (V : Valuation τ sig (Elt F)) :
    after ops V (main_call4_call1_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call4_call1_v3 : DevRef τ sig)) (after ops V (main_call4_call1_v4 : DevRef τ sig)) := by
  rw [opnd 63 V main_call4_call1_v3 (by decide), opnd 63 V main_call4_call1_v4 (by decide), step 63 _ rfl V main_call4_call1_v5 (by decide)]
  generalize after (List.take 63 ops) V = W
  exact binary_result ..

theorem val_main_call4_call1_c_2 (V : Valuation τ sig (Elt F)) :
    after ops V (main_call4_call1_c_2 : DevRef τ sig) = (constantI S_ 32 0#32 : (⟨S_, .i32⟩ : BufTy).Contents (Elt F)) := by
  rw [step 64 _ rfl V main_call4_call1_c_2 (by decide)]
  generalize after (List.take 64 ops) V = W
  exact nullary_result ..

theorem val_main_call4_call1_v6 (V : Valuation τ sig (Elt F)) :
    after ops V (main_call4_call1_v6 : DevRef τ sig) = (broadcastInDim S9216 ![] bcast_S_S9216 : (⟨S_, .i32⟩ : BufTy).Contents (Elt F) → (⟨S9216, .i32⟩ : BufTy).Contents (Elt F)) (after ops V (main_call4_call1_c_2 : DevRef τ sig)) := by
  rw [opnd 65 V main_call4_call1_c_2 (by decide), step 65 _ rfl V main_call4_call1_v6 (by decide)]
  generalize after (List.take 65 ops) V = W
  exact unary_result ..

theorem val_main_call4_call1_v7 (V : Valuation τ sig (Elt F)) :
    after ops V (main_call4_call1_v7 : DevRef τ sig) = (cmpi .slt : (⟨S9216, .i32⟩ : BufTy).Contents (Elt F) → (⟨S9216, .i32⟩ : BufTy).Contents (Elt F) → (⟨S9216, .i1⟩ : BufTy).Contents (Elt F)) (after ops V (main_call4_call1_v3 : DevRef τ sig)) (after ops V (main_call4_call1_v6 : DevRef τ sig)) := by
  rw [opnd 66 V main_call4_call1_v3 (by decide), opnd 66 V main_call4_call1_v6 (by decide), step 66 _ rfl V main_call4_call1_v7 (by decide)]
  generalize after (List.take 66 ops) V = W
  exact binary_result ..

theorem val_main_call4_call1_c_3 (V : Valuation τ sig (Elt F)) :
    after ops V (main_call4_call1_c_3 : DevRef τ sig) = (constantI S_ 32 0#32 : (⟨S_, .i32⟩ : BufTy).Contents (Elt F)) := by
  rw [step 67 _ rfl V main_call4_call1_c_3 (by decide)]
  generalize after (List.take 67 ops) V = W
  exact nullary_result ..

theorem val_main_call4_call1_v8 (V : Valuation τ sig (Elt F)) :
    after ops V (main_call4_call1_v8 : DevRef τ sig) = (cmpi .slt : (⟨S_, .i32⟩ : BufTy).Contents (Elt F) → (⟨S_, .i32⟩ : BufTy).Contents (Elt F) → (⟨S_, .i1⟩ : BufTy).Contents (Elt F)) (after ops V (main_call4_call1_v1 : DevRef τ sig)) (after ops V (main_call4_call1_c_3 : DevRef τ sig)) := by
  rw [opnd 68 V main_call4_call1_v1 (by decide), opnd 68 V main_call4_call1_c_3 (by decide), step 68 _ rfl V main_call4_call1_v8 (by decide)]
  generalize after (List.take 68 ops) V = W
  exact binary_result ..

theorem val_main_call4_call1_v9 (V : Valuation τ sig (Elt F)) :
    after ops V (main_call4_call1_v9 : DevRef τ sig) = (broadcastInDim S9216 ![] bcast_S_S9216 : (⟨S_, .i1⟩ : BufTy).Contents (Elt F) → (⟨S9216, .i1⟩ : BufTy).Contents (Elt F)) (after ops V (main_call4_call1_v8 : DevRef τ sig)) := by
  rw [opnd 69 V main_call4_call1_v8 (by decide), step 69 _ rfl V main_call4_call1_v9 (by decide)]
  generalize after (List.take 69 ops) V = W
  exact unary_result ..

theorem val_main_call4_call1_v10 (V : Valuation τ sig (Elt F)) :
    after ops V (main_call4_call1_v10 : DevRef τ sig) = (cmpi .ne : (⟨S9216, .i1⟩ : BufTy).Contents (Elt F) → (⟨S9216, .i1⟩ : BufTy).Contents (Elt F) → (⟨S9216, .i1⟩ : BufTy).Contents (Elt F)) (after ops V (main_call4_call1_v7 : DevRef τ sig)) (after ops V (main_call4_call1_v9 : DevRef τ sig)) := by
  rw [opnd 70 V main_call4_call1_v7 (by decide), opnd 70 V main_call4_call1_v9 (by decide), step 70 _ rfl V main_call4_call1_v10 (by decide)]
  generalize after (List.take 70 ops) V = W
  exact binary_result ..

theorem val_main_call4_call1_v11 (V : Valuation τ sig (Elt F)) :
    after ops V (main_call4_call1_v11 : DevRef τ sig) = (andi : (⟨S9216, .i1⟩ : BufTy).Contents (Elt F) → (⟨S9216, .i1⟩ : BufTy).Contents (Elt F) → (⟨S9216, .i1⟩ : BufTy).Contents (Elt F)) (after ops V (main_call4_call1_v10 : DevRef τ sig)) (after ops V (main_call4_call1_v5 : DevRef τ sig)) := by
  rw [opnd 71 V main_call4_call1_v10 (by decide), opnd 71 V main_call4_call1_v5 (by decide), step 71 _ rfl V main_call4_call1_v11 (by decide)]
  generalize after (List.take 71 ops) V = W
  exact binary_result ..

theorem val_main_call4_call1_v12 (V : Valuation τ sig (Elt F)) :
    after ops V (main_call4_call1_v12 : DevRef τ sig) = (broadcastInDim S9216 ![] bcast_S_S9216 : (⟨S_, .i32⟩ : BufTy).Contents (Elt F) → (⟨S9216, .i32⟩ : BufTy).Contents (Elt F)) (after ops V (main_call4_call1_v1 : DevRef τ sig)) := by
  rw [opnd 72 V main_call4_call1_v1 (by decide), step 72 _ rfl V main_call4_call1_v12 (by decide)]
  generalize after (List.take 72 ops) V = W
  exact unary_result ..

theorem val_main_call4_call1_v13 (V : Valuation τ sig (Elt F)) :
    after ops V (main_call4_call1_v13 : DevRef τ sig) = (addi : (⟨S9216, .i32⟩ : BufTy).Contents (Elt F) → (⟨S9216, .i32⟩ : BufTy).Contents (Elt F) → (⟨S9216, .i32⟩ : BufTy).Contents (Elt F)) (after ops V (main_call4_call1_v3 : DevRef τ sig)) (after ops V (main_call4_call1_v12 : DevRef τ sig)) := by
  rw [opnd 73 V main_call4_call1_v3 (by decide), opnd 73 V main_call4_call1_v12 (by decide), step 73 _ rfl V main_call4_call1_v13 (by decide)]
  generalize after (List.take 73 ops) V = W
  exact binary_result ..

theorem val_main_v22_1 (V : Valuation τ sig (Elt F)) :
    after ops V (main_v22_1 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call4_call1_v11 : DevRef τ sig)) (after ops V (main_call4_call1_v13 : DevRef τ sig)) (after ops V (main_call4_call1_v3 : DevRef τ sig)) := by
  rw [opnd 74 V main_call4_call1_v11 (by decide), opnd 74 V main_call4_call1_v13 (by decide), opnd 74 V main_call4_call1_v3 (by decide), step 74 _ rfl V main_v22_1 (by decide)]
  generalize after (List.take 74 ops) V = W
  exact ternary_result ..

theorem val_main_c_6 (V : Valuation τ sig (Elt F)) :
    after ops V (main_c_6 : DevRef τ sig) = (constantI S_ 32 96#32 : (⟨S_, .i32⟩ : BufTy).Contents (Elt F)) := by
  rw [step 75 _ rfl V main_c_6 (by decide)]
  generalize after (List.take 75 ops) V = W
  exact nullary_result ..

theorem val_main_call5_v0 (V : Valuation τ sig (Elt F)) :
    after ops V (main_call5_v0 : DevRef τ sig) = (id : (⟨S_, .i32⟩ : BufTy).Contents (Elt F) → (⟨S_, .i32⟩ : BufTy).Contents (Elt F)) (after ops V (main_c_6 : DevRef τ sig)) := by
  rw [opnd 76 V main_c_6 (by decide), step 76 _ rfl V main_call5_v0 (by decide)]
  generalize after (List.take 76 ops) V = W
  exact unary_result ..

theorem val_main_call5_call0_v0 (V : Valuation τ sig (Elt F)) :
    after ops V (main_call5_call0_v0 : DevRef τ sig) = (broadcastInDim S9216 ![] bcast_S_S9216 : (⟨S_, .i32⟩ : BufTy).Contents (Elt F) → (⟨S9216, .i32⟩ : BufTy).Contents (Elt F)) (after ops V (main_call5_v0 : DevRef τ sig)) := by
  rw [opnd 77 V main_call5_v0 (by decide), step 77 _ rfl V main_call5_call0_v0 (by decide)]
  generalize after (List.take 77 ops) V = W
  exact unary_result ..

theorem val_main_call5_call0_v1 (V : Valuation τ sig (Elt F)) :
    after ops V (main_call5_call0_v1 : DevRef τ sig) = (Host.divsi : (⟨S9216, .i32⟩ : BufTy).Contents (Elt F) → (⟨S9216, .i32⟩ : BufTy).Contents (Elt F) → (⟨S9216, .i32⟩ : BufTy).Contents (Elt F)) (after ops V (main_v22_0 : DevRef τ sig)) (after ops V (main_call5_call0_v0 : DevRef τ sig)) := by
  rw [opnd 78 V main_v22_0 (by decide), opnd 78 V main_call5_call0_v0 (by decide), step 78 _ rfl V main_call5_call0_v1 (by decide)]
  generalize after (List.take 78 ops) V = W
  exact binary_result ..

theorem val_main_call5_call0_v2 (V : Valuation τ sig (Elt F)) :
    after ops V (main_call5_call0_v2 : DevRef τ sig) = (signi : (⟨S9216, .i32⟩ : BufTy).Contents (Elt F) → (⟨S9216, .i32⟩ : BufTy).Contents (Elt F)) (after ops V (main_v22_0 : DevRef τ sig)) := by
  rw [opnd 79 V main_v22_0 (by decide), step 79 _ rfl V main_call5_call0_v2 (by decide)]
  generalize after (List.take 79 ops) V = W
  exact unary_result ..

theorem val_main_call5_call0_v3 (V : Valuation τ sig (Elt F)) :
    after ops V (main_call5_call0_v3 : DevRef τ sig) = (signi : (⟨S_, .i32⟩ : BufTy).Contents (Elt F) → (⟨S_, .i32⟩ : BufTy).Contents (Elt F)) (after ops V (main_call5_v0 : DevRef τ sig)) := by
  rw [opnd 80 V main_call5_v0 (by decide), step 80 _ rfl V main_call5_call0_v3 (by decide)]
  generalize after (List.take 80 ops) V = W
  exact unary_result ..

theorem val_main_call5_call0_v4 (V : Valuation τ sig (Elt F)) :
    after ops V (main_call5_call0_v4 : DevRef τ sig) = (broadcastInDim S9216 ![] bcast_S_S9216 : (⟨S_, .i32⟩ : BufTy).Contents (Elt F) → (⟨S9216, .i32⟩ : BufTy).Contents (Elt F)) (after ops V (main_call5_call0_v3 : DevRef τ sig)) := by
  rw [opnd 81 V main_call5_call0_v3 (by decide), step 81 _ rfl V main_call5_call0_v4 (by decide)]
  generalize after (List.take 81 ops) V = W
  exact unary_result ..

theorem val_main_call5_call0_v5 (V : Valuation τ sig (Elt F)) :
    after ops V (main_call5_call0_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call5_call0_v2 : DevRef τ sig)) (after ops V (main_call5_call0_v4 : DevRef τ sig)) := by
  rw [opnd 82 V main_call5_call0_v2 (by decide), opnd 82 V main_call5_call0_v4 (by decide), step 82 _ rfl V main_call5_call0_v5 (by decide)]
  generalize after (List.take 82 ops) V = W
  exact binary_result ..

theorem val_main_call5_call0_v6 (V : Valuation τ sig (Elt F)) :
    after ops V (main_call5_call0_v6 : DevRef τ sig) = (broadcastInDim S9216 ![] bcast_S_S9216 : (⟨S_, .i32⟩ : BufTy).Contents (Elt F) → (⟨S9216, .i32⟩ : BufTy).Contents (Elt F)) (after ops V (main_call5_v0 : DevRef τ sig)) := by
  rw [opnd 83 V main_call5_v0 (by decide), step 83 _ rfl V main_call5_call0_v6 (by decide)]
  generalize after (List.take 83 ops) V = W
  exact unary_result ..

theorem val_main_call5_call0_v7 (V : Valuation τ sig (Elt F)) :
    after ops V (main_call5_call0_v7 : DevRef τ sig) = (Host.remsi : (⟨S9216, .i32⟩ : BufTy).Contents (Elt F) → (⟨S9216, .i32⟩ : BufTy).Contents (Elt F) → (⟨S9216, .i32⟩ : BufTy).Contents (Elt F)) (after ops V (main_v22_0 : DevRef τ sig)) (after ops V (main_call5_call0_v6 : DevRef τ sig)) := by
  rw [opnd 84 V main_v22_0 (by decide), opnd 84 V main_call5_call0_v6 (by decide), step 84 _ rfl V main_call5_call0_v7 (by decide)]
  generalize after (List.take 84 ops) V = W
  exact binary_result ..

theorem val_main_call5_call0_c (V : Valuation τ sig (Elt F)) :
    after ops V (main_call5_call0_c : DevRef τ sig) = (constantI S_ 32 0#32 : (⟨S_, .i32⟩ : BufTy).Contents (Elt F)) := by
  rw [step 85 _ rfl V main_call5_call0_c (by decide)]
  generalize after (List.take 85 ops) V = W
  exact nullary_result ..

theorem val_main_call5_call0_v8 (V : Valuation τ sig (Elt F)) :
    after ops V (main_call5_call0_v8 : DevRef τ sig) = (broadcastInDim S9216 ![] bcast_S_S9216 : (⟨S_, .i32⟩ : BufTy).Contents (Elt F) → (⟨S9216, .i32⟩ : BufTy).Contents (Elt F)) (after ops V (main_call5_call0_c : DevRef τ sig)) := by
  rw [opnd 86 V main_call5_call0_c (by decide), step 86 _ rfl V main_call5_call0_v8 (by decide)]
  generalize after (List.take 86 ops) V = W
  exact unary_result ..

theorem val_main_call5_call0_v9 (V : Valuation τ sig (Elt F)) :
    after ops V (main_call5_call0_v9 : DevRef τ sig) = (cmpi .ne : (⟨S9216, .i32⟩ : BufTy).Contents (Elt F) → (⟨S9216, .i32⟩ : BufTy).Contents (Elt F) → (⟨S9216, .i1⟩ : BufTy).Contents (Elt F)) (after ops V (main_call5_call0_v7 : DevRef τ sig)) (after ops V (main_call5_call0_v8 : DevRef τ sig)) := by
  rw [opnd 87 V main_call5_call0_v7 (by decide), opnd 87 V main_call5_call0_v8 (by decide), step 87 _ rfl V main_call5_call0_v9 (by decide)]
  generalize after (List.take 87 ops) V = W
  exact binary_result ..

theorem val_main_call5_call0_v10 (V : Valuation τ sig (Elt F)) :
    after ops V (main_call5_call0_v10 : DevRef τ sig) = (andi : (⟨S9216, .i1⟩ : BufTy).Contents (Elt F) → (⟨S9216, .i1⟩ : BufTy).Contents (Elt F) → (⟨S9216, .i1⟩ : BufTy).Contents (Elt F)) (after ops V (main_call5_call0_v5 : DevRef τ sig)) (after ops V (main_call5_call0_v9 : DevRef τ sig)) := by
  rw [opnd 88 V main_call5_call0_v5 (by decide), opnd 88 V main_call5_call0_v9 (by decide), step 88 _ rfl V main_call5_call0_v10 (by decide)]
  generalize after (List.take 88 ops) V = W
  exact binary_result ..

theorem val_main_call5_call0_c_0 (V : Valuation τ sig (Elt F)) :
    after ops V (main_call5_call0_c_0 : DevRef τ sig) = (constantI S_ 32 1#32 : (⟨S_, .i32⟩ : BufTy).Contents (Elt F)) := by
  rw [step 89 _ rfl V main_call5_call0_c_0 (by decide)]
  generalize after (List.take 89 ops) V = W
  exact nullary_result ..

theorem val_main_call5_call0_v11 (V : Valuation τ sig (Elt F)) :
    after ops V (main_call5_call0_v11 : DevRef τ sig) = (broadcastInDim S9216 ![] bcast_S_S9216 : (⟨S_, .i32⟩ : BufTy).Contents (Elt F) → (⟨S9216, .i32⟩ : BufTy).Contents (Elt F)) (after ops V (main_call5_call0_c_0 : DevRef τ sig)) := by
  rw [opnd 90 V main_call5_call0_c_0 (by decide), step 90 _ rfl V main_call5_call0_v11 (by decide)]
  generalize after (List.take 90 ops) V = W
  exact unary_result ..

theorem val_main_call5_call0_v12 (V : Valuation τ sig (Elt F)) :
    after ops V (main_call5_call0_v12 : DevRef τ sig) = (subi : (⟨S9216, .i32⟩ : BufTy).Contents (Elt F) → (⟨S9216, .i32⟩ : BufTy).Contents (Elt F) → (⟨S9216, .i32⟩ : BufTy).Contents (Elt F)) (after ops V (main_call5_call0_v1 : DevRef τ sig)) (after ops V (main_call5_call0_v11 : DevRef τ sig)) := by
  rw [opnd 91 V main_call5_call0_v1 (by decide), opnd 91 V main_call5_call0_v11 (by decide), step 91 _ rfl V main_call5_call0_v12 (by decide)]
  generalize after (List.take 91 ops) V = W
  exact binary_result ..

theorem val_main_v23_0 (V : Valuation τ sig (Elt F)) :
    after ops V (main_v23_0 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call5_call0_v10 : DevRef τ sig)) (after ops V (main_call5_call0_v12 : DevRef τ sig)) (after ops V (main_call5_call0_v1 : DevRef τ sig)) := by
  rw [opnd 92 V main_call5_call0_v10 (by decide), opnd 92 V main_call5_call0_v12 (by decide), opnd 92 V main_call5_call0_v1 (by decide), step 92 _ rfl V main_v23_0 (by decide)]
  generalize after (List.take 92 ops) V = W
  exact ternary_result ..

theorem val_main_call5_call1_c (V : Valuation τ sig (Elt F)) :
    after ops V (main_call5_call1_c : DevRef τ sig) = (constantI S_ 32 0#32 : (⟨S_, .i32⟩ : BufTy).Contents (Elt F)) := by
  rw [step 93 _ rfl V main_call5_call1_c (by decide)]
  generalize after (List.take 93 ops) V = W
  exact nullary_result ..

theorem val_main_call5_call1_v0 (V : Valuation τ sig (Elt F)) :
    after ops V (main_call5_call1_v0 : DevRef τ sig) = (cmpi .eq : (⟨S_, .i32⟩ : BufTy).Contents (Elt F) → (⟨S_, .i32⟩ : BufTy).Contents (Elt F) → (⟨S_, .i1⟩ : BufTy).Contents (Elt F)) (after ops V (main_call5_v0 : DevRef τ sig)) (after ops V (main_call5_call1_c : DevRef τ sig)) := by
  rw [opnd 94 V main_call5_v0 (by decide), opnd 94 V main_call5_call1_c (by decide), step 94 _ rfl V main_call5_call1_v0 (by decide)]
  generalize after (List.take 94 ops) V = W
  exact binary_result ..

theorem val_main_call5_call1_c_0 (V : Valuation τ sig (Elt F)) :
    after ops V (main_call5_call1_c_0 : DevRef τ sig) = (constantI S_ 32 1#32 : (⟨S_, .i32⟩ : BufTy).Contents (Elt F)) := by
  rw [step 95 _ rfl V main_call5_call1_c_0 (by decide)]
  generalize after (List.take 95 ops) V = W
  exact nullary_result ..

theorem val_main_call5_call1_v1 (V : Valuation τ sig (Elt F)) :
    after ops V (main_call5_call1_v1 : DevRef τ sig) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (main_call5_call1_v0 : DevRef τ sig)) (after ops V (main_call5_call1_c_0 : DevRef τ sig)) (after ops V (main_call5_v0 : DevRef τ sig)) := by
  rw [opnd 96 V main_call5_call1_v0 (by decide), opnd 96 V main_call5_call1_c_0 (by decide), opnd 96 V main_call5_v0 (by decide), step 96 _ rfl V main_call5_call1_v1 (by decide)]
  generalize after (List.take 96 ops) V = W
  exact ternary_result ..

theorem val_main_call5_call1_v2 (V : Valuation τ sig (Elt F)) :
    after ops V (main_call5_call1_v2 : DevRef τ sig) = (broadcastInDim S9216 ![] bcast_S_S9216 : (⟨S_, .i32⟩ : BufTy).Contents (Elt F) → (⟨S9216, .i32⟩ : BufTy).Contents (Elt F)) (after ops V (main_call5_call1_v1 : DevRef τ sig)) := by
  rw [opnd 97 V main_call5_call1_v1 (by decide), step 97 _ rfl V main_call5_call1_v2 (by decide)]
  generalize after (List.take 97 ops) V = W
  exact unary_result ..

theorem val_main_call5_call1_v3 (V : Valuation τ sig (Elt F)) :
    after ops V (main_call5_call1_v3 : DevRef τ sig) = (Host.remsi : (⟨S9216, .i32⟩ : BufTy).Contents (Elt F) → (⟨S9216, .i32⟩ : BufTy).Contents (Elt F) → (⟨S9216, .i32⟩ : BufTy).Contents (Elt F)) (after ops V (main_v22_0 : DevRef τ sig)) (after ops V (main_call5_call1_v2 : DevRef τ sig)) := by
  rw [opnd 98 V main_v22_0 (by decide), opnd 98 V main_call5_call1_v2 (by decide), step 98 _ rfl V main_call5_call1_v3 (by decide)]
  generalize after (List.take 98 ops) V = W
  exact binary_result ..

theorem val_main_call5_call1_c_1 (V : Valuation τ sig (Elt F)) :
    after ops V (main_call5_call1_c_1 : DevRef τ sig) = (constantI S_ 32 0#32 : (⟨S_, .i32⟩ : BufTy).Contents (Elt F)) := by
  rw [step 99 _ rfl V main_call5_call1_c_1 (by decide)]
  generalize after (List.take 99 ops) V = W
  exact nullary_result ..

theorem val_main_call5_call1_v4 (V : Valuation τ sig (Elt F)) :
    after ops V (main_call5_call1_v4 : DevRef τ sig) = (broadcastInDim S9216 ![] bcast_S_S9216 : (⟨S_, .i32⟩ : BufTy).Contents (Elt F) → (⟨S9216, .i32⟩ : BufTy).Contents (Elt F)) (after ops V (main_call5_call1_c_1 : DevRef τ sig)) := by
  rw [opnd 100 V main_call5_call1_c_1 (by decide), step 100 _ rfl V main_call5_call1_v4 (by decide)]
  generalize after (List.take 100 ops) V = W
  exact unary_result ..

theorem val_main_call5_call1_v5 (V : Valuation τ sig (Elt F)) :
    after ops V (main_call5_call1_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call5_call1_v3 : DevRef τ sig)) (after ops V (main_call5_call1_v4 : DevRef τ sig)) := by
  rw [opnd 101 V main_call5_call1_v3 (by decide), opnd 101 V main_call5_call1_v4 (by decide), step 101 _ rfl V main_call5_call1_v5 (by decide)]
  generalize after (List.take 101 ops) V = W
  exact binary_result ..

theorem val_main_call5_call1_c_2 (V : Valuation τ sig (Elt F)) :
    after ops V (main_call5_call1_c_2 : DevRef τ sig) = (constantI S_ 32 0#32 : (⟨S_, .i32⟩ : BufTy).Contents (Elt F)) := by
  rw [step 102 _ rfl V main_call5_call1_c_2 (by decide)]
  generalize after (List.take 102 ops) V = W
  exact nullary_result ..

theorem val_main_call5_call1_v6 (V : Valuation τ sig (Elt F)) :
    after ops V (main_call5_call1_v6 : DevRef τ sig) = (broadcastInDim S9216 ![] bcast_S_S9216 : (⟨S_, .i32⟩ : BufTy).Contents (Elt F) → (⟨S9216, .i32⟩ : BufTy).Contents (Elt F)) (after ops V (main_call5_call1_c_2 : DevRef τ sig)) := by
  rw [opnd 103 V main_call5_call1_c_2 (by decide), step 103 _ rfl V main_call5_call1_v6 (by decide)]
  generalize after (List.take 103 ops) V = W
  exact unary_result ..

theorem val_main_call5_call1_v7 (V : Valuation τ sig (Elt F)) :
    after ops V (main_call5_call1_v7 : DevRef τ sig) = (cmpi .slt : (⟨S9216, .i32⟩ : BufTy).Contents (Elt F) → (⟨S9216, .i32⟩ : BufTy).Contents (Elt F) → (⟨S9216, .i1⟩ : BufTy).Contents (Elt F)) (after ops V (main_call5_call1_v3 : DevRef τ sig)) (after ops V (main_call5_call1_v6 : DevRef τ sig)) := by
  rw [opnd 104 V main_call5_call1_v3 (by decide), opnd 104 V main_call5_call1_v6 (by decide), step 104 _ rfl V main_call5_call1_v7 (by decide)]
  generalize after (List.take 104 ops) V = W
  exact binary_result ..

theorem val_main_call5_call1_c_3 (V : Valuation τ sig (Elt F)) :
    after ops V (main_call5_call1_c_3 : DevRef τ sig) = (constantI S_ 32 0#32 : (⟨S_, .i32⟩ : BufTy).Contents (Elt F)) := by
  rw [step 105 _ rfl V main_call5_call1_c_3 (by decide)]
  generalize after (List.take 105 ops) V = W
  exact nullary_result ..

theorem val_main_call5_call1_v8 (V : Valuation τ sig (Elt F)) :
    after ops V (main_call5_call1_v8 : DevRef τ sig) = (cmpi .slt : (⟨S_, .i32⟩ : BufTy).Contents (Elt F) → (⟨S_, .i32⟩ : BufTy).Contents (Elt F) → (⟨S_, .i1⟩ : BufTy).Contents (Elt F)) (after ops V (main_call5_call1_v1 : DevRef τ sig)) (after ops V (main_call5_call1_c_3 : DevRef τ sig)) := by
  rw [opnd 106 V main_call5_call1_v1 (by decide), opnd 106 V main_call5_call1_c_3 (by decide), step 106 _ rfl V main_call5_call1_v8 (by decide)]
  generalize after (List.take 106 ops) V = W
  exact binary_result ..

theorem val_main_call5_call1_v9 (V : Valuation τ sig (Elt F)) :
    after ops V (main_call5_call1_v9 : DevRef τ sig) = (broadcastInDim S9216 ![] bcast_S_S9216 : (⟨S_, .i1⟩ : BufTy).Contents (Elt F) → (⟨S9216, .i1⟩ : BufTy).Contents (Elt F)) (after ops V (main_call5_call1_v8 : DevRef τ sig)) := by
  rw [opnd 107 V main_call5_call1_v8 (by decide), step 107 _ rfl V main_call5_call1_v9 (by decide)]
  generalize after (List.take 107 ops) V = W
  exact unary_result ..

theorem val_main_call5_call1_v10 (V : Valuation τ sig (Elt F)) :
    after ops V (main_call5_call1_v10 : DevRef τ sig) = (cmpi .ne : (⟨S9216, .i1⟩ : BufTy).Contents (Elt F) → (⟨S9216, .i1⟩ : BufTy).Contents (Elt F) → (⟨S9216, .i1⟩ : BufTy).Contents (Elt F)) (after ops V (main_call5_call1_v7 : DevRef τ sig)) (after ops V (main_call5_call1_v9 : DevRef τ sig)) := by
  rw [opnd 108 V main_call5_call1_v7 (by decide), opnd 108 V main_call5_call1_v9 (by decide), step 108 _ rfl V main_call5_call1_v10 (by decide)]
  generalize after (List.take 108 ops) V = W
  exact binary_result ..

theorem val_main_call5_call1_v11 (V : Valuation τ sig (Elt F)) :
    after ops V (main_call5_call1_v11 : DevRef τ sig) = (andi : (⟨S9216, .i1⟩ : BufTy).Contents (Elt F) → (⟨S9216, .i1⟩ : BufTy).Contents (Elt F) → (⟨S9216, .i1⟩ : BufTy).Contents (Elt F)) (after ops V (main_call5_call1_v10 : DevRef τ sig)) (after ops V (main_call5_call1_v5 : DevRef τ sig)) := by
  rw [opnd 109 V main_call5_call1_v10 (by decide), opnd 109 V main_call5_call1_v5 (by decide), step 109 _ rfl V main_call5_call1_v11 (by decide)]
  generalize after (List.take 109 ops) V = W
  exact binary_result ..

theorem val_main_call5_call1_v12 (V : Valuation τ sig (Elt F)) :
    after ops V (main_call5_call1_v12 : DevRef τ sig) = (broadcastInDim S9216 ![] bcast_S_S9216 : (⟨S_, .i32⟩ : BufTy).Contents (Elt F) → (⟨S9216, .i32⟩ : BufTy).Contents (Elt F)) (after ops V (main_call5_call1_v1 : DevRef τ sig)) := by
  rw [opnd 110 V main_call5_call1_v1 (by decide), step 110 _ rfl V main_call5_call1_v12 (by decide)]
  generalize after (List.take 110 ops) V = W
  exact unary_result ..

theorem val_main_call5_call1_v13 (V : Valuation τ sig (Elt F)) :
    after ops V (main_call5_call1_v13 : DevRef τ sig) = (addi : (⟨S9216, .i32⟩ : BufTy).Contents (Elt F) → (⟨S9216, .i32⟩ : BufTy).Contents (Elt F) → (⟨S9216, .i32⟩ : BufTy).Contents (Elt F)) (after ops V (main_call5_call1_v3 : DevRef τ sig)) (after ops V (main_call5_call1_v12 : DevRef τ sig)) := by
  rw [opnd 111 V main_call5_call1_v3 (by decide), opnd 111 V main_call5_call1_v12 (by decide), step 111 _ rfl V main_call5_call1_v13 (by decide)]
  generalize after (List.take 111 ops) V = W
  exact binary_result ..

theorem val_main_v23_1 (V : Valuation τ sig (Elt F)) :
    after ops V (main_v23_1 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call5_call1_v11 : DevRef τ sig)) (after ops V (main_call5_call1_v13 : DevRef τ sig)) (after ops V (main_call5_call1_v3 : DevRef τ sig)) := by
  rw [opnd 112 V main_call5_call1_v11 (by decide), opnd 112 V main_call5_call1_v13 (by decide), opnd 112 V main_call5_call1_v3 (by decide), step 112 _ rfl V main_v23_1 (by decide)]
  generalize after (List.take 112 ops) V = W
  exact ternary_result ..

theorem val_main_c_7 (V : Valuation τ sig (Elt F)) :
    after ops V (main_c_7 : DevRef τ sig) = (constantI S_ 32 1#32 : (⟨S_, .i32⟩ : BufTy).Contents (Elt F)) := by
  rw [step 113 _ rfl V main_c_7 (by decide)]
  generalize after (List.take 113 ops) V = W
  exact nullary_result ..

theorem val_main_call6_v0 (V : Valuation τ sig (Elt F)) :
    after ops V (main_call6_v0 : DevRef τ sig) = (id : (⟨S_, .i32⟩ : BufTy).Contents (Elt F) → (⟨S_, .i32⟩ : BufTy).Contents (Elt F)) (after ops V (main_c_7 : DevRef τ sig)) := by
  rw [opnd 114 V main_c_7 (by decide), step 114 _ rfl V main_call6_v0 (by decide)]
  generalize after (List.take 114 ops) V = W
  exact unary_result ..

theorem val_main_call6_call0_v0 (V : Valuation τ sig (Elt F)) :
    after ops V (main_call6_call0_v0 : DevRef τ sig) = (broadcastInDim S9216 ![] bcast_S_S9216 : (⟨S_, .i32⟩ : BufTy).Contents (Elt F) → (⟨S9216, .i32⟩ : BufTy).Contents (Elt F)) (after ops V (main_call6_v0 : DevRef τ sig)) := by
  rw [opnd 115 V main_call6_v0 (by decide), step 115 _ rfl V main_call6_call0_v0 (by decide)]
  generalize after (List.take 115 ops) V = W
  exact unary_result ..

theorem val_main_call6_call0_v1 (V : Valuation τ sig (Elt F)) :
    after ops V (main_call6_call0_v1 : DevRef τ sig) = (Host.divsi : (⟨S9216, .i32⟩ : BufTy).Contents (Elt F) → (⟨S9216, .i32⟩ : BufTy).Contents (Elt F) → (⟨S9216, .i32⟩ : BufTy).Contents (Elt F)) (after ops V (main_v23_0 : DevRef τ sig)) (after ops V (main_call6_call0_v0 : DevRef τ sig)) := by
  rw [opnd 116 V main_v23_0 (by decide), opnd 116 V main_call6_call0_v0 (by decide), step 116 _ rfl V main_call6_call0_v1 (by decide)]
  generalize after (List.take 116 ops) V = W
  exact binary_result ..

theorem val_main_call6_call0_v2 (V : Valuation τ sig (Elt F)) :
    after ops V (main_call6_call0_v2 : DevRef τ sig) = (signi : (⟨S9216, .i32⟩ : BufTy).Contents (Elt F) → (⟨S9216, .i32⟩ : BufTy).Contents (Elt F)) (after ops V (main_v23_0 : DevRef τ sig)) := by
  rw [opnd 117 V main_v23_0 (by decide), step 117 _ rfl V main_call6_call0_v2 (by decide)]
  generalize after (List.take 117 ops) V = W
  exact unary_result ..

theorem val_main_call6_call0_v3 (V : Valuation τ sig (Elt F)) :
    after ops V (main_call6_call0_v3 : DevRef τ sig) = (signi : (⟨S_, .i32⟩ : BufTy).Contents (Elt F) → (⟨S_, .i32⟩ : BufTy).Contents (Elt F)) (after ops V (main_call6_v0 : DevRef τ sig)) := by
  rw [opnd 118 V main_call6_v0 (by decide), step 118 _ rfl V main_call6_call0_v3 (by decide)]
  generalize after (List.take 118 ops) V = W
  exact unary_result ..

theorem val_main_call6_call0_v4 (V : Valuation τ sig (Elt F)) :
    after ops V (main_call6_call0_v4 : DevRef τ sig) = (broadcastInDim S9216 ![] bcast_S_S9216 : (⟨S_, .i32⟩ : BufTy).Contents (Elt F) → (⟨S9216, .i32⟩ : BufTy).Contents (Elt F)) (after ops V (main_call6_call0_v3 : DevRef τ sig)) := by
  rw [opnd 119 V main_call6_call0_v3 (by decide), step 119 _ rfl V main_call6_call0_v4 (by decide)]
  generalize after (List.take 119 ops) V = W
  exact unary_result ..

theorem val_main_call6_call0_v5 (V : Valuation τ sig (Elt F)) :
    after ops V (main_call6_call0_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call6_call0_v2 : DevRef τ sig)) (after ops V (main_call6_call0_v4 : DevRef τ sig)) := by
  rw [opnd 120 V main_call6_call0_v2 (by decide), opnd 120 V main_call6_call0_v4 (by decide), step 120 _ rfl V main_call6_call0_v5 (by decide)]
  generalize after (List.take 120 ops) V = W
  exact binary_result ..

theorem val_main_call6_call0_v6 (V : Valuation τ sig (Elt F)) :
    after ops V (main_call6_call0_v6 : DevRef τ sig) = (broadcastInDim S9216 ![] bcast_S_S9216 : (⟨S_, .i32⟩ : BufTy).Contents (Elt F) → (⟨S9216, .i32⟩ : BufTy).Contents (Elt F)) (after ops V (main_call6_v0 : DevRef τ sig)) := by
  rw [opnd 121 V main_call6_v0 (by decide), step 121 _ rfl V main_call6_call0_v6 (by decide)]
  generalize after (List.take 121 ops) V = W
  exact unary_result ..

theorem val_main_call6_call0_v7 (V : Valuation τ sig (Elt F)) :
    after ops V (main_call6_call0_v7 : DevRef τ sig) = (Host.remsi : (⟨S9216, .i32⟩ : BufTy).Contents (Elt F) → (⟨S9216, .i32⟩ : BufTy).Contents (Elt F) → (⟨S9216, .i32⟩ : BufTy).Contents (Elt F)) (after ops V (main_v23_0 : DevRef τ sig)) (after ops V (main_call6_call0_v6 : DevRef τ sig)) := by
  rw [opnd 122 V main_v23_0 (by decide), opnd 122 V main_call6_call0_v6 (by decide), step 122 _ rfl V main_call6_call0_v7 (by decide)]
  generalize after (List.take 122 ops) V = W
  exact binary_result ..

theorem val_main_call6_call0_c (V : Valuation τ sig (Elt F)) :
    after ops V (main_call6_call0_c : DevRef τ sig) = (constantI S_ 32 0#32 : (⟨S_, .i32⟩ : BufTy).Contents (Elt F)) := by
  rw [step 123 _ rfl V main_call6_call0_c (by decide)]
  generalize after (List.take 123 ops) V = W
  exact nullary_result ..

theorem val_main_call6_call0_v8 (V : Valuation τ sig (Elt F)) :
    after ops V (main_call6_call0_v8 : DevRef τ sig) = (broadcastInDim S9216 ![] bcast_S_S9216 : (⟨S_, .i32⟩ : BufTy).Contents (Elt F) → (⟨S9216, .i32⟩ : BufTy).Contents (Elt F)) (after ops V (main_call6_call0_c : DevRef τ sig)) := by
  rw [opnd 124 V main_call6_call0_c (by decide), step 124 _ rfl V main_call6_call0_v8 (by decide)]
  generalize after (List.take 124 ops) V = W
  exact unary_result ..

theorem val_main_call6_call0_v9 (V : Valuation τ sig (Elt F)) :
    after ops V (main_call6_call0_v9 : DevRef τ sig) = (cmpi .ne : (⟨S9216, .i32⟩ : BufTy).Contents (Elt F) → (⟨S9216, .i32⟩ : BufTy).Contents (Elt F) → (⟨S9216, .i1⟩ : BufTy).Contents (Elt F)) (after ops V (main_call6_call0_v7 : DevRef τ sig)) (after ops V (main_call6_call0_v8 : DevRef τ sig)) := by
  rw [opnd 125 V main_call6_call0_v7 (by decide), opnd 125 V main_call6_call0_v8 (by decide), step 125 _ rfl V main_call6_call0_v9 (by decide)]
  generalize after (List.take 125 ops) V = W
  exact binary_result ..

theorem val_main_call6_call0_v10 (V : Valuation τ sig (Elt F)) :
    after ops V (main_call6_call0_v10 : DevRef τ sig) = (andi : (⟨S9216, .i1⟩ : BufTy).Contents (Elt F) → (⟨S9216, .i1⟩ : BufTy).Contents (Elt F) → (⟨S9216, .i1⟩ : BufTy).Contents (Elt F)) (after ops V (main_call6_call0_v5 : DevRef τ sig)) (after ops V (main_call6_call0_v9 : DevRef τ sig)) := by
  rw [opnd 126 V main_call6_call0_v5 (by decide), opnd 126 V main_call6_call0_v9 (by decide), step 126 _ rfl V main_call6_call0_v10 (by decide)]
  generalize after (List.take 126 ops) V = W
  exact binary_result ..

theorem val_main_call6_call0_c_0 (V : Valuation τ sig (Elt F)) :
    after ops V (main_call6_call0_c_0 : DevRef τ sig) = (constantI S_ 32 1#32 : (⟨S_, .i32⟩ : BufTy).Contents (Elt F)) := by
  rw [step 127 _ rfl V main_call6_call0_c_0 (by decide)]
  generalize after (List.take 127 ops) V = W
  exact nullary_result ..

theorem val_main_call6_call0_v11 (V : Valuation τ sig (Elt F)) :
    after ops V (main_call6_call0_v11 : DevRef τ sig) = (broadcastInDim S9216 ![] bcast_S_S9216 : (⟨S_, .i32⟩ : BufTy).Contents (Elt F) → (⟨S9216, .i32⟩ : BufTy).Contents (Elt F)) (after ops V (main_call6_call0_c_0 : DevRef τ sig)) := by
  rw [opnd 128 V main_call6_call0_c_0 (by decide), step 128 _ rfl V main_call6_call0_v11 (by decide)]
  generalize after (List.take 128 ops) V = W
  exact unary_result ..

theorem val_main_call6_call0_v12 (V : Valuation τ sig (Elt F)) :
    after ops V (main_call6_call0_v12 : DevRef τ sig) = (subi : (⟨S9216, .i32⟩ : BufTy).Contents (Elt F) → (⟨S9216, .i32⟩ : BufTy).Contents (Elt F) → (⟨S9216, .i32⟩ : BufTy).Contents (Elt F)) (after ops V (main_call6_call0_v1 : DevRef τ sig)) (after ops V (main_call6_call0_v11 : DevRef τ sig)) := by
  rw [opnd 129 V main_call6_call0_v1 (by decide), opnd 129 V main_call6_call0_v11 (by decide), step 129 _ rfl V main_call6_call0_v12 (by decide)]
  generalize after (List.take 129 ops) V = W
  exact binary_result ..

theorem val_main_v24_0 (V : Valuation τ sig (Elt F)) :
    after ops V (main_v24_0 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call6_call0_v10 : DevRef τ sig)) (after ops V (main_call6_call0_v12 : DevRef τ sig)) (after ops V (main_call6_call0_v1 : DevRef τ sig)) := by
  rw [opnd 130 V main_call6_call0_v10 (by decide), opnd 130 V main_call6_call0_v12 (by decide), opnd 130 V main_call6_call0_v1 (by decide), step 130 _ rfl V main_v24_0 (by decide)]
  generalize after (List.take 130 ops) V = W
  exact ternary_result ..

theorem val_main_call6_call1_c (V : Valuation τ sig (Elt F)) :
    after ops V (main_call6_call1_c : DevRef τ sig) = (constantI S_ 32 0#32 : (⟨S_, .i32⟩ : BufTy).Contents (Elt F)) := by
  rw [step 131 _ rfl V main_call6_call1_c (by decide)]
  generalize after (List.take 131 ops) V = W
  exact nullary_result ..

theorem val_main_call6_call1_v0 (V : Valuation τ sig (Elt F)) :
    after ops V (main_call6_call1_v0 : DevRef τ sig) = (cmpi .eq : (⟨S_, .i32⟩ : BufTy).Contents (Elt F) → (⟨S_, .i32⟩ : BufTy).Contents (Elt F) → (⟨S_, .i1⟩ : BufTy).Contents (Elt F)) (after ops V (main_call6_v0 : DevRef τ sig)) (after ops V (main_call6_call1_c : DevRef τ sig)) := by
  rw [opnd 132 V main_call6_v0 (by decide), opnd 132 V main_call6_call1_c (by decide), step 132 _ rfl V main_call6_call1_v0 (by decide)]
  generalize after (List.take 132 ops) V = W
  exact binary_result ..

theorem val_main_call6_call1_c_0 (V : Valuation τ sig (Elt F)) :
    after ops V (main_call6_call1_c_0 : DevRef τ sig) = (constantI S_ 32 1#32 : (⟨S_, .i32⟩ : BufTy).Contents (Elt F)) := by
  rw [step 133 _ rfl V main_call6_call1_c_0 (by decide)]
  generalize after (List.take 133 ops) V = W
  exact nullary_result ..

theorem val_main_call6_call1_v1 (V : Valuation τ sig (Elt F)) :
    after ops V (main_call6_call1_v1 : DevRef τ sig) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (main_call6_call1_v0 : DevRef τ sig)) (after ops V (main_call6_call1_c_0 : DevRef τ sig)) (after ops V (main_call6_v0 : DevRef τ sig)) := by
  rw [opnd 134 V main_call6_call1_v0 (by decide), opnd 134 V main_call6_call1_c_0 (by decide), opnd 134 V main_call6_v0 (by decide), step 134 _ rfl V main_call6_call1_v1 (by decide)]
  generalize after (List.take 134 ops) V = W
  exact ternary_result ..

theorem val_main_call6_call1_v2 (V : Valuation τ sig (Elt F)) :
    after ops V (main_call6_call1_v2 : DevRef τ sig) = (broadcastInDim S9216 ![] bcast_S_S9216 : (⟨S_, .i32⟩ : BufTy).Contents (Elt F) → (⟨S9216, .i32⟩ : BufTy).Contents (Elt F)) (after ops V (main_call6_call1_v1 : DevRef τ sig)) := by
  rw [opnd 135 V main_call6_call1_v1 (by decide), step 135 _ rfl V main_call6_call1_v2 (by decide)]
  generalize after (List.take 135 ops) V = W
  exact unary_result ..

theorem val_main_call6_call1_v3 (V : Valuation τ sig (Elt F)) :
    after ops V (main_call6_call1_v3 : DevRef τ sig) = (Host.remsi : (⟨S9216, .i32⟩ : BufTy).Contents (Elt F) → (⟨S9216, .i32⟩ : BufTy).Contents (Elt F) → (⟨S9216, .i32⟩ : BufTy).Contents (Elt F)) (after ops V (main_v23_0 : DevRef τ sig)) (after ops V (main_call6_call1_v2 : DevRef τ sig)) := by
  rw [opnd 136 V main_v23_0 (by decide), opnd 136 V main_call6_call1_v2 (by decide), step 136 _ rfl V main_call6_call1_v3 (by decide)]
  generalize after (List.take 136 ops) V = W
  exact binary_result ..

theorem val_main_call6_call1_c_1 (V : Valuation τ sig (Elt F)) :
    after ops V (main_call6_call1_c_1 : DevRef τ sig) = (constantI S_ 32 0#32 : (⟨S_, .i32⟩ : BufTy).Contents (Elt F)) := by
  rw [step 137 _ rfl V main_call6_call1_c_1 (by decide)]
  generalize after (List.take 137 ops) V = W
  exact nullary_result ..

theorem val_main_call6_call1_v4 (V : Valuation τ sig (Elt F)) :
    after ops V (main_call6_call1_v4 : DevRef τ sig) = (broadcastInDim S9216 ![] bcast_S_S9216 : (⟨S_, .i32⟩ : BufTy).Contents (Elt F) → (⟨S9216, .i32⟩ : BufTy).Contents (Elt F)) (after ops V (main_call6_call1_c_1 : DevRef τ sig)) := by
  rw [opnd 138 V main_call6_call1_c_1 (by decide), step 138 _ rfl V main_call6_call1_v4 (by decide)]
  generalize after (List.take 138 ops) V = W
  exact unary_result ..

theorem val_main_call6_call1_v5 (V : Valuation τ sig (Elt F)) :
    after ops V (main_call6_call1_v5 : DevRef τ sig) = (cmpi .ne : (⟨S9216, .i32⟩ : BufTy).Contents (Elt F) → (⟨S9216, .i32⟩ : BufTy).Contents (Elt F) → (⟨S9216, .i1⟩ : BufTy).Contents (Elt F)) (after ops V (main_call6_call1_v3 : DevRef τ sig)) (after ops V (main_call6_call1_v4 : DevRef τ sig)) := by
  rw [opnd 139 V main_call6_call1_v3 (by decide), opnd 139 V main_call6_call1_v4 (by decide), step 139 _ rfl V main_call6_call1_v5 (by decide)]
  generalize after (List.take 139 ops) V = W
  exact binary_result ..

theorem val_main_call6_call1_c_2 (V : Valuation τ sig (Elt F)) :
    after ops V (main_call6_call1_c_2 : DevRef τ sig) = (constantI S_ 32 0#32 : (⟨S_, .i32⟩ : BufTy).Contents (Elt F)) := by
  rw [step 140 _ rfl V main_call6_call1_c_2 (by decide)]
  generalize after (List.take 140 ops) V = W
  exact nullary_result ..

theorem val_main_call6_call1_v6 (V : Valuation τ sig (Elt F)) :
    after ops V (main_call6_call1_v6 : DevRef τ sig) = (broadcastInDim S9216 ![] bcast_S_S9216 : (⟨S_, .i32⟩ : BufTy).Contents (Elt F) → (⟨S9216, .i32⟩ : BufTy).Contents (Elt F)) (after ops V (main_call6_call1_c_2 : DevRef τ sig)) := by
  rw [opnd 141 V main_call6_call1_c_2 (by decide), step 141 _ rfl V main_call6_call1_v6 (by decide)]
  generalize after (List.take 141 ops) V = W
  exact unary_result ..

theorem val_main_call6_call1_v7 (V : Valuation τ sig (Elt F)) :
    after ops V (main_call6_call1_v7 : DevRef τ sig) = (cmpi .slt : (⟨S9216, .i32⟩ : BufTy).Contents (Elt F) → (⟨S9216, .i32⟩ : BufTy).Contents (Elt F) → (⟨S9216, .i1⟩ : BufTy).Contents (Elt F)) (after ops V (main_call6_call1_v3 : DevRef τ sig)) (after ops V (main_call6_call1_v6 : DevRef τ sig)) := by
  rw [opnd 142 V main_call6_call1_v3 (by decide), opnd 142 V main_call6_call1_v6 (by decide), step 142 _ rfl V main_call6_call1_v7 (by decide)]
  generalize after (List.take 142 ops) V = W
  exact binary_result ..

theorem val_main_call6_call1_c_3 (V : Valuation τ sig (Elt F)) :
    after ops V (main_call6_call1_c_3 : DevRef τ sig) = (constantI S_ 32 0#32 : (⟨S_, .i32⟩ : BufTy).Contents (Elt F)) := by
  rw [step 143 _ rfl V main_call6_call1_c_3 (by decide)]
  generalize after (List.take 143 ops) V = W
  exact nullary_result ..

theorem val_main_call6_call1_v8 (V : Valuation τ sig (Elt F)) :
    after ops V (main_call6_call1_v8 : DevRef τ sig) = (cmpi .slt : (⟨S_, .i32⟩ : BufTy).Contents (Elt F) → (⟨S_, .i32⟩ : BufTy).Contents (Elt F) → (⟨S_, .i1⟩ : BufTy).Contents (Elt F)) (after ops V (main_call6_call1_v1 : DevRef τ sig)) (after ops V (main_call6_call1_c_3 : DevRef τ sig)) := by
  rw [opnd 144 V main_call6_call1_v1 (by decide), opnd 144 V main_call6_call1_c_3 (by decide), step 144 _ rfl V main_call6_call1_v8 (by decide)]
  generalize after (List.take 144 ops) V = W
  exact binary_result ..

theorem val_main_call6_call1_v9 (V : Valuation τ sig (Elt F)) :
    after ops V (main_call6_call1_v9 : DevRef τ sig) = (broadcastInDim S9216 ![] bcast_S_S9216 : (⟨S_, .i1⟩ : BufTy).Contents (Elt F) → (⟨S9216, .i1⟩ : BufTy).Contents (Elt F)) (after ops V (main_call6_call1_v8 : DevRef τ sig)) := by
  rw [opnd 145 V main_call6_call1_v8 (by decide), step 145 _ rfl V main_call6_call1_v9 (by decide)]
  generalize after (List.take 145 ops) V = W
  exact unary_result ..

theorem val_main_call6_call1_v10 (V : Valuation τ sig (Elt F)) :
    after ops V (main_call6_call1_v10 : DevRef τ sig) = (cmpi .ne : (⟨S9216, .i1⟩ : BufTy).Contents (Elt F) → (⟨S9216, .i1⟩ : BufTy).Contents (Elt F) → (⟨S9216, .i1⟩ : BufTy).Contents (Elt F)) (after ops V (main_call6_call1_v7 : DevRef τ sig)) (after ops V (main_call6_call1_v9 : DevRef τ sig)) := by
  rw [opnd 146 V main_call6_call1_v7 (by decide), opnd 146 V main_call6_call1_v9 (by decide), step 146 _ rfl V main_call6_call1_v10 (by decide)]
  generalize after (List.take 146 ops) V = W
  exact binary_result ..

theorem val_main_call6_call1_v11 (V : Valuation τ sig (Elt F)) :
    after ops V (main_call6_call1_v11 : DevRef τ sig) = (andi : (⟨S9216, .i1⟩ : BufTy).Contents (Elt F) → (⟨S9216, .i1⟩ : BufTy).Contents (Elt F) → (⟨S9216, .i1⟩ : BufTy).Contents (Elt F)) (after ops V (main_call6_call1_v10 : DevRef τ sig)) (after ops V (main_call6_call1_v5 : DevRef τ sig)) := by
  rw [opnd 147 V main_call6_call1_v10 (by decide), opnd 147 V main_call6_call1_v5 (by decide), step 147 _ rfl V main_call6_call1_v11 (by decide)]
  generalize after (List.take 147 ops) V = W
  exact binary_result ..

theorem val_main_call6_call1_v12 (V : Valuation τ sig (Elt F)) :
    after ops V (main_call6_call1_v12 : DevRef τ sig) = (broadcastInDim S9216 ![] bcast_S_S9216 : (⟨S_, .i32⟩ : BufTy).Contents (Elt F) → (⟨S9216, .i32⟩ : BufTy).Contents (Elt F)) (after ops V (main_call6_call1_v1 : DevRef τ sig)) := by
  rw [opnd 148 V main_call6_call1_v1 (by decide), step 148 _ rfl V main_call6_call1_v12 (by decide)]
  generalize after (List.take 148 ops) V = W
  exact unary_result ..

theorem val_main_call6_call1_v13 (V : Valuation τ sig (Elt F)) :
    after ops V (main_call6_call1_v13 : DevRef τ sig) = (addi : (⟨S9216, .i32⟩ : BufTy).Contents (Elt F) → (⟨S9216, .i32⟩ : BufTy).Contents (Elt F) → (⟨S9216, .i32⟩ : BufTy).Contents (Elt F)) (after ops V (main_call6_call1_v3 : DevRef τ sig)) (after ops V (main_call6_call1_v12 : DevRef τ sig)) := by
  rw [opnd 149 V main_call6_call1_v3 (by decide), opnd 149 V main_call6_call1_v12 (by decide), step 149 _ rfl V main_call6_call1_v13 (by decide)]
  generalize after (List.take 149 ops) V = W
  exact binary_result ..

theorem val_main_v24_1 (V : Valuation τ sig (Elt F)) :
    after ops V (main_v24_1 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_call6_call1_v11 : DevRef τ sig)) (after ops V (main_call6_call1_v13 : DevRef τ sig)) (after ops V (main_call6_call1_v3 : DevRef τ sig)) := by
  rw [opnd 150 V main_call6_call1_v11 (by decide), opnd 150 V main_call6_call1_v13 (by decide), opnd 150 V main_call6_call1_v3 (by decide), step 150 _ rfl V main_v24_1 (by decide)]
  generalize after (List.take 150 ops) V = W
  exact ternary_result ..

theorem val_main_c_8 (V : Valuation τ sig (Elt F)) :
    after ops V (main_c_8 : DevRef τ sig) = (constantI S_ 32 0#32 : (⟨S_, .i32⟩ : BufTy).Contents (Elt F)) := by
  rw [step 151 _ rfl V main_c_8 (by decide)]
  generalize after (List.take 151 ops) V = W
  exact nullary_result ..

theorem val_main_v25 (V : Valuation τ sig (Elt F)) :
    after ops V (main_v25 : DevRef τ sig) = (broadcastInDim S9216 ![] bcast_S_S9216 : (⟨S_, .i32⟩ : BufTy).Contents (Elt F) → (⟨S9216, .i32⟩ : BufTy).Contents (Elt F)) (after ops V (main_c_8 : DevRef τ sig)) := by
  rw [opnd 152 V main_c_8 (by decide), step 152 _ rfl V main_v25 (by decide)]
  generalize after (List.take 152 ops) V = W
  exact unary_result ..

theorem val_main_v26 (V : Valuation τ sig (Elt F)) :
    after ops V (main_v26 : DevRef τ sig) = (cmpi .sgt : (⟨S9216, .i32⟩ : BufTy).Contents (Elt F) → (⟨S9216, .i32⟩ : BufTy).Contents (Elt F) → (⟨S9216, .i1⟩ : BufTy).Contents (Elt F)) (after ops V (main_v24_0 : DevRef τ sig)) (after ops V (main_v25 : DevRef τ sig)) := by
  rw [opnd 153 V main_v24_0 (by decide), opnd 153 V main_v25 (by decide), step 153 _ rfl V main_v26 (by decide)]
  generalize after (List.take 153 ops) V = W
  exact binary_result ..

theorem val_main_c_9 (V : Valuation τ sig (Elt F)) :
    after ops V (main_c_9 : DevRef τ sig) = (constantI S_ 32 4294967295#32 : (⟨S_, .i32⟩ : BufTy).Contents (Elt F)) := by
  rw [step 154 _ rfl V main_c_9 (by decide)]
  generalize after (List.take 154 ops) V = W
  exact nullary_result ..

theorem val_main_v27 (V : Valuation τ sig (Elt F)) :
    after ops V (main_v27 : DevRef τ sig) = (broadcastInDim S9216 ![] bcast_S_S9216 : (⟨S_, .i32⟩ : BufTy).Contents (Elt F) → (⟨S9216, .i32⟩ : BufTy).Contents (Elt F)) (after ops V (main_c_9 : DevRef τ sig)) := by
  rw [opnd 155 V main_c_9 (by decide), step 155 _ rfl V main_v27 (by decide)]
  generalize after (List.take 155 ops) V = W
  exact unary_result ..

theorem val_main_v28 (V : Valuation τ sig (Elt F)) :
    after ops V (main_v28 : DevRef τ sig) = (cmpi .slt : (⟨S9216, .i32⟩ : BufTy).Contents (Elt F) → (⟨S9216, .i32⟩ : BufTy).Contents (Elt F) → (⟨S9216, .i1⟩ : BufTy).Contents (Elt F)) (after ops V (main_v24_0 : DevRef τ sig)) (after ops V (main_v27 : DevRef τ sig)) := by
  rw [opnd 156 V main_v24_0 (by decide), opnd 156 V main_v27 (by decide), step 156 _ rfl V main_v28 (by decide)]
  generalize after (List.take 156 ops) V = W
  exact binary_result ..

theorem val_main_c_10 (V : Valuation τ sig (Elt F)) :
    after ops V (main_c_10 : DevRef τ sig) = (constantI S_ 32 0#32 : (⟨S_, .i32⟩ : BufTy).Contents (Elt F)) := by
  rw [step 157 _ rfl V main_c_10 (by decide)]
  generalize after (List.take 157 ops) V = W
  exact nullary_result ..

theorem val_main_call7_v0 (V : Valuation τ sig (Elt F)) :
    after ops V (main_call7_v0 : DevRef τ sig) = (id : (⟨S_, .i32⟩ : BufTy).Contents (Elt F) → (⟨S_, .i32⟩ : BufTy).Contents (Elt F)) (after ops V (main_c_10 : DevRef τ sig)) := by
  rw [opnd 158 V main_c_10 (by decide), step 158 _ rfl V main_call7_v0 (by decide)]
  generalize after (List.take 158 ops) V = W
  exact unary_result ..

theorem val_main_call7_v1 (V : Valuation τ sig (Elt F)) :
    after ops V (main_call7_v1 : DevRef τ sig) = (broadcastInDim S9216 ![] bcast_S_S9216 : (⟨S_, .i32⟩ : BufTy).Contents (Elt F) → (⟨S9216, .i32⟩ : BufTy).Contents (Elt F)) (after ops V (main_call7_v0 : DevRef τ sig)) := by
  rw [opnd 159 V main_call7_v0 (by decide), step 159 _ rfl V main_call7_v1 (by decide)]
  generalize after (List.take 159 ops) V = W
  exact unary_result ..

theorem val_main_v29 (V : Valuation τ sig (Elt F)) :
    after ops V (main_v29 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v28 : DevRef τ sig)) (after ops V (main_call7_v1 : DevRef τ sig)) (after ops V (main_v24_1 : DevRef τ sig)) := by
  rw [opnd 160 V main_v28 (by decide), opnd 160 V main_call7_v1 (by decide), opnd 160 V main_v24_1 (by decide), step 160 _ rfl V main_v29 (by decide)]
  generalize after (List.take 160 ops) V = W
  exact ternary_result ..

theorem val_main_c_11 (V : Valuation τ sig (Elt F)) :
    after ops V (main_c_11 : DevRef τ sig) = (constantI S_ 32 0#32 : (⟨S_, .i32⟩ : BufTy).Contents (Elt F)) := by
  rw [step 161 _ rfl V main_c_11 (by decide)]
  generalize after (List.take 161 ops) V = W
  exact nullary_result ..

theorem val_main_call8_v0 (V : Valuation τ sig (Elt F)) :
    after ops V (main_call8_v0 : DevRef τ sig) = (id : (⟨S_, .i32⟩ : BufTy).Contents (Elt F) → (⟨S_, .i32⟩ : BufTy).Contents (Elt F)) (after ops V (main_c_11 : DevRef τ sig)) := by
  rw [opnd 162 V main_c_11 (by decide), step 162 _ rfl V main_call8_v0 (by decide)]
  generalize after (List.take 162 ops) V = W
  exact unary_result ..

theorem val_main_call8_v1 (V : Valuation τ sig (Elt F)) :
    after ops V (main_call8_v1 : DevRef τ sig) = (broadcastInDim S9216 ![] bcast_S_S9216 : (⟨S_, .i32⟩ : BufTy).Contents (Elt F) → (⟨S9216, .i32⟩ : BufTy).Contents (Elt F)) (after ops V (main_call8_v0 : DevRef τ sig)) := by
  rw [opnd 163 V main_call8_v0 (by decide), step 163 _ rfl V main_call8_v1 (by decide)]
  generalize after (List.take 163 ops) V = W
  exact unary_result ..

theorem val_main_v30 (V : Valuation τ sig (Elt F)) :
    after ops V (main_v30 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v26 : DevRef τ sig)) (after ops V (main_call8_v1 : DevRef τ sig)) (after ops V (main_v29 : DevRef τ sig)) := by
  rw [opnd 164 V main_v26 (by decide), opnd 164 V main_call8_v1 (by decide), opnd 164 V main_v29 (by decide), step 164 _ rfl V main_v30 (by decide)]
  generalize after (List.take 164 ops) V = W
  exact ternary_result ..

theorem val_main_c_12 (V : Valuation τ sig (Elt F)) :
    after ops V (main_c_12 : DevRef τ sig) = (constantI S_ 32 0#32 : (⟨S_, .i32⟩ : BufTy).Contents (Elt F)) := by
  rw [step 165 _ rfl V main_c_12 (by decide)]
  generalize after (List.take 165 ops) V = W
  exact nullary_result ..

theorem val_main_call9_v0 (V : Valuation τ sig (Elt F)) :
    after ops V (main_call9_v0 : DevRef τ sig) = (id : (⟨S_, .i32⟩ : BufTy).Contents (Elt F) → (⟨S_, .i32⟩ : BufTy).Contents (Elt F)) (after ops V (main_c_12 : DevRef τ sig)) := by
  rw [opnd 166 V main_c_12 (by decide), step 166 _ rfl V main_call9_v0 (by decide)]
  generalize after (List.take 166 ops) V = W
  exact unary_result ..

theorem val_main_call9_v1 (V : Valuation τ sig (Elt F)) :
    after ops V (main_call9_v1 : DevRef τ sig) = (broadcastInDim S9216 ![] bcast_S_S9216 : (⟨S_, .i32⟩ : BufTy).Contents (Elt F) → (⟨S9216, .i32⟩ : BufTy).Contents (Elt F)) (after ops V (main_call9_v0 : DevRef τ sig)) := by
  rw [opnd 167 V main_call9_v0 (by decide), step 167 _ rfl V main_call9_v1 (by decide)]
  generalize after (List.take 167 ops) V = W
  exact unary_result ..

theorem val_main_v31 (V : Valuation τ sig (Elt F)) :
    after ops V (main_v31 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v28 : DevRef τ sig)) (after ops V (main_call9_v1 : DevRef τ sig)) (after ops V (main_v23_1 : DevRef τ sig)) := by
  rw [opnd 168 V main_v28 (by decide), opnd 168 V main_call9_v1 (by decide), opnd 168 V main_v23_1 (by decide), step 168 _ rfl V main_v31 (by decide)]
  generalize after (List.take 168 ops) V = W
  exact ternary_result ..

theorem val_main_c_13 (V : Valuation τ sig (Elt F)) :
    after ops V (main_c_13 : DevRef τ sig) = (constantI S_ 32 95#32 : (⟨S_, .i32⟩ : BufTy).Contents (Elt F)) := by
  rw [step 169 _ rfl V main_c_13 (by decide)]
  generalize after (List.take 169 ops) V = W
  exact nullary_result ..

theorem val_main_call10_v0 (V : Valuation τ sig (Elt F)) :
    after ops V (main_call10_v0 : DevRef τ sig) = (id : (⟨S_, .i32⟩ : BufTy).Contents (Elt F) → (⟨S_, .i32⟩ : BufTy).Contents (Elt F)) (after ops V (main_c_13 : DevRef τ sig)) := by
  rw [opnd 170 V main_c_13 (by decide), step 170 _ rfl V main_call10_v0 (by decide)]
  generalize after (List.take 170 ops) V = W
  exact unary_result ..

theorem val_main_call10_v1 (V : Valuation τ sig (Elt F)) :
    after ops V (main_call10_v1 : DevRef τ sig) = (broadcastInDim S9216 ![] bcast_S_S9216 : (⟨S_, .i32⟩ : BufTy).Contents (Elt F) → (⟨S9216, .i32⟩ : BufTy).Contents (Elt F)) (after ops V (main_call10_v0 : DevRef τ sig)) := by
  rw [opnd 171 V main_call10_v0 (by decide), step 171 _ rfl V main_call10_v1 (by decide)]
  generalize after (List.take 171 ops) V = W
  exact unary_result ..

theorem val_main_v32 (V : Valuation τ sig (Elt F)) :
    after ops V (main_v32 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v26 : DevRef τ sig)) (after ops V (main_call10_v1 : DevRef τ sig)) (after ops V (main_v31 : DevRef τ sig)) := by
  rw [opnd 172 V main_v26 (by decide), opnd 172 V main_call10_v1 (by decide), opnd 172 V main_v31 (by decide), step 172 _ rfl V main_v32 (by decide)]
  generalize after (List.take 172 ops) V = W
  exact ternary_result ..

theorem val_main_c_14 (V : Valuation τ sig (Elt F)) :
    after ops V (main_c_14 : DevRef τ sig) = (constantI S_ 32 0#32 : (⟨S_, .i32⟩ : BufTy).Contents (Elt F)) := by
  rw [step 173 _ rfl V main_c_14 (by decide)]
  generalize after (List.take 173 ops) V = W
  exact nullary_result ..

theorem val_main_call11_v0 (V : Valuation τ sig (Elt F)) :
    after ops V (main_call11_v0 : DevRef τ sig) = (id : (⟨S_, .i32⟩ : BufTy).Contents (Elt F) → (⟨S_, .i32⟩ : BufTy).Contents (Elt F)) (after ops V (main_c_14 : DevRef τ sig)) := by
  rw [opnd 174 V main_c_14 (by decide), step 174 _ rfl V main_call11_v0 (by decide)]
  generalize after (List.take 174 ops) V = W
  exact unary_result ..

theorem val_main_call11_v1 (V : Valuation τ sig (Elt F)) :
    after ops V (main_call11_v1 : DevRef τ sig) = (broadcastInDim S9216 ![] bcast_S_S9216 : (⟨S_, .i32⟩ : BufTy).Contents (Elt F) → (⟨S9216, .i32⟩ : BufTy).Contents (Elt F)) (after ops V (main_call11_v0 : DevRef τ sig)) := by
  rw [opnd 175 V main_call11_v0 (by decide), step 175 _ rfl V main_call11_v1 (by decide)]
  generalize after (List.take 175 ops) V = W
  exact unary_result ..

theorem val_main_v33 (V : Valuation τ sig (Elt F)) :
    after ops V (main_v33 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v28 : DevRef τ sig)) (after ops V (main_call11_v1 : DevRef τ sig)) (after ops V (main_v22_1 : DevRef τ sig)) := by
  rw [opnd 176 V main_v28 (by decide), opnd 176 V main_call11_v1 (by decide), opnd 176 V main_v22_1 (by decide), step 176 _ rfl V main_v33 (by decide)]
  generalize after (List.take 176 ops) V = W
  exact ternary_result ..

theorem val_main_c_15 (V : Valuation τ sig (Elt F)) :
    after ops V (main_c_15 : DevRef τ sig) = (constantI S_ 32 95#32 : (⟨S_, .i32⟩ : BufTy).Contents (Elt F)) := by
  rw [step 177 _ rfl V main_c_15 (by decide)]
  generalize after (List.take 177 ops) V = W
  exact nullary_result ..

theorem val_main_call12_v0 (V : Valuation τ sig (Elt F)) :
    after ops V (main_call12_v0 : DevRef τ sig) = (id : (⟨S_, .i32⟩ : BufTy).Contents (Elt F) → (⟨S_, .i32⟩ : BufTy).Contents (Elt F)) (after ops V (main_c_15 : DevRef τ sig)) := by
  rw [opnd 178 V main_c_15 (by decide), step 178 _ rfl V main_call12_v0 (by decide)]
  generalize after (List.take 178 ops) V = W
  exact unary_result ..

theorem val_main_call12_v1 (V : Valuation τ sig (Elt F)) :
    after ops V (main_call12_v1 : DevRef τ sig) = (broadcastInDim S9216 ![] bcast_S_S9216 : (⟨S_, .i32⟩ : BufTy).Contents (Elt F) → (⟨S9216, .i32⟩ : BufTy).Contents (Elt F)) (after ops V (main_call12_v0 : DevRef τ sig)) := by
  rw [opnd 179 V main_call12_v0 (by decide), step 179 _ rfl V main_call12_v1 (by decide)]
  generalize after (List.take 179 ops) V = W
  exact unary_result ..

theorem val_main_v34 (V : Valuation τ sig (Elt F)) :
    after ops V (main_v34 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v26 : DevRef τ sig)) (after ops V (main_call12_v1 : DevRef τ sig)) (after ops V (main_v33 : DevRef τ sig)) := by
  rw [opnd 180 V main_v26 (by decide), opnd 180 V main_call12_v1 (by decide), opnd 180 V main_v33 (by decide), step 180 _ rfl V main_v34 (by decide)]
  generalize after (List.take 180 ops) V = W
  exact ternary_result ..

theorem val_main_cst_16 (V : Valuation τ sig (Elt F)) :
    after ops V (main_cst_16 : DevRef τ sig) = (constant S_ .f32 0x00000000#32 : (⟨S_, .f32⟩ : BufTy).Contents (Elt F)) := by
  rw [step 181 _ rfl V main_cst_16 (by decide)]
  generalize after (List.take 181 ops) V = W
  exact nullary_result ..

theorem val_main_v35 (V : Valuation τ sig (Elt F)) :
    after ops V (main_v35 : DevRef τ sig) = (broadcastInDim S1x9217x1x96x96 ![] bcast_S_S1x9217x1x96x96 : (⟨S_, .f32⟩ : BufTy).Contents (Elt F) → (⟨S1x9217x1x96x96, .f32⟩ : BufTy).Contents (Elt F)) (after ops V (main_cst_16 : DevRef τ sig)) := by
  rw [opnd 182 V main_cst_16 (by decide), step 182 _ rfl V main_v35 (by decide)]
  generalize after (List.take 182 ops) V = W
  exact unary_result ..

theorem val_main_v36 (V : Valuation τ sig (Elt F)) :
    after ops V (main_v36 : DevRef τ sig) = (shapeCast S1x96x96 (after ops V (main_v11 : DevRef τ sig) : (⟨S1x1x96x96, .f32⟩ : BufTy).Contents (Elt F)) shapeCasts_S1x1x96x96_S1x96x96 : (⟨S1x96x96, .f32⟩ : BufTy).Contents (Elt F)) := by
  rw [opnd 183 V main_v11 (by decide), step 183 _ rfl V main_v36 (by decide)]
  generalize after (List.take 183 ops) V = W
  exact reshape_result ..

theorem val_main_c_17 (V : Valuation τ sig (Elt F)) :
    after ops V (main_c_17 : DevRef τ sig) = (constantI S_ 32 0#32 : (⟨S_, .i32⟩ : BufTy).Contents (Elt F)) := by
  rw [step 184 _ rfl V main_c_17 (by decide)]
  generalize after (List.take 184 ops) V = W
  exact nullary_result ..

theorem val_main_v37 (V : Valuation τ sig (Elt F)) :
    after ops V (main_v37 : DevRef τ sig) = (broadcastInDim S1 ![] bcast_S_S1 : (⟨S_, .i32⟩ : BufTy).Contents (Elt F) → (⟨S1, .i32⟩ : BufTy).Contents (Elt F)) (after ops V (main_c_17 : DevRef τ sig)) := by
  rw [opnd 185 V main_c_17 (by decide), step 185 _ rfl V main_v37 (by decide)]
  generalize after (List.take 185 ops) V = W
  exact unary_result ..

theorem val_main_c_18 (V : Valuation τ sig (Elt F)) :
    after ops V (main_c_18 : DevRef τ sig) = (constantI S_ 32 0#32 : (⟨S_, .i32⟩ : BufTy).Contents (Elt F)) := by
  rw [step 186 _ rfl V main_c_18 (by decide)]
  generalize after (List.take 186 ops) V = W
  exact nullary_result ..

theorem val_main_v38 (V : Valuation τ sig (Elt F)) :
    after ops V (main_v38 : DevRef τ sig) = (broadcastInDim S1 ![] bcast_S_S1 : (⟨S_, .i32⟩ : BufTy).Contents (Elt F) → (⟨S1, .i32⟩ : BufTy).Contents (Elt F)) (after ops V (main_c_18 : DevRef τ sig)) := by
  rw [opnd 187 V main_c_18 (by decide), step 187 _ rfl V main_v38 (by decide)]
  generalize after (List.take 187 ops) V = W
  exact unary_result ..

theorem val_main_v39 (V : Valuation τ sig (Elt F)) :
    after ops V (main_v39 : DevRef τ sig) = (concatenate S2 0 [⟨S1, (after ops V (main_v37 : DevRef τ sig) : (⟨S1, .i32⟩ : BufTy).Contents (Elt F))⟩, ⟨S1, (after ops V (main_v38 : DevRef τ sig) : (⟨S1, .i32⟩ : BufTy).Contents (Elt F))⟩] concatenates_S1_S1_S2_d0 : (⟨S2, .i32⟩ : BufTy).Contents (Elt F)) := by
  rw [opnd 188 V main_v37 (by decide), opnd 188 V main_v38 (by decide), step 188 _ rfl V main_v39 (by decide)]
  generalize after (List.take 188 ops) V = W
  exact binary_result ..

theorem val_main_v40 (V : Valuation τ sig (Elt F)) :
    after ops V (main_v40 : DevRef τ sig) = (Host.scatter scatter_S1x9217x1x96x96_S2_S1x96x96_012_01_01_0 (fun _ b => b) (after ops V (main_v35 : DevRef τ sig) : (⟨S1x9217x1x96x96, .f32⟩ : BufTy).Contents (Elt F)) (after ops V (main_v39 : DevRef τ sig) : (⟨S2, .i32⟩ : BufTy).Contents (Elt F)) (after ops V (main_v36 : DevRef τ sig) : (⟨S1x96x96, .f32⟩ : BufTy).Contents (Elt F)) : (⟨S1x9217x1x96x96, .f32⟩ : BufTy).Contents (Elt F)) := by
  rw [opnd 189 V main_v35 (by decide), opnd 189 V main_v39 (by decide), opnd 189 V main_v36 (by decide), step 189 _ rfl V main_v40 (by decide)]
  generalize after (List.take 189 ops) V = W
  exact ternary_result ..

theorem val_main_c_19 (V : Valuation τ sig (Elt F)) :
    after ops V (main_c_19 : DevRef τ sig) = (constantI S_ 32 0#32 : (⟨S_, .i32⟩ : BufTy).Contents (Elt F)) := by
  rw [step 190 _ rfl V main_c_19 (by decide)]
  generalize after (List.take 190 ops) V = W
  exact nullary_result ..

theorem val_main_v41 (V : Valuation τ sig (Elt F)) :
    after ops V (main_v41 : DevRef τ sig) = (broadcastInDim S9216 ![] bcast_S_S9216 : (⟨S_, .i32⟩ : BufTy).Contents (Elt F) → (⟨S9216, .i32⟩ : BufTy).Contents (Elt F)) (after ops V (main_c_19 : DevRef τ sig)) := by
  rw [opnd 191 V main_c_19 (by decide), step 191 _ rfl V main_v41 (by decide)]
  generalize after (List.take 191 ops) V = W
  exact unary_result ..

theorem val_main_v42 (V : Valuation τ sig (Elt F)) :
    after ops V (main_v42 : DevRef τ sig) = (cmpi .slt : (⟨S9216, .i32⟩ : BufTy).Contents (Elt F) → (⟨S9216, .i32⟩ : BufTy).Contents (Elt F) → (⟨S9216, .i1⟩ : BufTy).Contents (Elt F)) (after ops V (main_v20 : DevRef τ sig)) (after ops V (main_v41 : DevRef τ sig)) := by
  rw [opnd 192 V main_v20 (by decide), opnd 192 V main_v41 (by decide), step 192 _ rfl V main_v42 (by decide)]
  generalize after (List.take 192 ops) V = W
  exact binary_result ..

theorem val_main_c_20 (V : Valuation τ sig (Elt F)) :
    after ops V (main_c_20 : DevRef τ sig) = (constantI S_ 32 9217#32 : (⟨S_, .i32⟩ : BufTy).Contents (Elt F)) := by
  rw [step 193 _ rfl V main_c_20 (by decide)]
  generalize after (List.take 193 ops) V = W
  exact nullary_result ..

theorem val_main_v43 (V : Valuation τ sig (Elt F)) :
    after ops V (main_v43 : DevRef τ sig) = (broadcastInDim S9216 ![] bcast_S_S9216 : (⟨S_, .i32⟩ : BufTy).Contents (Elt F) → (⟨S9216, .i32⟩ : BufTy).Contents (Elt F)) (after ops V (main_c_20 : DevRef τ sig)) := by
  rw [opnd 194 V main_c_20 (by decide), step 194 _ rfl V main_v43 (by decide)]
  generalize after (List.take 194 ops) V = W
  exact unary_result ..

theorem val_main_v44 (V : Valuation τ sig (Elt F)) :
    after ops V (main_v44 : DevRef τ sig) = (addi : (⟨S9216, .i32⟩ : BufTy).Contents (Elt F) → (⟨S9216, .i32⟩ : BufTy).Contents (Elt F) → (⟨S9216, .i32⟩ : BufTy).Contents (Elt F)) (after ops V (main_v20 : DevRef τ sig)) (after ops V (main_v43 : DevRef τ sig)) := by
  rw [opnd 195 V main_v20 (by decide), opnd 195 V main_v43 (by decide), step 195 _ rfl V main_v44 (by decide)]
  generalize after (List.take 195 ops) V = W
  exact binary_result ..

theorem val_main_v45 (V : Valuation τ sig (Elt F)) :
    after ops V (main_v45 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v42 : DevRef τ sig)) (after ops V (main_v44 : DevRef τ sig)) (after ops V (main_v20 : DevRef τ sig)) := by
  rw [opnd 196 V main_v42 (by decide), opnd 196 V main_v44 (by decide), opnd 196 V main_v20 (by decide), step 196 _ rfl V main_v45 (by decide)]
  generalize after (List.take 196 ops) V = W
  exact ternary_result ..

theorem val_main_c_21 (V : Valuation τ sig (Elt F)) :
    after ops V (main_c_21 : DevRef τ sig) = (constantI S_ 32 0#32 : (⟨S_, .i32⟩ : BufTy).Contents (Elt F)) := by
  rw [step 197 _ rfl V main_c_21 (by decide)]
  generalize after (List.take 197 ops) V = W
  exact nullary_result ..

theorem val_main_v46 (V : Valuation τ sig (Elt F)) :
    after ops V (main_v46 : DevRef τ sig) = (broadcastInDim S9216 ![] bcast_S_S9216 : (⟨S_, .i32⟩ : BufTy).Contents (Elt F) → (⟨S9216, .i32⟩ : BufTy).Contents (Elt F)) (after ops V (main_c_21 : DevRef τ sig)) := by
  rw [opnd 198 V main_c_21 (by decide), step 198 _ rfl V main_v46 (by decide)]
  generalize after (List.take 198 ops) V = W
  exact unary_result ..

theorem val_main_v47 (V : Valuation τ sig (Elt F)) :
    after ops V (main_v47 : DevRef τ sig) = (cmpi .slt : (⟨S9216, .i32⟩ : BufTy).Contents (Elt F) → (⟨S9216, .i32⟩ : BufTy).Contents (Elt F) → (⟨S9216, .i1⟩ : BufTy).Contents (Elt F)) (after ops V (main_v30 : DevRef τ sig)) (after ops V (main_v46 : DevRef τ sig)) := by
  rw [opnd 199 V main_v30 (by decide), opnd 199 V main_v46 (by decide), step 199 _ rfl V main_v47 (by decide)]
  generalize after (List.take 199 ops) V = W
  exact binary_result ..

theorem val_main_c_22 (V : Valuation τ sig (Elt F)) :
    after ops V (main_c_22 : DevRef τ sig) = (constantI S_ 32 1#32 : (⟨S_, .i32⟩ : BufTy).Contents (Elt F)) := by
  rw [step 200 _ rfl V main_c_22 (by decide)]
  generalize after (List.take 200 ops) V = W
  exact nullary_result ..

theorem val_main_v48 (V : Valuation τ sig (Elt F)) :
    after ops V (main_v48 : DevRef τ sig) = (broadcastInDim S9216 ![] bcast_S_S9216 : (⟨S_, .i32⟩ : BufTy).Contents (Elt F) → (⟨S9216, .i32⟩ : BufTy).Contents (Elt F)) (after ops V (main_c_22 : DevRef τ sig)) := by
  rw [opnd 201 V main_c_22 (by decide), step 201 _ rfl V main_v48 (by decide)]
  generalize after (List.take 201 ops) V = W
  exact unary_result ..

theorem val_main_v49 (V : Valuation τ sig (Elt F)) :
    after ops V (main_v49 : DevRef τ sig) = (addi : (⟨S9216, .i32⟩ : BufTy).Contents (Elt F) → (⟨S9216, .i32⟩ : BufTy).Contents (Elt F) → (⟨S9216, .i32⟩ : BufTy).Contents (Elt F)) (after ops V (main_v30 : DevRef τ sig)) (after ops V (main_v48 : DevRef τ sig)) := by
  rw [opnd 202 V main_v30 (by decide), opnd 202 V main_v48 (by decide), step 202 _ rfl V main_v49 (by decide)]
  generalize after (List.take 202 ops) V = W
  exact binary_result ..

theorem val_main_v50 (V : Valuation τ sig (Elt F)) :
    after ops V (main_v50 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v47 : DevRef τ sig)) (after ops V (main_v49 : DevRef τ sig)) (after ops V (main_v30 : DevRef τ sig)) := by
  rw [opnd 203 V main_v47 (by decide), opnd 203 V main_v49 (by decide), opnd 203 V main_v30 (by decide), step 203 _ rfl V main_v50 (by decide)]
  generalize after (List.take 203 ops) V = W
  exact ternary_result ..

theorem val_main_c_23 (V : Valuation τ sig (Elt F)) :
    after ops V (main_c_23 : DevRef τ sig) = (constantI S_ 32 0#32 : (⟨S_, .i32⟩ : BufTy).Contents (Elt F)) := by
  rw [step 204 _ rfl V main_c_23 (by decide)]
  generalize after (List.take 204 ops) V = W
  exact nullary_result ..

theorem val_main_v51 (V : Valuation τ sig (Elt F)) :
    after ops V (main_v51 : DevRef τ sig) = (broadcastInDim S9216 ![] bcast_S_S9216 : (⟨S_, .i32⟩ : BufTy).Contents (Elt F) → (⟨S9216, .i32⟩ : BufTy).Contents (Elt F)) (after ops V (main_c_23 : DevRef τ sig)) := by
  rw [opnd 205 V main_c_23 (by decide), step 205 _ rfl V main_v51 (by decide)]
  generalize after (List.take 205 ops) V = W
  exact unary_result ..

theorem val_main_v52 (V : Valuation τ sig (Elt F)) :
    after ops V (main_v52 : DevRef τ sig) = (cmpi .slt : (⟨S9216, .i32⟩ : BufTy).Contents (Elt F) → (⟨S9216, .i32⟩ : BufTy).Contents (Elt F) → (⟨S9216, .i1⟩ : BufTy).Contents (Elt F)) (after ops V (main_v32 : DevRef τ sig)) (after ops V (main_v51 : DevRef τ sig)) := by
  rw [opnd 206 V main_v32 (by decide), opnd 206 V main_v51 (by decide), step 206 _ rfl V main_v52 (by decide)]
  generalize after (List.take 206 ops) V = W
  exact binary_result ..

theorem val_main_c_24 (V : Valuation τ sig (Elt F)) :
    after ops V (main_c_24 : DevRef τ sig) = (constantI S_ 32 96#32 : (⟨S_, .i32⟩ : BufTy).Contents (Elt F)) := by
  rw [step 207 _ rfl V main_c_24 (by decide)]
  generalize after (List.take 207 ops) V = W
  exact nullary_result ..

theorem val_main_v53 (V : Valuation τ sig (Elt F)) :
    after ops V (main_v53 : DevRef τ sig) = (broadcastInDim S9216 ![] bcast_S_S9216 : (⟨S_, .i32⟩ : BufTy).Contents (Elt F) → (⟨S9216, .i32⟩ : BufTy).Contents (Elt F)) (after ops V (main_c_24 : DevRef τ sig)) := by
  rw [opnd 208 V main_c_24 (by decide), step 208 _ rfl V main_v53 (by decide)]
  generalize after (List.take 208 ops) V = W
  exact unary_result ..

theorem val_main_v54 (V : Valuation τ sig (Elt F)) :
    after ops V (main_v54 : DevRef τ sig) = (addi : (⟨S9216, .i32⟩ : BufTy).Contents (Elt F) → (⟨S9216, .i32⟩ : BufTy).Contents (Elt F) → (⟨S9216, .i32⟩ : BufTy).Contents (Elt F)) (after ops V (main_v32 : DevRef τ sig)) (after ops V (main_v53 : DevRef τ sig)) := by
  rw [opnd 209 V main_v32 (by decide), opnd 209 V main_v53 (by decide), step 209 _ rfl V main_v54 (by decide)]
  generalize after (List.take 209 ops) V = W
  exact binary_result ..

theorem val_main_v55 (V : Valuation τ sig (Elt F)) :
    after ops V (main_v55 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v52 : DevRef τ sig)) (after ops V (main_v54 : DevRef τ sig)) (after ops V (main_v32 : DevRef τ sig)) := by
  rw [opnd 210 V main_v52 (by decide), opnd 210 V main_v54 (by decide), opnd 210 V main_v32 (by decide), step 210 _ rfl V main_v55 (by decide)]
  generalize after (List.take 210 ops) V = W
  exact ternary_result ..

theorem val_main_c_25 (V : Valuation τ sig (Elt F)) :
    after ops V (main_c_25 : DevRef τ sig) = (constantI S_ 32 0#32 : (⟨S_, .i32⟩ : BufTy).Contents (Elt F)) := by
  rw [step 211 _ rfl V main_c_25 (by decide)]
  generalize after (List.take 211 ops) V = W
  exact nullary_result ..

theorem val_main_v56 (V : Valuation τ sig (Elt F)) :
    after ops V (main_v56 : DevRef τ sig) = (broadcastInDim S9216 ![] bcast_S_S9216 : (⟨S_, .i32⟩ : BufTy).Contents (Elt F) → (⟨S9216, .i32⟩ : BufTy).Contents (Elt F)) (after ops V (main_c_25 : DevRef τ sig)) := by
  rw [opnd 212 V main_c_25 (by decide), step 212 _ rfl V main_v56 (by decide)]
  generalize after (List.take 212 ops) V = W
  exact unary_result ..

theorem val_main_v57 (V : Valuation τ sig (Elt F)) :
    after ops V (main_v57 : DevRef τ sig) = (cmpi .slt : (⟨S9216, .i32⟩ : BufTy).Contents (Elt F) → (⟨S9216, .i32⟩ : BufTy).Contents (Elt F) → (⟨S9216, .i1⟩ : BufTy).Contents (Elt F)) (after ops V (main_v34 : DevRef τ sig)) (after ops V (main_v56 : DevRef τ sig)) := by
  rw [opnd 213 V main_v34 (by decide), opnd 213 V main_v56 (by decide), step 213 _ rfl V main_v57 (by decide)]
  generalize after (List.take 213 ops) V = W
  exact binary_result ..

theorem val_main_c_26 (V : Valuation τ sig (Elt F)) :
    after ops V (main_c_26 : DevRef τ sig) = (constantI S_ 32 96#32 : (⟨S_, .i32⟩ : BufTy).Contents (Elt F)) := by
  rw [step 214 _ rfl V main_c_26 (by decide)]
  generalize after (List.take 214 ops) V = W
  exact nullary_result ..

theorem val_main_v58 (V : Valuation τ sig (Elt F)) :
    after ops V (main_v58 : DevRef τ sig) = (broadcastInDim S9216 ![] bcast_S_S9216 : (⟨S_, .i32⟩ : BufTy).Contents (Elt F) → (⟨S9216, .i32⟩ : BufTy).Contents (Elt F)) (after ops V (main_c_26 : DevRef τ sig)) := by
  rw [opnd 215 V main_c_26 (by decide), step 215 _ rfl V main_v58 (by decide)]
  generalize after (List.take 215 ops) V = W
  exact unary_result ..

theorem val_main_v59 (V : Valuation τ sig (Elt F)) :
    after ops V (main_v59 : DevRef τ sig) = (addi : (⟨S9216, .i32⟩ : BufTy).Contents (Elt F) → (⟨S9216, .i32⟩ : BufTy).Contents (Elt F) → (⟨S9216, .i32⟩ : BufTy).Contents (Elt F)) (after ops V (main_v34 : DevRef τ sig)) (after ops V (main_v58 : DevRef τ sig)) := by
  rw [opnd 216 V main_v34 (by decide), opnd 216 V main_v58 (by decide), step 216 _ rfl V main_v59 (by decide)]
  generalize after (List.take 216 ops) V = W
  exact binary_result ..

theorem val_main_v60 (V : Valuation τ sig (Elt F)) :
    after ops V (main_v60 : DevRef τ sig) = (select : (⟨S9216, .i1⟩ : BufTy).Contents (Elt F) → (⟨S9216, .i32⟩ : BufTy).Contents (Elt F) → (⟨S9216, .i32⟩ : BufTy).Contents (Elt F) → (⟨S9216, .i32⟩ : BufTy).Contents (Elt F)) (after ops V (main_v57 : DevRef τ sig)) (after ops V (main_v59 : DevRef τ sig)) (after ops V (main_v34 : DevRef τ sig)) := by
  rw [opnd 217 V main_v57 (by decide), opnd 217 V main_v59 (by decide), opnd 217 V main_v34 (by decide), step 217 _ rfl V main_v60 (by decide)]
  generalize after (List.take 217 ops) V = W
  exact ternary_result ..

theorem val_main_c_27 (V : Valuation τ sig (Elt F)) :
    after ops V (main_c_27 : DevRef τ sig) = (constantI S_ 32 0#32 : (⟨S_, .i32⟩ : BufTy).Contents (Elt F)) := by
  rw [step 218 _ rfl V main_c_27 (by decide)]
  generalize after (List.take 218 ops) V = W
  exact nullary_result ..

theorem val_main_v61 (V : Valuation τ sig (Elt F)) :
    after ops V (main_v61 : DevRef τ sig) = (broadcastInDim S9216 ![] bcast_S_S9216 : (⟨S_, .i32⟩ : BufTy).Contents (Elt F) → (⟨S9216, .i32⟩ : BufTy).Contents (Elt F)) (after ops V (main_c_27 : DevRef τ sig)) := by
  rw [opnd 219 V main_c_27 (by decide), step 219 _ rfl V main_v61 (by decide)]
  generalize after (List.take 219 ops) V = W
  exact unary_result ..

theorem val_main_v62 (V : Valuation τ sig (Elt F)) :
    after ops V (main_v62 : DevRef τ sig) = (id : (⟨S9216, .i32⟩ : BufTy).Contents (Elt F) → (⟨S9216, .i32⟩ : BufTy).Contents (Elt F)) (after ops V (main_v61 : DevRef τ sig)) := by
  rw [opnd 220 V main_v61 (by decide), step 220 _ rfl V main_v62 (by decide)]
  generalize after (List.take 220 ops) V = W
  exact unary_result ..

theorem val_main_v63 (V : Valuation τ sig (Elt F)) :
    after ops V (main_v63 : DevRef τ sig) = (broadcastInDim S9216x1 ![0] bcast_S9216_S9216x1_0 : (⟨S9216, .i32⟩ : BufTy).Contents (Elt F) → (⟨S9216x1, .i32⟩ : BufTy).Contents (Elt F)) (after ops V (main_v62 : DevRef τ sig)) := by
  rw [opnd 221 V main_v62 (by decide), step 221 _ rfl V main_v63 (by decide)]
  generalize after (List.take 221 ops) V = W
  exact unary_result ..

theorem val_main_v64 (V : Valuation τ sig (Elt F)) :
    after ops V (main_v64 : DevRef τ sig) = (broadcastInDim S9216x1 ![0] bcast_S9216_S9216x1_0 : (⟨S9216, .i32⟩ : BufTy).Contents (Elt F) → (⟨S9216x1, .i32⟩ : BufTy).Contents (Elt F)) (after ops V (main_v45 : DevRef τ sig)) := by
  rw [opnd 222 V main_v45 (by decide), step 222 _ rfl V main_v64 (by decide)]
  generalize after (List.take 222 ops) V = W
  exact unary_result ..

theorem val_main_v65 (V : Valuation τ sig (Elt F)) :
    after ops V (main_v65 : DevRef τ sig) = (broadcastInDim S9216x1 ![0] bcast_S9216_S9216x1_0 : (⟨S9216, .i32⟩ : BufTy).Contents (Elt F) → (⟨S9216x1, .i32⟩ : BufTy).Contents (Elt F)) (after ops V (main_v50 : DevRef τ sig)) := by
  rw [opnd 223 V main_v50 (by decide), step 223 _ rfl V main_v65 (by decide)]
  generalize after (List.take 223 ops) V = W
  exact unary_result ..

theorem val_main_v66 (V : Valuation τ sig (Elt F)) :
    after ops V (main_v66 : DevRef τ sig) = (broadcastInDim S9216x1 ![0] bcast_S9216_S9216x1_0 : (⟨S9216, .i32⟩ : BufTy).Contents (Elt F) → (⟨S9216x1, .i32⟩ : BufTy).Contents (Elt F)) (after ops V (main_v55 : DevRef τ sig)) := by
  rw [opnd 224 V main_v55 (by decide), step 224 _ rfl V main_v66 (by decide)]
  generalize after (List.take 224 ops) V = W
  exact unary_result ..

theorem val_main_v67 (V : Valuation τ sig (Elt F)) :
    after ops V (main_v67 : DevRef τ sig) = (broadcastInDim S9216x1 ![0] bcast_S9216_S9216x1_0 : (⟨S9216, .i32⟩ : BufTy).Contents (Elt F) → (⟨S9216x1, .i32⟩ : BufTy).Contents (Elt F)) (after ops V (main_v60 : DevRef τ sig)) := by
  rw [opnd 225 V main_v60 (by decide), step 225 _ rfl V main_v67 (by decide)]
  generalize after (List.take 225 ops) V = W
  exact unary_result ..

theorem val_main_v68 (V : Valuation τ sig (Elt F)) :
    after ops V (main_v68 : DevRef τ sig) = (concatenate S9216x5 1 [⟨S9216x1, (after ops V (main_v63 : DevRef τ sig) : (⟨S9216x1, .i32⟩ : BufTy).Contents (Elt F))⟩, ⟨S9216x1, (after ops V (main_v64 : DevRef τ sig) : (⟨S9216x1, .i32⟩ : BufTy).Contents (Elt F))⟩, ⟨S9216x1, (after ops V (main_v65 : DevRef τ sig) : (⟨S9216x1, .i32⟩ : BufTy).Contents (Elt F))⟩, ⟨S9216x1, (after ops V (main_v66 : DevRef τ sig) : (⟨S9216x1, .i32⟩ : BufTy).Contents (Elt F))⟩, ⟨S9216x1, (after ops V (main_v67 : DevRef τ sig) : (⟨S9216x1, .i32⟩ : BufTy).Contents (Elt F))⟩] concatenates_S9216x1_S9216x1_S9216x1_S9216x1_S9216x1_S9216x5_d1 : (⟨S9216x5, .i32⟩ : BufTy).Contents (Elt F)) := by
  rw [opnd 226 V main_v63 (by decide), opnd 226 V main_v64 (by decide), opnd 226 V main_v65 (by decide), opnd 226 V main_v66 (by decide), opnd 226 V main_v67 (by decide), step 226 _ rfl V main_v68 (by decide)]
  generalize after (List.take 226 ops) V = W
  exact nary_result ..

theorem val_main_v69 (V : Valuation τ sig (Elt F)) :
    after ops V (main_v69 : DevRef τ sig) = (Host.scatter scatter_S1x9217x1x96x96_S9216x5_S9216_n_01234_01234_1 (fun _ b => b) (after ops V (main_v40 : DevRef τ sig) : (⟨S1x9217x1x96x96, .f32⟩ : BufTy).Contents (Elt F)) (after ops V (main_v68 : DevRef τ sig) : (⟨S9216x5, .i32⟩ : BufTy).Contents (Elt F)) (after ops V (main_v15 : DevRef τ sig) : (⟨S9216, .f32⟩ : BufTy).Contents (Elt F)) : (⟨S1x9217x1x96x96, .f32⟩ : BufTy).Contents (Elt F)) := by
  rw [opnd 227 V main_v40 (by decide), opnd 227 V main_v68 (by decide), opnd 227 V main_v15 (by decide), step 227 _ rfl V main_v69 (by decide)]
  generalize after (List.take 227 ops) V = W
  exact ternary_result ..

end Cert.ReferenceIdeal.HandRun

end
-- ==== Proof.RefHead.lean ====
/-
  The reference program's first lines as the specification's functions of the input image: the centre, the flattened
  error, the slot of each pixel, and the constants the first scatter starts from — each read off the fold of the line
  of operations one operation at a time, down to the argument.
-/
import proofs.«118784_j19104014532646_2_alg».proof.Proof.RefStages
import proofs.«118784_j19104014532646_2_alg».proof.Proof.Spec
import Idealize.ShloMosaic.Lib.ValueIdx
import Idealize.ShloMosaic.Lib.Pipeline.Value

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow

/-- The centre `x + lo − hi`: the buffer the first scatter's update is reshaped from. -/
theorem head_v11 (V : Valuation τ sig (Elt F)) :
    (after ops V (main_v11 : DevRef τ sig) : FVec F Cert.Zono.S4 .f32) = Cert.Zono.bias4 (V (main_arg0 : DevRef τ sig)) := by
  rw [val_main_v11, val_main_v10, val_main_v9, val_main_v8, val_main_cst_2, val_main_v7, val_main_call1_v0, val_main_call1_cst,
    val_main_v6, val_main_v5, val_main_cst_1, val_main_v4, val_main_v3, val_main_cst_0, val_main_v2, val_main_call0_v0,
    val_main_call0_cst, val_main_v1, val_main_v0, val_main_cst, val_main_arg0]
  rfl

/-- The flattened error `0.1 − lo − hi`: the second scatter's updates. -/
theorem head_v15 (V : Valuation τ sig (Elt F)) :
    (after ops V (main_v15 : DevRef τ sig) : FVec F Cert.Zono.SN .f32) = Cert.Zono.ef (V (main_arg0 : DevRef τ sig)) := by
  rw [val_main_v15, val_main_v14, val_main_v13, val_main_v12, val_main_cst_3, val_main_v9, val_main_v8, val_main_cst_2,
    val_main_v7, val_main_call1_v0, val_main_call1_cst, val_main_v6, val_main_v5, val_main_cst_1, val_main_v4, val_main_v3,
    val_main_cst_0, val_main_v2, val_main_call0_v0, val_main_call0_cst, val_main_v1, val_main_v0, val_main_cst, val_main_arg0]
  rfl

/-- The slot of each pixel: its running count where the error is nonnegative, 9217 elsewhere. -/
theorem head_v20 (V : Valuation τ sig (Elt F)) :
    (after ops V (main_v20 : DevRef τ sig) : IVec Cert.Zono.SN 32) = Cert.Zono.errIdx (V (main_arg0 : DevRef τ sig)) := by
  rw [val_main_v20, val_main_call3_v1, val_main_call3_v0, val_main_c, val_main_v19, val_main_call2_call0_v0, val_main_call2_call0_c, val_main_v18,
    val_main_v17, val_main_v16, val_main_cst_4, val_main_v15, val_main_v14, val_main_v13, val_main_v12, val_main_cst_3,
    val_main_v9, val_main_v8, val_main_cst_2, val_main_v7, val_main_call1_v0, val_main_call1_cst, val_main_v6, val_main_v5,
    val_main_cst_1, val_main_v4, val_main_v3, val_main_cst_0, val_main_v2, val_main_call0_v0, val_main_call0_cst, val_main_v1,
    val_main_v0, val_main_cst, val_main_arg0]
  rfl

/-- The first scatter's update: the centre as one 96 × 96 slice. -/
theorem head_v36 (V : Valuation τ sig (Elt F)) :
    after ops V (main_v36 : DevRef τ sig)
      = shapeCast S1x96x96 (Cert.Zono.bias4 (V (main_arg0 : DevRef τ sig))) Gen.shapeCasts_S1x1x96x96_S1x96x96 := by
  rw [val_main_v36, head_v11]

/-- The array the scatters start from is zero everywhere. -/
theorem head_v35 (V : Valuation τ sig (Elt F)) (j : S1x9217x1x96x96.Idx) :
    (after ops V (main_v35 : DevRef τ sig) : FVec F S1x9217x1x96x96 .f32) j = Scalar.ofBits .f32 0x00000000#32 := by
  rw [val_main_v35, val_main_cst_16]
  rfl

/-- The first scatter's index is the pair `[0, 0]`. -/
theorem head_v39 (V : Valuation τ sig (Elt F)) (k : S2.Idx) :
    (after ops V (main_v39 : DevRef τ sig) : IVec S2 32) k = 0#32 := by
  rw [val_main_v39, val_main_v38, val_main_c_18, val_main_v37, val_main_c_17]
  have h2 : (k 0).val < 2 := (k 0).isLt
  by_cases hk : (k 0).val = 0
  · exact concatenate_pair_apply_left (t := S2) (s₁ := S1) (s₂ := S1) 0 _ _ _ k rfl (ValueIdx.ix1 (0 : Fin 1))
      (fun b => by
        obtain ⟨b, hb⟩ := b
        have hb0 : b = 0 := Nat.lt_one_iff.mp hb
        subst hb0
        exact hk.symm)
  · have h1 : (k 0).val = 1 := by omega
    exact concatenate_pair_apply_right (t := S2) (s₁ := S1) (s₂ := S1) 0 _ _ _ k rfl rfl (ValueIdx.ix1 (0 : Fin 1))
      (fun b hb => absurd (Fin.ext (Nat.lt_one_iff.mp b.isLt)) hb)
      (by show 0 + 1 = (k 0).val; omega)

end Cert.ReferenceIdeal.HandRun

end
-- ==== Proof.RefUnravel.lean ====
/-
  The reference's row-major unravelling of a pixel number, one element at a time.

  For each pixel `p < 9216` the reference computes `(p / 9216, p / 96 % 96, p % 96)` by three floor divisions with
  remainder (by 96, 96 and 1), clips the three words where the last quotient is positive or below minus one, and adds
  the axis's extent to a negative word. Each floor division is the truncating division corrected by one where the
  signs differ and the remainder is not zero; each remainder is the truncating remainder moved by the divisor where
  its sign differs from the divisor's. On words that are not negative, with a positive divisor, the two are the
  unsigned quotient and remainder; so on the pixel numbers the chain gives plane 0, row `p / 96` and column `p % 96`.
  And a word at most 9217 is not negative, so it is not moved and reads signed as itself.
-/
import Idealize.ShloMosaic.PureOps

noncomputable section

namespace Cert.ReferenceIdeal.Unravel
open Idealize.ShloMosaic

/-- The sign word of one element: 0 at zero, -1 at a negative word, 1 otherwise. -/
def sgn (x : BitVec 32) : BitVec 32 := if x = 0 then 0 else if x.msb then -1 else 1

/-- The floor division of one element: the truncating quotient, less one where the operands' signs differ and the
    truncating remainder is not zero. -/
def floorDiv (a b : BitVec 32) : BitVec 32 :=
  Scalar.select
    (IntOp.andi (IntOp.cmpi .ne (sgn a) (sgn b)) (IntOp.cmpi .ne (IntOp.remsi .host a b) 0#32))
    (IntOp.subi (IntOp.divsi .host a b) 1#32) (IntOp.divsi .host a b)

/-- The divisor the remainder uses: 1 in place of 0. -/
def safeDiv (b : BitVec 32) : BitVec 32 := Scalar.select (IntOp.cmpi .eq b 0#32) 1#32 b

/-- The floor remainder of one element: the truncating remainder by the divisor (1 in place of 0), plus the divisor
    where the remainder is not zero and its sign differs from the divisor's. -/
def pyMod (a b : BitVec 32) : BitVec 32 :=
  Scalar.select
    (IntOp.andi
      (IntOp.cmpi .ne (IntOp.cmpi .slt (IntOp.remsi .host a (safeDiv b)) 0#32) (IntOp.cmpi .slt (safeDiv b) 0#32))
      (IntOp.cmpi .ne (IntOp.remsi .host a (safeDiv b)) 0#32))
    (IntOp.addi (IntOp.remsi .host a (safeDiv b)) (safeDiv b)) (IntOp.remsi .host a (safeDiv b))

/-- The quotient and remainder by the last axis's extent. -/
def q1 (i : BitVec 32) : BitVec 32 := floorDiv i 96#32
def c1 (i : BitVec 32) : BitVec 32 := pyMod i 96#32
/-- The quotient and remainder of that quotient by the middle axis's extent. -/
def q2 (i : BitVec 32) : BitVec 32 := floorDiv (q1 i) 96#32
def c2 (i : BitVec 32) : BitVec 32 := pyMod (q1 i) 96#32
/-- The quotient and remainder of that quotient by the first axis's extent. -/
def q3 (i : BitVec 32) : BitVec 32 := floorDiv (q2 i) 1#32
def c3 (i : BitVec 32) : BitVec 32 := pyMod (q2 i) 1#32
/-- The last quotient is positive: the number is past the array. -/
def gt (i : BitVec 32) : BitVec 1 := IntOp.cmpi .sgt (q3 i) 0#32
/-- The last quotient is below minus one: the number is before the array. -/
def lt (i : BitVec 32) : BitVec 1 := IntOp.cmpi .slt (q3 i) 4294967295#32
/-- The three clipped words. -/
def plane (i : BitVec 32) : BitVec 32 := Scalar.select (gt i) 0#32 (Scalar.select (lt i) 0#32 (c3 i))
def row (i : BitVec 32) : BitVec 32 := Scalar.select (gt i) 95#32 (Scalar.select (lt i) 0#32 (c2 i))
def col (i : BitVec 32) : BitVec 32 := Scalar.select (gt i) 95#32 (Scalar.select (lt i) 0#32 (c1 i))
/-- The three words after a negative one is moved by its axis's extent. -/
def planeOf (i : BitVec 32) : BitVec 32 :=
  Scalar.select (IntOp.cmpi .slt (plane i) 0#32) (IntOp.addi (plane i) 1#32) (plane i)
def rowOf (i : BitVec 32) : BitVec 32 :=
  Scalar.select (IntOp.cmpi .slt (row i) 0#32) (IntOp.addi (row i) 96#32) (row i)
def colOf (i : BitVec 32) : BitVec 32 :=
  Scalar.select (IntOp.cmpi .slt (col i) 0#32) (IntOp.addi (col i) 96#32) (col i)

/-! ### Words that are not negative -/

/-- A word below `2 ^ 31` has its top bit clear. -/
theorem msb_of_lt {x : BitVec 32} (h : x.toNat < 2147483648) : x.msb = false := by
  rw [BitVec.msb_eq_false_iff_two_mul_lt]; omega

/-- A select on the zero bit takes its second branch. -/
theorem select_zero {α : Type} (a b : α) : Scalar.select 0#1 a b = b := rfl

/-- "Differs" of a word and itself is the zero bit. -/
theorem cmpi_ne_self {n : Nat} (x : BitVec n) : IntOp.cmpi .ne x x = 0#1 := by
  show BitVec.ofBool (x != x) = 0#1
  simp

/-- The conjunction of the zero bit and a bit is the zero bit. -/
theorem andi_zero_left (x : BitVec 1) : IntOp.andi 0#1 x = 0#1 := by
  unfold IntOp.andi; exact BitVec.zero_and
/-- The conjunction of a bit and the zero bit is the zero bit. -/
theorem andi_zero_right (x : BitVec 1) : IntOp.andi x 0#1 = 0#1 := by
  unfold IntOp.andi; exact BitVec.and_zero

/-- "Less than zero" of a word that is not negative is the zero bit. -/
theorem cmpi_slt_zero {e : BitVec 32} (he : e.msb = false) : IntOp.cmpi .slt e 0#32 = 0#1 := by
  show BitVec.ofBool (e.slt 0#32) = 0#1
  rw [BitVec.slt_zero_eq_msb, he]; rfl

/-- The truncating quotient of a word that is not negative by a positive one is the unsigned quotient. -/
theorem divsi_host_of_nonneg {a b : BitVec 32} (ha : a.msb = false) (hb : b.msb = false) (hb0 : b ≠ 0#32) :
    IntOp.divsi .host a b = a / b := by
  have hc : ¬ IntOp.SDivCorner a b := by
    rintro (h | ⟨_, h⟩)
    · exact hb0 h
    · rw [h] at hb; exact absurd hb (by decide)
  unfold IntOp.divsi
  rw [if_neg hc, BitVec.sdiv_eq, ha, hb]
  rfl

/-- The truncating remainder of a word that is not negative by a positive one is the unsigned remainder. -/
theorem remsi_host_of_nonneg {a b : BitVec 32} (ha : a.msb = false) (hb : b.msb = false) (hb0 : b ≠ 0#32) :
    IntOp.remsi .host a b = a % b := by
  have hc : ¬ IntOp.SDivCorner a b := by
    rintro (h | ⟨_, h⟩)
    · exact hb0 h
    · rw [h] at hb; exact absurd hb (by decide)
  unfold IntOp.remsi
  rw [if_neg hc, BitVec.srem_eq, ha, hb]

/-- The sign word of a positive word is 1. -/
theorem sgn_of_pos {b : BitVec 32} (hb : b.msb = false) (hb0 : b ≠ 0#32) : sgn b = 1#32 := by
  have hb0' : ¬ b = 0 := hb0
  unfold sgn
  rw [if_neg hb0', hb]; rfl

/-- The floor division of a word that is not negative by a positive one is the unsigned quotient. -/
theorem floorDiv_of_nonneg {a b : BitVec 32} (ha : a.msb = false) (hb : b.msb = false) (hb0 : b ≠ 0#32) :
    floorDiv a b = a / b := by
  unfold floorDiv
  rw [divsi_host_of_nonneg ha hb hb0, remsi_host_of_nonneg ha hb hb0, sgn_of_pos hb hb0]
  by_cases ha0 : a = 0#32
  · subst ha0
    rw [BitVec.zero_umod, cmpi_ne_self, andi_zero_right]
    rfl
  · rw [sgn_of_pos ha ha0, cmpi_ne_self, andi_zero_left]
    rfl

/-- The floor remainder of a word that is not negative by a positive one is the unsigned remainder. -/
theorem pyMod_of_nonneg {a b : BitVec 32} (ha : a.msb = false) (hb : b.msb = false) (hb0 : b ≠ 0#32) :
    pyMod a b = a % b := by
  have hs : safeDiv b = b := by
    unfold safeDiv
    have : IntOp.cmpi .eq b 0#32 = 0#1 := by
      show BitVec.ofBool (b == 0#32) = 0#1
      rw [beq_eq_false_iff_ne.2 hb0]; rfl
    rw [this]; rfl
  unfold pyMod
  rw [hs, remsi_host_of_nonneg ha hb hb0, cmpi_slt_zero (BitVec.msb_umod_eq_false_of_left ha b), cmpi_slt_zero hb,
    cmpi_ne_self, andi_zero_left]
  rfl

/-- A word that is not negative is not moved by an extent. -/
theorem wrap_of_nonneg {e : BitVec 32} (he : e.msb = false) (k : BitVec 32) :
    Scalar.select (IntOp.cmpi .slt e 0#32) (IntOp.addi e k) e = e := by
  rw [cmpi_slt_zero he]; rfl

/-! ### On naturals -/

theorem toNat_ofNat_of_lt {n : Nat} (h : n < 4294967296) : (BitVec.ofNat 32 n).toNat = n := by
  rw [BitVec.toNat_ofNat]; exact Nat.mod_eq_of_lt h

/-- The floor division of the word of `n` by the word of a positive `m` is the word of `n / m`. -/
theorem floorDiv_ofNat {n m : Nat} (hn : n < 2147483648) (hm0 : 0 < m) (hm : m < 2147483648) :
    floorDiv (BitVec.ofNat 32 n) (BitVec.ofNat 32 m) = BitVec.ofNat 32 (n / m) := by
  have hn' := toNat_ofNat_of_lt (n := n) (by omega)
  have hm' := toNat_ofNat_of_lt (n := m) (by omega)
  have hq : n / m < 4294967296 := Nat.lt_of_le_of_lt (Nat.div_le_self n m) (by omega)
  rw [floorDiv_of_nonneg (msb_of_lt (by omega)) (msb_of_lt (by omega))
    (fun h => by have := congrArg BitVec.toNat h; rw [hm'] at this; change m = 0 at this; omega)]
  apply BitVec.eq_of_toNat_eq
  rw [BitVec.toNat_udiv, hn', hm', toNat_ofNat_of_lt hq]

/-- The floor remainder of the word of `n` by the word of a positive `m` is the word of `n % m`. -/
theorem pyMod_ofNat {n m : Nat} (hn : n < 2147483648) (hm0 : 0 < m) (hm : m < 2147483648) :
    pyMod (BitVec.ofNat 32 n) (BitVec.ofNat 32 m) = BitVec.ofNat 32 (n % m) := by
  have hn' := toNat_ofNat_of_lt (n := n) (by omega)
  have hm' := toNat_ofNat_of_lt (n := m) (by omega)
  have hr : n % m < 4294967296 := Nat.lt_of_le_of_lt (Nat.mod_le n m) (by omega)
  rw [pyMod_of_nonneg (msb_of_lt (by omega)) (msb_of_lt (by omega))
    (fun h => by have := congrArg BitVec.toNat h; rw [hm'] at this; change m = 0 at this; omega)]
  apply BitVec.eq_of_toNat_eq
  rw [BitVec.toNat_umod, hn', hm', toNat_ofNat_of_lt hr]

/-! ### The chain on the pixel numbers -/

/-- On the pixel numbers the chain is the row-major unravelling: plane 0, row `p / 96`, column `p % 96`. -/
theorem unravel_eq : ∀ p : Fin 9216,
    planeOf (BitVec.ofNat 32 p.val) = 0#32 ∧ rowOf (BitVec.ofNat 32 p.val) = BitVec.ofNat 32 (p.val / 96)
      ∧ colOf (BitVec.ofNat 32 p.val) = BitVec.ofNat 32 (p.val % 96) := by
  intro p
  have hp := p.isLt
  have hq1 : q1 (BitVec.ofNat 32 p.val) = BitVec.ofNat 32 (p.val / 96) :=
    floorDiv_ofNat (by omega) (by omega) (by omega)
  have hc1 : c1 (BitVec.ofNat 32 p.val) = BitVec.ofNat 32 (p.val % 96) :=
    pyMod_ofNat (by omega) (by omega) (by omega)
  have hq2 : q2 (BitVec.ofNat 32 p.val) = 0#32 := by
    unfold q2
    rw [hq1]
    have := floorDiv_ofNat (n := p.val / 96) (m := 96) (by omega) (by omega) (by omega)
    rw [Nat.div_eq_of_lt (show p.val / 96 < 96 by omega)] at this
    exact this
  have hc2 : c2 (BitVec.ofNat 32 p.val) = BitVec.ofNat 32 (p.val / 96) := by
    unfold c2
    rw [hq1]
    have := pyMod_ofNat (n := p.val / 96) (m := 96) (by omega) (by omega) (by omega)
    rw [Nat.mod_eq_of_lt (show p.val / 96 < 96 by omega)] at this
    exact this
  have hq3 : q3 (BitVec.ofNat 32 p.val) = 0#32 := by
    unfold q3
    rw [hq2]
    have := floorDiv_ofNat (n := 0) (m := 1) (by omega) (by omega) (by omega)
    rw [Nat.zero_div] at this
    exact this
  have hc3 : c3 (BitVec.ofNat 32 p.val) = 0#32 := by
    unfold c3
    rw [hq2]
    have := pyMod_ofNat (n := 0) (m := 1) (by omega) (by omega) (by omega)
    rw [Nat.zero_mod] at this
    exact this
  have hgt : gt (BitVec.ofNat 32 p.val) = 0#1 := by unfold gt; rw [hq3]; decide
  have hlt : lt (BitVec.ofNat 32 p.val) = 0#1 := by unfold lt; rw [hq3]; decide
  have hplane : plane (BitVec.ofNat 32 p.val) = 0#32 := by unfold plane; rw [hgt, hlt, hc3]; rfl
  have hrow : row (BitVec.ofNat 32 p.val) = BitVec.ofNat 32 (p.val / 96) := by unfold row; rw [hgt, hlt, hc2]; rfl
  have hcol : col (BitVec.ofNat 32 p.val) = BitVec.ofNat 32 (p.val % 96) := by unfold col; rw [hgt, hlt, hc1]; rfl
  refine ⟨?_, ?_, ?_⟩
  · unfold planeOf
    rw [hplane]
    exact wrap_of_nonneg (by decide) _
  · unfold rowOf
    rw [hrow]
    exact wrap_of_nonneg (msb_of_lt (by rw [toNat_ofNat_of_lt (by omega)]; omega)) _
  · unfold colOf
    rw [hcol]
    exact wrap_of_nonneg (msb_of_lt (by rw [toNat_ofNat_of_lt (by omega)]; omega)) _

/-- A word at most 9217 is not negative: it is not moved by 9217, and reads signed as itself. -/
theorem slotWrap (e : BitVec 32) (h : e.toNat ≤ 9217) :
    Scalar.select (IntOp.cmpi .slt e 0#32) (IntOp.addi e 9217#32) e = e ∧ e.toInt = (e.toNat : Int) := by
  have he : e.msb = false := msb_of_lt (by omega)
  exact ⟨wrap_of_nonneg he _, BitVec.toInt_eq_toNat_of_msb he⟩

end Cert.ReferenceIdeal.Unravel
-- ==== Proof.RefColumns.lean ====
/-
  The five index columns of the reference's second scatter, read at a pixel.

  The indices are the concatenation along the second axis of five columns, each a length-9216 vector broadcast to a
  9216×1 array: a zero column, the slot column (the slot moved by 9217 where negative, which it never is), and the three
  words of the row-major unravelling of the pixel number. Read at row `p`: 0, the slot of pixel `p`, 0, `p / 96` and
  `p % 96`. Every operation between the pixel numbers and a column acts on one element at a time, so a column at `p`
  is the one-element chain applied to the word of `p`.
-/
import proofs.«118784_j19104014532646_2_alg».proof.Proof.RefStages
import proofs.«118784_j19104014532646_2_alg».proof.Proof.RefUnravel
import Idealize.ShloMosaic.Lib.Pipeline.Value
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Unravel

variable {F : FTy → Type} [FloatOps F]

attribute [local irreducible] Host.reduceWindow Host.scatter

/-! ## A five-column concatenation and a column's broadcast, read at an index -/

section Layout
variable {α : Type}

/-- The side condition of a piece of a 9216×1 array in a 9216×5 one: off the second axis the coordinates agree. -/
theorem piece_hi (p : Fin 9216) (k : Fin 5) (hr : S9216x1.rank = S9216x5.rank) (b : Fin S9216x1.rank)
    (hb : b.cast hr ≠ (1 : Fin S9216x5.rank)) :
    ((ix2 p (0 : Fin 1) : S9216x1.Idx) b).val = ((ix2 p k : S9216x5.Idx) (b.cast hr)).val := by
  match b with
  | ⟨0, _⟩ => rfl
  | ⟨1, _⟩ => exact absurd rfl hb

variable (x0 x1 x2 x3 x4 : S9216x1.Idx → α)
  (h : Shape.Concatenates [S9216x1, S9216x1, S9216x1, S9216x1, S9216x1] S9216x5 1) (p : Fin 9216)

theorem concat5_col0 :
    concatenate S9216x5 1 [⟨S9216x1, x0⟩, ⟨S9216x1, x1⟩, ⟨S9216x1, x2⟩, ⟨S9216x1, x3⟩, ⟨S9216x1, x4⟩] h (ix2 p (0 : Fin 5))
      = x0 (ix2 p (0 : Fin 1)) :=
  concatenate_apply_piece (t := S9216x5) 1 [⟨S9216x1, x0⟩, ⟨S9216x1, x1⟩, ⟨S9216x1, x2⟩, ⟨S9216x1, x3⟩, ⟨S9216x1, x4⟩] h
    (ix2 p (0 : Fin 5)) 0 (by simp) S9216x1 x0 rfl rfl 0 rfl (ix2 p (0 : Fin 1)) (piece_hi p 0 rfl) rfl
theorem concat5_col1 :
    concatenate S9216x5 1 [⟨S9216x1, x0⟩, ⟨S9216x1, x1⟩, ⟨S9216x1, x2⟩, ⟨S9216x1, x3⟩, ⟨S9216x1, x4⟩] h (ix2 p (1 : Fin 5))
      = x1 (ix2 p (0 : Fin 1)) :=
  concatenate_apply_piece (t := S9216x5) 1 [⟨S9216x1, x0⟩, ⟨S9216x1, x1⟩, ⟨S9216x1, x2⟩, ⟨S9216x1, x3⟩, ⟨S9216x1, x4⟩] h
    (ix2 p (1 : Fin 5)) 1 (by simp) S9216x1 x1 rfl rfl 1 rfl (ix2 p (0 : Fin 1)) (piece_hi p 1 rfl) rfl
theorem concat5_col2 :
    concatenate S9216x5 1 [⟨S9216x1, x0⟩, ⟨S9216x1, x1⟩, ⟨S9216x1, x2⟩, ⟨S9216x1, x3⟩, ⟨S9216x1, x4⟩] h (ix2 p (2 : Fin 5))
      = x2 (ix2 p (0 : Fin 1)) :=
  concatenate_apply_piece (t := S9216x5) 1 [⟨S9216x1, x0⟩, ⟨S9216x1, x1⟩, ⟨S9216x1, x2⟩, ⟨S9216x1, x3⟩, ⟨S9216x1, x4⟩] h
    (ix2 p (2 : Fin 5)) 2 (by simp) S9216x1 x2 rfl rfl 2 rfl (ix2 p (0 : Fin 1)) (piece_hi p 2 rfl) rfl
theorem concat5_col3 :
    concatenate S9216x5 1 [⟨S9216x1, x0⟩, ⟨S9216x1, x1⟩, ⟨S9216x1, x2⟩, ⟨S9216x1, x3⟩, ⟨S9216x1, x4⟩] h (ix2 p (3 : Fin 5))
      = x3 (ix2 p (0 : Fin 1)) :=
  concatenate_apply_piece (t := S9216x5) 1 [⟨S9216x1, x0⟩, ⟨S9216x1, x1⟩, ⟨S9216x1, x2⟩, ⟨S9216x1, x3⟩, ⟨S9216x1, x4⟩] h
    (ix2 p (3 : Fin 5)) 3 (by simp) S9216x1 x3 rfl rfl 3 rfl (ix2 p (0 : Fin 1)) (piece_hi p 3 rfl) rfl
theorem concat5_col4 :
    concatenate S9216x5 1 [⟨S9216x1, x0⟩, ⟨S9216x1, x1⟩, ⟨S9216x1, x2⟩, ⟨S9216x1, x3⟩, ⟨S9216x1, x4⟩] h (ix2 p (4 : Fin 5))
      = x4 (ix2 p (0 : Fin 1)) :=
  concatenate_apply_piece (t := S9216x5) 1 [⟨S9216x1, x0⟩, ⟨S9216x1, x1⟩, ⟨S9216x1, x2⟩, ⟨S9216x1, x3⟩, ⟨S9216x1, x4⟩] h
    (ix2 p (4 : Fin 5)) 4 (by simp) S9216x1 x4 rfl rfl 4 rfl (ix2 p (0 : Fin 1)) (piece_hi p 4 rfl) rfl

/-- A length-9216 vector broadcast to a 9216×1 array, read at row `p`: the vector at `p`. -/
theorem bcast_col (hb : S9216.BroadcastsInDim S9216x1 (![0] : Fin 1 → Fin S9216x1.rank)) (v : S9216.Idx → α) (p : Fin 9216) :
    broadcastInDim S9216x1 ![0] hb v (ix2 p (0 : Fin 1)) = v (ix1 p) :=
  broadcastInDim_apply _ hb v _ (ix1 p) fun a => by
    match a with
    | ⟨0, _⟩ => rfl

end Layout

/-! ## The operations between the pixel numbers and the columns, read at an index -/

/-- The pixel numbers, read at `p`: the word of `p`. -/
theorem at_main_v21 (V : Valuation τ sig (Elt F)) (p : Fin 9216) :
    (after ops V (main_v21 : DevRef τ sig) : IVec S9216 32) (ix1 p) = BitVec.ofNat 32 p.val := by
  rw [val_main_v21 V]
  rfl

/-- The floor division by 96 of call 4, read at an index. -/
theorem at_main_v22_0 (V : Valuation τ sig (Elt F)) (j : S9216.Idx) :
    (after ops V (main_v22_0 : DevRef τ sig) : IVec S9216 32) j = floorDiv ((after ops V (main_v21 : DevRef τ sig) : IVec S9216 32) j) 96#32 := by
  simp only [val_main_v22_0 V, val_main_call4_call0_v10 V, val_main_call4_call0_v12 V, val_main_call4_call0_v1 V, val_main_call4_call0_v5 V, val_main_call4_call0_v9 V, val_main_call4_call0_v11 V, val_main_call4_call0_c_0 V, val_main_call4_call0_v2 V, val_main_call4_call0_v4 V, val_main_call4_call0_v3 V, val_main_call4_call0_v7 V, val_main_call4_call0_v8 V, val_main_call4_call0_c V, val_main_call4_call0_v6 V, val_main_call4_call0_v0 V, val_main_call4_v0 V, val_main_c_5 V]
  rfl

/-- The floor remainder by 96 of call 4, read at an index. -/
theorem at_main_v22_1 (V : Valuation τ sig (Elt F)) (j : S9216.Idx) :
    (after ops V (main_v22_1 : DevRef τ sig) : IVec S9216 32) j = pyMod ((after ops V (main_v21 : DevRef τ sig) : IVec S9216 32) j) 96#32 := by
  simp only [val_main_v22_1 V, val_main_call4_call1_v11 V, val_main_call4_call1_v13 V, val_main_call4_call1_v3 V, val_main_call4_call1_v10 V, val_main_call4_call1_v5 V, val_main_call4_call1_v12 V, val_main_call4_call1_v1 V, val_main_call4_call1_v7 V, val_main_call4_call1_v9 V, val_main_call4_call1_v8 V, val_main_call4_call1_v6 V, val_main_call4_call1_c_2 V, val_main_call4_call1_c_3 V, val_main_call4_call1_v4 V, val_main_call4_call1_c_1 V, val_main_call4_call1_v2 V, val_main_call4_call1_v0 V, val_main_call4_call1_c V, val_main_call4_call1_c_0 V, val_main_call4_v0 V, val_main_c_5 V]
  rfl

/-- The floor division by 96 of call 5, read at an index. -/
theorem at_main_v23_0 (V : Valuation τ sig (Elt F)) (j : S9216.Idx) :
    (after ops V (main_v23_0 : DevRef τ sig) : IVec S9216 32) j = floorDiv ((after ops V (main_v22_0 : DevRef τ sig) : IVec S9216 32) j) 96#32 := by
  simp only [val_main_v23_0 V, val_main_call5_call0_v10 V, val_main_call5_call0_v12 V, val_main_call5_call0_v1 V, val_main_call5_call0_v5 V, val_main_call5_call0_v9 V, val_main_call5_call0_v11 V, val_main_call5_call0_c_0 V, val_main_call5_call0_v2 V, val_main_call5_call0_v4 V, val_main_call5_call0_v3 V, val_main_call5_call0_v7 V, val_main_call5_call0_v8 V, val_main_call5_call0_c V, val_main_call5_call0_v6 V, val_main_call5_call0_v0 V, val_main_call5_v0 V, val_main_c_6 V]
  rfl

/-- The floor remainder by 96 of call 5, read at an index. -/
theorem at_main_v23_1 (V : Valuation τ sig (Elt F)) (j : S9216.Idx) :
    (after ops V (main_v23_1 : DevRef τ sig) : IVec S9216 32) j = pyMod ((after ops V (main_v22_0 : DevRef τ sig) : IVec S9216 32) j) 96#32 := by
  simp only [val_main_v23_1 V, val_main_call5_call1_v11 V, val_main_call5_call1_v13 V, val_main_call5_call1_v3 V, val_main_call5_call1_v10 V, val_main_call5_call1_v5 V, val_main_call5_call1_v12 V, val_main_call5_call1_v1 V, val_main_call5_call1_v7 V, val_main_call5_call1_v9 V, val_main_call5_call1_v8 V, val_main_call5_call1_v6 V, val_main_call5_call1_c_2 V, val_main_call5_call1_c_3 V, val_main_call5_call1_v4 V, val_main_call5_call1_c_1 V, val_main_call5_call1_v2 V, val_main_call5_call1_v0 V, val_main_call5_call1_c V, val_main_call5_call1_c_0 V, val_main_call5_v0 V, val_main_c_6 V]
  rfl

/-- The floor division by 1 of call 6, read at an index. -/
theorem at_main_v24_0 (V : Valuation τ sig (Elt F)) (j : S9216.Idx) :
    (after ops V (main_v24_0 : DevRef τ sig) : IVec S9216 32) j = floorDiv ((after ops V (main_v23_0 : DevRef τ sig) : IVec S9216 32) j) 1#32 := by
  simp only [val_main_v24_0 V, val_main_call6_call0_v10 V, val_main_call6_call0_v12 V, val_main_call6_call0_v1 V, val_main_call6_call0_v5 V, val_main_call6_call0_v9 V, val_main_call6_call0_v11 V, val_main_call6_call0_c_0 V, val_main_call6_call0_v2 V, val_main_call6_call0_v4 V, val_main_call6_call0_v3 V, val_main_call6_call0_v7 V, val_main_call6_call0_v8 V, val_main_call6_call0_c V, val_main_call6_call0_v6 V, val_main_call6_call0_v0 V, val_main_call6_v0 V, val_main_c_7 V]
  rfl

/-- The floor remainder by 1 of call 6, read at an index. -/
theorem at_main_v24_1 (V : Valuation τ sig (Elt F)) (j : S9216.Idx) :
    (after ops V (main_v24_1 : DevRef τ sig) : IVec S9216 32) j = pyMod ((after ops V (main_v23_0 : DevRef τ sig) : IVec S9216 32) j) 1#32 := by
  simp only [val_main_v24_1 V, val_main_call6_call1_v11 V, val_main_call6_call1_v13 V, val_main_call6_call1_v3 V, val_main_call6_call1_v10 V, val_main_call6_call1_v5 V, val_main_call6_call1_v12 V, val_main_call6_call1_v1 V, val_main_call6_call1_v7 V, val_main_call6_call1_v9 V, val_main_call6_call1_v8 V, val_main_call6_call1_v6 V, val_main_call6_call1_c_2 V, val_main_call6_call1_c_3 V, val_main_call6_call1_v4 V, val_main_call6_call1_c_1 V, val_main_call6_call1_v2 V, val_main_call6_call1_v0 V, val_main_call6_call1_c V, val_main_call6_call1_c_0 V, val_main_call6_v0 V, val_main_c_7 V]
  rfl

/-- "The last quotient is positive", read at an index. -/
theorem at_main_v26 (V : Valuation τ sig (Elt F)) (j : S9216.Idx) :
    (after ops V (main_v26 : DevRef τ sig) : IVec S9216 1) j = IntOp.cmpi .sgt ((after ops V (main_v24_0 : DevRef τ sig) : IVec S9216 32) j) 0#32 := by
  simp only [val_main_v26 V, val_main_v25 V, val_main_c_8 V]
  rfl
/-- "The last quotient is below minus one", read at an index. -/
theorem at_main_v28 (V : Valuation τ sig (Elt F)) (j : S9216.Idx) :
    (after ops V (main_v28 : DevRef τ sig) : IVec S9216 1) j = IntOp.cmpi .slt ((after ops V (main_v24_0 : DevRef τ sig) : IVec S9216 32) j) 4294967295#32 := by
  simp only [val_main_v28 V, val_main_v27 V, val_main_c_9 V]
  rfl

/-- The clip `main_v29`, read at an index. -/
theorem at_main_v29 (V : Valuation τ sig (Elt F)) (j : S9216.Idx) :
    (after ops V (main_v29 : DevRef τ sig) : IVec S9216 32) j = Scalar.select ((after ops V (main_v28 : DevRef τ sig) : IVec S9216 1) j) 0#32 ((after ops V (main_v24_1 : DevRef τ sig) : IVec S9216 32) j) := by
  simp only [val_main_v29 V, val_main_call7_v1 V, val_main_call7_v0 V, val_main_c_10 V]
  rfl
/-- The clip `main_v30`, read at an index. -/
theorem at_main_v30 (V : Valuation τ sig (Elt F)) (j : S9216.Idx) :
    (after ops V (main_v30 : DevRef τ sig) : IVec S9216 32) j = Scalar.select ((after ops V (main_v26 : DevRef τ sig) : IVec S9216 1) j) 0#32 ((after ops V (main_v29 : DevRef τ sig) : IVec S9216 32) j) := by
  simp only [val_main_v30 V, val_main_call8_v1 V, val_main_call8_v0 V, val_main_c_11 V]
  rfl
/-- The clip `main_v31`, read at an index. -/
theorem at_main_v31 (V : Valuation τ sig (Elt F)) (j : S9216.Idx) :
    (after ops V (main_v31 : DevRef τ sig) : IVec S9216 32) j = Scalar.select ((after ops V (main_v28 : DevRef τ sig) : IVec S9216 1) j) 0#32 ((after ops V (main_v23_1 : DevRef τ sig) : IVec S9216 32) j) := by
  simp only [val_main_v31 V, val_main_call9_v1 V, val_main_call9_v0 V, val_main_c_12 V]
  rfl
/-- The clip `main_v32`, read at an index. -/
theorem at_main_v32 (V : Valuation τ sig (Elt F)) (j : S9216.Idx) :
    (after ops V (main_v32 : DevRef τ sig) : IVec S9216 32) j = Scalar.select ((after ops V (main_v26 : DevRef τ sig) : IVec S9216 1) j) 95#32 ((after ops V (main_v31 : DevRef τ sig) : IVec S9216 32) j) := by
  simp only [val_main_v32 V, val_main_call10_v1 V, val_main_call10_v0 V, val_main_c_13 V]
  rfl
/-- The clip `main_v33`, read at an index. -/
theorem at_main_v33 (V : Valuation τ sig (Elt F)) (j : S9216.Idx) :
    (after ops V (main_v33 : DevRef τ sig) : IVec S9216 32) j = Scalar.select ((after ops V (main_v28 : DevRef τ sig) : IVec S9216 1) j) 0#32 ((after ops V (main_v22_1 : DevRef τ sig) : IVec S9216 32) j) := by
  simp only [val_main_v33 V, val_main_call11_v1 V, val_main_call11_v0 V, val_main_c_14 V]
  rfl
/-- The clip `main_v34`, read at an index. -/
theorem at_main_v34 (V : Valuation τ sig (Elt F)) (j : S9216.Idx) :
    (after ops V (main_v34 : DevRef τ sig) : IVec S9216 32) j = Scalar.select ((after ops V (main_v26 : DevRef τ sig) : IVec S9216 1) j) 95#32 ((after ops V (main_v33 : DevRef τ sig) : IVec S9216 32) j) := by
  simp only [val_main_v34 V, val_main_call12_v1 V, val_main_call12_v0 V, val_main_c_15 V]
  rfl

/-- The move of a negative word `main_v45`, read at an index. -/
theorem at_main_v45 (V : Valuation τ sig (Elt F)) (j : S9216.Idx) :
    (after ops V (main_v45 : DevRef τ sig) : IVec S9216 32) j = Scalar.select (IntOp.cmpi .slt ((after ops V (main_v20 : DevRef τ sig) : IVec S9216 32) j) 0#32) (IntOp.addi ((after ops V (main_v20 : DevRef τ sig) : IVec S9216 32) j) 9217#32) ((after ops V (main_v20 : DevRef τ sig) : IVec S9216 32) j) := by
  simp only [val_main_v45 V, val_main_v42 V, val_main_v44 V, val_main_v41 V, val_main_c_19 V, val_main_v43 V, val_main_c_20 V]
  rfl
/-- The move of a negative word `main_v50`, read at an index. -/
theorem at_main_v50 (V : Valuation τ sig (Elt F)) (j : S9216.Idx) :
    (after ops V (main_v50 : DevRef τ sig) : IVec S9216 32) j = Scalar.select (IntOp.cmpi .slt ((after ops V (main_v30 : DevRef τ sig) : IVec S9216 32) j) 0#32) (IntOp.addi ((after ops V (main_v30 : DevRef τ sig) : IVec S9216 32) j) 1#32) ((after ops V (main_v30 : DevRef τ sig) : IVec S9216 32) j) := by
  simp only [val_main_v50 V, val_main_v47 V, val_main_v49 V, val_main_v46 V, val_main_c_21 V, val_main_v48 V, val_main_c_22 V]
  rfl
/-- The move of a negative word `main_v55`, read at an index. -/
theorem at_main_v55 (V : Valuation τ sig (Elt F)) (j : S9216.Idx) :
    (after ops V (main_v55 : DevRef τ sig) : IVec S9216 32) j = Scalar.select (IntOp.cmpi .slt ((after ops V (main_v32 : DevRef τ sig) : IVec S9216 32) j) 0#32) (IntOp.addi ((after ops V (main_v32 : DevRef τ sig) : IVec S9216 32) j) 96#32) ((after ops V (main_v32 : DevRef τ sig) : IVec S9216 32) j) := by
  simp only [val_main_v55 V, val_main_v52 V, val_main_v54 V, val_main_v51 V, val_main_c_23 V, val_main_v53 V, val_main_c_24 V]
  rfl
/-- The move of a negative word `main_v60`, read at an index. -/
theorem at_main_v60 (V : Valuation τ sig (Elt F)) (j : S9216.Idx) :
    (after ops V (main_v60 : DevRef τ sig) : IVec S9216 32) j = Scalar.select (IntOp.cmpi .slt ((after ops V (main_v34 : DevRef τ sig) : IVec S9216 32) j) 0#32) (IntOp.addi ((after ops V (main_v34 : DevRef τ sig) : IVec S9216 32) j) 96#32) ((after ops V (main_v34 : DevRef τ sig) : IVec S9216 32) j) := by
  simp only [val_main_v60 V, val_main_v57 V, val_main_v59 V, val_main_v56 V, val_main_c_25 V, val_main_v58 V, val_main_c_26 V]
  rfl

/-! ## The three unravelled words as the one-element chain of the pixel number's word -/

theorem at_q1 (V : Valuation τ sig (Elt F)) (j : S9216.Idx) : (after ops V (main_v22_0 : DevRef τ sig) : IVec S9216 32) j = q1 ((after ops V (main_v21 : DevRef τ sig) : IVec S9216 32) j) := at_main_v22_0 V j
theorem at_c1 (V : Valuation τ sig (Elt F)) (j : S9216.Idx) : (after ops V (main_v22_1 : DevRef τ sig) : IVec S9216 32) j = c1 ((after ops V (main_v21 : DevRef τ sig) : IVec S9216 32) j) := at_main_v22_1 V j
theorem at_q2 (V : Valuation τ sig (Elt F)) (j : S9216.Idx) : (after ops V (main_v23_0 : DevRef τ sig) : IVec S9216 32) j = q2 ((after ops V (main_v21 : DevRef τ sig) : IVec S9216 32) j) := by
  rw [at_main_v23_0 V j, at_q1 V j]; rfl
theorem at_c2 (V : Valuation τ sig (Elt F)) (j : S9216.Idx) : (after ops V (main_v23_1 : DevRef τ sig) : IVec S9216 32) j = c2 ((after ops V (main_v21 : DevRef τ sig) : IVec S9216 32) j) := by
  rw [at_main_v23_1 V j, at_q1 V j]; rfl
theorem at_q3 (V : Valuation τ sig (Elt F)) (j : S9216.Idx) : (after ops V (main_v24_0 : DevRef τ sig) : IVec S9216 32) j = q3 ((after ops V (main_v21 : DevRef τ sig) : IVec S9216 32) j) := by
  rw [at_main_v24_0 V j, at_q2 V j]; rfl
theorem at_c3 (V : Valuation τ sig (Elt F)) (j : S9216.Idx) : (after ops V (main_v24_1 : DevRef τ sig) : IVec S9216 32) j = c3 ((after ops V (main_v21 : DevRef τ sig) : IVec S9216 32) j) := by
  rw [at_main_v24_1 V j, at_q2 V j]; rfl
theorem at_gt (V : Valuation τ sig (Elt F)) (j : S9216.Idx) :
    (after ops V (main_v26 : DevRef τ sig) : IVec S9216 1) j = gt ((after ops V (main_v21 : DevRef τ sig) : IVec S9216 32) j) := by
  rw [at_main_v26 V j, at_q3 V j]; rfl
theorem at_lt (V : Valuation τ sig (Elt F)) (j : S9216.Idx) :
    (after ops V (main_v28 : DevRef τ sig) : IVec S9216 1) j = lt ((after ops V (main_v21 : DevRef τ sig) : IVec S9216 32) j) := by
  rw [at_main_v28 V j, at_q3 V j]; rfl
theorem at_plane (V : Valuation τ sig (Elt F)) (j : S9216.Idx) : (after ops V (main_v30 : DevRef τ sig) : IVec S9216 32) j = plane ((after ops V (main_v21 : DevRef τ sig) : IVec S9216 32) j) := by
  rw [at_main_v30 V j, at_main_v29 V j, at_gt V j, at_lt V j, at_c3 V j]; rfl
theorem at_row (V : Valuation τ sig (Elt F)) (j : S9216.Idx) : (after ops V (main_v32 : DevRef τ sig) : IVec S9216 32) j = row ((after ops V (main_v21 : DevRef τ sig) : IVec S9216 32) j) := by
  rw [at_main_v32 V j, at_main_v31 V j, at_gt V j, at_lt V j, at_c2 V j]; rfl
theorem at_col (V : Valuation τ sig (Elt F)) (j : S9216.Idx) : (after ops V (main_v34 : DevRef τ sig) : IVec S9216 32) j = col ((after ops V (main_v21 : DevRef τ sig) : IVec S9216 32) j) := by
  rw [at_main_v34 V j, at_main_v33 V j, at_gt V j, at_lt V j, at_c1 V j]; rfl
theorem at_planeOf (V : Valuation τ sig (Elt F)) (j : S9216.Idx) : (after ops V (main_v50 : DevRef τ sig) : IVec S9216 32) j = planeOf ((after ops V (main_v21 : DevRef τ sig) : IVec S9216 32) j) := by
  rw [at_main_v50 V j, at_plane V j]; rfl
theorem at_rowOf (V : Valuation τ sig (Elt F)) (j : S9216.Idx) : (after ops V (main_v55 : DevRef τ sig) : IVec S9216 32) j = rowOf ((after ops V (main_v21 : DevRef τ sig) : IVec S9216 32) j) := by
  rw [at_main_v55 V j, at_row V j]; rfl
theorem at_colOf (V : Valuation τ sig (Elt F)) (j : S9216.Idx) : (after ops V (main_v60 : DevRef τ sig) : IVec S9216 32) j = colOf ((after ops V (main_v21 : DevRef τ sig) : IVec S9216 32) j) := by
  rw [at_main_v60 V j, at_col V j]; rfl

/-! ## The five columns -/

/-- The scatter indices after the line. -/
abbrev I5 (V : Valuation τ sig (Elt F)) : IVec S9216x5 32 := after ops V (main_v68 : DevRef τ sig)

/-- The first column is zero. -/
theorem col0 (V : Valuation τ sig (Elt F)) (p : Fin 9216) : I5 V (ix2 p (0 : Fin 5)) = 0#32 := by
  show (after ops V (main_v68 : DevRef τ sig) : IVec S9216x5 32) (ix2 p (0 : Fin 5)) = 0#32
  rw [val_main_v68 V, concat5_col0, val_main_v63 V, bcast_col]
  simp only [val_main_v62 V, val_main_v61 V, val_main_c_27 V]
  rfl

/-- The second column is the slot, which is never negative. -/
theorem col1 (V : Valuation τ sig (Elt F))
    (hb : ∀ q : S9216.Idx, ((after ops V (main_v20 : DevRef τ sig) : IVec S9216 32) q).toNat ≤ 9217) (p : Fin 9216) :
    I5 V (ix2 p (1 : Fin 5)) = (after ops V (main_v20 : DevRef τ sig) : IVec S9216 32) (ix1 p) := by
  show (after ops V (main_v68 : DevRef τ sig) : IVec S9216x5 32) (ix2 p (1 : Fin 5)) = _
  rw [val_main_v68 V, concat5_col1, val_main_v64 V, bcast_col, at_main_v45 V (ix1 p)]
  exact (slotWrap _ (hb _)).1

/-- The third column is zero: the plane of a pixel. -/
theorem col2 (V : Valuation τ sig (Elt F)) (p : Fin 9216) : I5 V (ix2 p (2 : Fin 5)) = 0#32 := by
  show (after ops V (main_v68 : DevRef τ sig) : IVec S9216x5 32) (ix2 p (2 : Fin 5)) = 0#32
  rw [val_main_v68 V, concat5_col2, val_main_v65 V, bcast_col, at_planeOf V (ix1 p), at_main_v21 V p]
  exact (unravel_eq p).1

/-- The fourth column is the pixel's row. -/
theorem col3 (V : Valuation τ sig (Elt F)) (p : Fin 9216) :
    I5 V (ix2 p (3 : Fin 5)) = BitVec.ofNat 32 (p.val / 96) := by
  show (after ops V (main_v68 : DevRef τ sig) : IVec S9216x5 32) (ix2 p (3 : Fin 5)) = _
  rw [val_main_v68 V, concat5_col3, val_main_v66 V, bcast_col, at_rowOf V (ix1 p), at_main_v21 V p]
  exact (unravel_eq p).2.1

/-- The fifth column is the pixel's column. -/
theorem col4 (V : Valuation τ sig (Elt F)) (p : Fin 9216) :
    I5 V (ix2 p (4 : Fin 5)) = BitVec.ofNat 32 (p.val % 96) := by
  show (after ops V (main_v68 : DevRef τ sig) : IVec S9216x5 32) (ix2 p (4 : Fin 5)) = _
  rw [val_main_v68 V, concat5_col4, val_main_v67 V, bcast_col, at_colOf V (ix1 p), at_main_v21 V p]
  exact (unravel_eq p).2.2

end Cert.ReferenceIdeal.HandRun
-- ==== Proof.RefScatterIdx.lean ====
/-
  Where the reference's two scatters land.

  A scatter's update index lands at the operand index whose coordinate on every axis is the start read off the
  scatter indices plus the window coordinate, when that is inside the operand. For the scatter of one 1×96×96 window
  at a two-component start, the landing index has the two start components on the first two axes and the window's
  coordinates on the last three; for the scatter of 9216 scalars at five-component starts, the landing index of update
  `p` is the five components of row `p` of the indices.
-/
import proofs.«118784_j19104014532646_2_alg».proof.Proof.Gen.ReferenceIdeal
import Idealize.ShloMosaic.Lib.ValueIdx

namespace Cert.ReferenceIdeal.ScatterIdx
open Idealize.ShloMosaic Idealize.ShloMosaic.ValueIdx Cert.ReferenceIdeal

/-- An update index lands at `i` exactly when on every operand axis the start plus the window coordinate is `i`'s
    coordinate (which is then inside the operand, being a coordinate). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  next h =>
    constructor
    · intro e a
      have e' := Option.some.inj e
      have := congrArg (fun f => ((f a).val : Int)) e'
      simp only [Int.toNat_of_nonneg (h a).1] at this
      exact this
    · intro h'
      congr 1
      funext a
      apply Fin.ext
      show (d.start j idx a + (d.window j a : Int)).toNat = (i a).val
      rw [h' a]
      exact Int.toNat_natCast _
  next h =>
    constructor
    · intro e; cases e
    · intro h'
      exfalso
      apply h
      intro a
      have := (i a).isLt
      rw [h' a]
      omega

/-- The scatter of one window at a two-component start. -/
abbrev d1 : ScatterDims S1x9217x1x96x96 S2 S1x96x96 := scatter_S1x9217x1x96x96_S2_S1x96x96_012_01_01_0
/-- The scatter of 9216 scalars at five-component starts. -/
abbrev d2 : ScatterDims S1x9217x1x96x96 S9216x5 S9216 := scatter_S1x9217x1x96x96_S9216x5_S9216_n_01234_01234_1

theorem d2_window (p : Fin 9216) (a : Fin 5) : d2.window (ix1 p) a = 0 := by
  unfold ScatterDims.window
  exact dif_neg (by revert a; decide)

theorem d2_start {w : Nat} (idx : IVec S9216x5 w) (p : Fin 9216) (a : Fin 5) :
    d2.start (ix1 p) idx a = (idx (ix2 p a)).toInt := by
  unfold ScatterDims.start
  rw [dif_pos (by revert a; decide)]
  congr 2
  funext b
  match a, b with
  | ⟨0, _⟩, ⟨0, _⟩ => exact Fin.ext rfl
  | ⟨1, _⟩, ⟨0, _⟩ => exact Fin.ext rfl
  | ⟨2, _⟩, ⟨0, _⟩ => exact Fin.ext rfl
  | ⟨3, _⟩, ⟨0, _⟩ => exact Fin.ext rfl
  | ⟨4, _⟩, ⟨0, _⟩ => exact Fin.ext rfl
  | ⟨0, _⟩, ⟨1, _⟩ => exact Fin.ext rfl
  | ⟨1, _⟩, ⟨1, _⟩ => exact Fin.ext rfl
  | ⟨2, _⟩, ⟨1, _⟩ => exact Fin.ext rfl
  | ⟨3, _⟩, ⟨1, _⟩ => exact Fin.ext rfl
  | ⟨4, _⟩, ⟨1, _⟩ => exact Fin.ext rfl

/-- Update `p` of the scalar scatter lands at `j` exactly when row `p` of the indices, read signed, is `j`. -/
theorem resultIdx2_eq_some_iff {w : Nat} (idx : IVec S9216x5 w) (p : Fin 9216) (j : S1x9217x1x96x96.Idx) :
    d2.resultIdx? (ix1 p) idx = some j ↔ ∀ a : Fin 5, (idx (ix2 p a)).toInt = ((j a).val : Int) := by
  rw [resultIdx?_eq_some_iff]
  refine forall_congr' fun a => ?_
  rw [d2_start, d2_window]
  simp

section One
variable {w : Nat} (idx : IVec S2 w) (u : S1x96x96.Idx)

theorem d1_start0 : d1.start u idx 0 = (idx (ix1 (0 : Fin 2))).toInt := by
  unfold ScatterDims.start
  rw [dif_pos (by decide)]
  congr 2
  funext b
  match b with
  | ⟨0, _⟩ => exact Fin.ext rfl
theorem d1_start1 : d1.start u idx 1 = (idx (ix1 (1 : Fin 2))).toInt := by
  unfold ScatterDims.start
  rw [dif_pos (by decide)]
  congr 2
  funext b
  match b with
  | ⟨0, _⟩ => exact Fin.ext rfl
theorem d1_start2 : d1.start u idx 2 = 0 := by unfold ScatterDims.start; exact dif_neg (by decide)
theorem d1_start3 : d1.start u idx 3 = 0 := by unfold ScatterDims.start; exact dif_neg (by decide)
theorem d1_start4 : d1.start u idx 4 = 0 := by unfold ScatterDims.start; exact dif_neg (by decide)
theorem d1_window0 : d1.window u 0 = 0 := by unfold ScatterDims.window; exact dif_neg (by decide)
theorem d1_window1 : d1.window u 1 = 0 := by unfold ScatterDims.window; exact dif_neg (by decide)
theorem d1_window2 : d1.window u 2 = (u 0).val := by unfold ScatterDims.window; rw [dif_pos (by decide)]; rfl
theorem d1_window3 : d1.window u 3 = (u 1).val := by unfold ScatterDims.window; rw [dif_pos (by decide)]; rfl
theorem d1_window4 : d1.window u 4 = (u 2).val := by unfold ScatterDims.window; rw [dif_pos (by decide)]; rfl

/-- Window index `u` of the one-window scatter lands at `j` exactly when the two start components, read signed, are
    `j`'s first two coordinates and `u`'s coordinates are `j`'s last three. -/
theorem resultIdx1_eq_some_iff (j : S1x9217x1x96x96.Idx) :
    d1.resultIdx? u idx = some j ↔
      (idx (ix1 (0 : Fin 2))).toInt = ((j 0).val : Int) ∧ (idx (ix1 (1 : Fin 2))).toInt = ((j 1).val : Int) ∧
        (j 2).val = (u 0).val ∧ (j 3).val = (u 1).val ∧ (j 4).val = (u 2).val := by
  rw [resultIdx?_eq_some_iff]
  constructor
  · intro h
    have h0 := h 0; have h1 := h 1; have h2 := h 2; have h3 := h 3; have h4 := h 4
    rw [d1_start0, d1_window0] at h0
    rw [d1_start1, d1_window1] at h1
    rw [d1_start2, d1_window2] at h2
    rw [d1_start3, d1_window3] at h3
    rw [d1_start4, d1_window4] at h4
    refine ⟨by simpa using h0, by simpa using h1, ?_, ?_, ?_⟩ <;> omega
  · rintro ⟨h0, h1, h2, h3, h4⟩ a
    match a with
    | ⟨0, _⟩ => show d1.start u idx 0 + (d1.window u 0 : Int) = _; rw [d1_start0, d1_window0]; simpa using h0
    | ⟨1, _⟩ => show d1.start u idx 1 + (d1.window u 1 : Int) = _; rw [d1_start1, d1_window1]; simpa using h1
    | ⟨2, _⟩ => show d1.start u idx 2 + (d1.window u 2 : Int) = ((j 2).val : Int); rw [d1_start2, d1_window2]; omega
    | ⟨3, _⟩ => show d1.start u idx 3 + (d1.window u 3 : Int) = ((j 3).val : Int); rw [d1_start3, d1_window3]; omega
    | ⟨4, _⟩ => show d1.start u idx 4 + (d1.window u 4 : Int) = ((j 4).val : Int); rw [d1_start4, d1_window4]; omega

end One

end Cert.ReferenceIdeal.ScatterIdx
-- ==== Proof.LibScatterSet.lean ====
/-
  Reading a scatter whose body returns the update, at one operand index.

`Host.scatter` is a left fold over the update indices in row-major order, each step overwriting the operand
element at the update's result index. When the body returns the update, the folded function at an operand index
`i` is the update at the ONLY update index landing on `i`, and the operand's own element when no update index
lands on `i`. Both follow from one fact about a left fold over an arbitrary list whose step changes the
accumulator at `i` exactly at the list elements sent to `i`. -/
import Idealize.ShloMosaic.PureOps.Contract

namespace Cert.LibScatterSet
open Idealize.ShloMosaic

section Fold
variable {ι β κ : Type}

/-- A left fold whose step leaves the accumulator's value at `i` alone at every list element not sent to `i`
    keeps the initial value at `i` when no list element is sent to `i`. -/
theorem foldl_apply_of_none (g : ι → Option κ) (step : (κ → β) → ι → κ → β) (i : κ)
    (hmiss : ∀ r n, g n ≠ some i → step r n i = r i) :
    ∀ (l : List ι) (r0 : κ → β), (∀ n ∈ l, g n ≠ some i) → (l.foldl step r0) i = r0 i
  | [], _, _ => rfl
  | a :: l, r0, h => by
      rw [List.foldl_cons, foldl_apply_of_none g step i hmiss l (step r0 a) fun n hn => h n (List.mem_cons_of_mem a hn)]
      exact hmiss r0 a (h a List.mem_cons_self)

/-- A left fold whose step writes `v n` at `i` at every list element `n` sent to `i`, and leaves the value at
    `i` alone at the others, ends with `v n0` at `i` when `n0` is the only list element sent to `i` (or none is
    and the initial value at `i` is already `v n0`). -/
theorem foldl_apply_of_unique (g : ι → Option κ) (v : ι → β) (step : (κ → β) → ι → κ → β) (i : κ) (n0 : ι)
    (hhit : ∀ r n, g n = some i → step r n i = v n) (hmiss : ∀ r n, g n ≠ some i → step r n i = r i) :
    ∀ (l : List ι) (r0 : κ → β), (∀ n ∈ l, g n = some i → n = n0) →
      (r0 i = v n0 ∨ (n0 ∈ l ∧ g n0 = some i)) → (l.foldl step r0) i = v n0
  | [], r0, _, h => by
      rcases h with h | ⟨h, _⟩
      · exact h
      · exact absurd h List.not_mem_nil
  | a :: l, r0, hu, h => by
      rw [List.foldl_cons]
      refine foldl_apply_of_unique g v step i n0 hhit hmiss l (step r0 a)
        (fun n hn => hu n (List.mem_cons_of_mem a hn)) ?_
      by_cases ha : g a = some i
      · left
        rw [hhit r0 a ha, hu a List.mem_cons_self ha]
      · rw [hmiss r0 a ha]
        rcases h with h | ⟨hm, hg⟩
        · exact Or.inl h
        · rcases List.mem_cons.1 hm with rfl | hm
          · exact absurd hg ha
          · exact Or.inr ⟨hm, hg⟩

end Fold

variable {s si u : Shape} {w : Nat} {α : Type}

/-- The scatter whose body returns the update, read at an operand index `i` that exactly one update index `j0`
    lands on: the update's element at `j0`. -/
theorem scatter_set_apply_of_unique (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  have key := foldl_apply_of_unique (fun n => d.resultIdx? (u.rowMajor.symm n) idx)
    (fun n => upd (u.rowMajor.symm n))
    (fun r n =>
      match d.resultIdx? (u.rowMajor.symm n) idx with
      | some k => fun i' => if i' = k then (fun _ b => b) (r k) (upd (u.rowMajor.symm n)) else r i'
      | none => r)
    i (u.rowMajor j0)
    (fun r n hn => by simp only [hn, if_true])
    (fun r n hn => by
      cases hk : d.resultIdx? (u.rowMajor.symm n) idx with
      | none => rfl
      | some k =>
        have hne : i ≠ k := fun e => hn (by rw [hk, e])
        simp only [if_neg hne])
    (List.finRange u.numel) x
    (fun n _ hn => by
      have := huniq _ hn
      rw [← this, Equiv.apply_symm_apply])
    (Or.inr ⟨List.mem_finRange _, by simpa using h0⟩)
  rw [Equiv.symm_apply_apply] at key
  exact key

/-- The scatter whose body returns the update, read at an operand index `i` no update index lands on: the
    operand's element. -/
theorem scatter_set_apply_of_none (d : ScatterDims s si u) (x : s.Idx → α) (idx : IVec si w) (upd : u.Idx → α)
    (i : s.Idx) (hnone : ∀ j, d.resultIdx? j idx ≠ some i) :
    Host.scatter d (fun _ b => b) x idx upd i = x i := by
  unfold Host.scatter
  exact foldl_apply_of_none (fun n => d.resultIdx? (u.rowMajor.symm n) idx)
    (fun r n =>
      match d.resultIdx? (u.rowMajor.symm n) idx with
      | some k => fun i' => if i' = k then (fun _ b => b) (r k) (upd (u.rowMajor.symm n)) else r i'
      | none => r)
    i
    (fun r n hn => by
      cases hk : d.resultIdx? (u.rowMajor.symm n) idx with
      | none => rfl
      | some k =>
        have hne : i ≠ k := fun e => hn (by rw [hk, e])
        simp only [if_neg hne])
    (List.finRange u.numel) x (fun n _ => hnone _)

end Cert.LibScatterSet
-- ==== Proof.RefScatterValue.lean ====
import proofs.«118784_j19104014532646_2_alg».proof.Proof.RefScatterIdx
import proofs.«118784_j19104014532646_2_alg».proof.Proof.LibScatterSet
import proofs.«118784_j19104014532646_2_alg».proof.Proof.SpecLayout

/-! The reference's two scatters as one function. Into a zero array, the centre image is written at `(0, 0, ·, ·, ·)`;
    then pixel `p`'s error is written at `(0, slot p, 0, p / 96, p % 96)`, dropped where the slot is the out-of-range
    9217. An entry `(0, s, 0, i, k)` is hit by the second scatter only from pixel `96 i + k`, and only when that pixel's slot
    is `s`; a slot is never 0, so row 0 keeps the centre; every other entry not hit keeps the zero. That is the table. -/

noncomputable section

open Idealize.ShloMosaic Idealize.ShloMosaic.ValueIdx

namespace Cert.ReferenceIdeal.ScatterValue
open Cert.ReferenceIdeal Cert.ReferenceIdeal.ScatterIdx Cert.Zono Cert.LibScatterSet
variable {F : FTy → Type} [FloatOps F]

/-- A word below 2³¹ reads signed as itself. -/
theorem toInt_small (v : BitVec 32) (h : v.toNat < 2147483648) : v.toInt = (v.toNat : Int) := by
  rw [BitVec.toInt_eq_toNat_cond]
  rw [if_pos (by omega)]

theorem toInt_ofNat_small (n : Nat) (h : n < 9216) : (BitVec.ofNat 32 n).toInt = (n : Int) := by
  have e : (BitVec.ofNat 32 n).toNat = n := by rw [BitVec.toNat_ofNat]; omega
  rw [toInt_small _ (by rw [e]; omega), e]

theorem toInt_zero : (0#32 : BitVec 32).toInt = 0 := by decide

/-- The two scatters, over any index arrays that hold what the program computes, give the result. -/
theorem two_scatters (x : FVec F S4 .f32)
    (Z : S1x9217x1x96x96.Idx → F .f32) (hZ : ∀ j, Z j = Scalar.ofBits .f32 0x00000000#32)
    (I2 : IVec S2 32) (hI2 : ∀ k, I2 k = 0#32)
    (U3 : S1x96x96.Idx → F .f32) (h43 : S4.ShapeCasts S3) (hU3 : U3 = shapeCast S3 (bias4 x) h43)
    (I5 : IVec S9216x5 32)
    (h0 : ∀ p : Fin 9216, I5 (ix2 p (0 : Fin 5)) = 0#32) (h1 : ∀ p : Fin 9216, I5 (ix2 p (1 : Fin 5)) = errIdx x (ix1 p))
    (h2 : ∀ p : Fin 9216, I5 (ix2 p (2 : Fin 5)) = 0#32)
    (h3 : ∀ p : Fin 9216, I5 (ix2 p (3 : Fin 5)) = BitVec.ofNat 32 (p.val / 96))
    (h4 : ∀ p : Fin 9216, I5 (ix2 p (4 : Fin 5)) = BitVec.ofNat 32 (p.val % 96))
    (U : S9216.Idx → F .f32) (hU : U = ef x) :
    Host.scatter d2 (fun _ b => b) (Host.scatter d1 (fun _ b => b) Z I2 U3) I5 U = G5 x := by
  funext j
  have hj0 : (j 0).val < 1 := (j 0).isLt
  have hj1 : (j 1).val < 9217 := (j 1).isLt
  have hj2 : (j 2).val < 1 := (j 2).isLt
  have hj3 : (j 3).val < 96 := (j 3).isLt
  have hj4 : (j 4).val < 96 := (j 4).isLt
  -- which pixels the second scatter sends to `j`
  have key : ∀ p' : Fin 9216, d2.resultIdx? (ix1 p') I5 = some j
      ↔ (p' = pix j ∧ (errIdx x (ix1 p')).toNat = (j 1).val) := by
    intro p'
    have hb := errIdx_bounds x (ix1 p')
    have hp' := p'.isLt
    rw [resultIdx2_eq_some_iff]
    constructor
    · intro h
      have a1 := h 1; have a3 := h 3; have a4 := h 4
      rw [h1, toInt_small _ (by omega)] at a1
      rw [h3, toInt_ofNat_small _ (by omega)] at a3
      rw [h4, toInt_ofNat_small _ (by omega)] at a4
      refine ⟨Fin.ext ?_, by omega⟩
      rw [pix_val]; omega
    · rintro ⟨rfl, he⟩
      have a0 : (I5 (ix2 (pix j) (0 : Fin 5))).toInt = (((j 0).val : Nat) : Int) := by rw [h0, toInt_zero]; omega
      have a1 : (I5 (ix2 (pix j) (1 : Fin 5))).toInt = (((j 1).val : Nat) : Int) := by
        rw [h1, toInt_small _ (by omega)]; omega
      have a2 : (I5 (ix2 (pix j) (2 : Fin 5))).toInt = (((j 2).val : Nat) : Int) := by rw [h2, toInt_zero]; omega
      have a3 : (I5 (ix2 (pix j) (3 : Fin 5))).toInt = (((j 3).val : Nat) : Int) := by
        rw [h3, toInt_ofNat_small _ (by omega), pix_val]; omega
      have a4 : (I5 (ix2 (pix j) (4 : Fin 5))).toInt = (((j 4).val : Nat) : Int) := by
        rw [h4, toInt_ofNat_small _ (by omega), pix_val]; omega
      intro a
      match a with
      | ⟨0, _⟩ => exact a0
      | ⟨1, _⟩ => exact a1
      | ⟨2, _⟩ => exact a2
      | ⟨3, _⟩ => exact a3
      | ⟨4, _⟩ => exact a4
  have hb := errIdx_bounds x (ix1 (pix j))
  show _ = (if (j 1).val = 0 then shapeCast SN (bias4 x) sc4N (ix1 (pix j))
    else if (errIdx x (ix1 (pix j))).toNat = (j 1).val then ef x (ix1 (pix j)) else Scalar.ofBits .f32 0x00000000#32)
  by_cases he : (errIdx x (ix1 (pix j))).toNat = (j 1).val
  · -- pixel `pix j`, and only it, lands on `j`
    rw [scatter_set_apply_of_unique d2 _ I5 U j (ix1 (pix j)) ((key (pix j)).mpr ⟨rfl, he⟩)
      (fun u hu => by
        have hu' : d2.resultIdx? (ix1 (u 0)) I5 = some j :=
          (congrArg (fun v => d2.resultIdx? v I5) (eq_ix1 u)).symm.trans hu
        exact (eq_ix1 u).trans (congrArg ix1 ((key (u 0)).mp hu').1))]
    rw [if_neg (by omega), if_pos he, hU]
  · -- nothing lands on `j`: the first scatter's value stays
    rw [scatter_set_apply_of_none d2 _ I5 U j
      (fun u hu => by
        have hu' : d2.resultIdx? (ix1 (u 0)) I5 = some j :=
          (congrArg (fun v => d2.resultIdx? v I5) (eq_ix1 u)).symm.trans hu
        have := (key (u 0)).mp hu'
        exact he (by rw [← this.1]; exact this.2))]
    rw [if_neg he]
    by_cases hs : (j 1).val = 0
    · rw [if_pos hs]
      have hland : ∀ u : S1x96x96.Idx, d1.resultIdx? u I2 = some j ↔ u = ix3 (j 2) (j 3) (j 4) := by
        intro u
        rw [resultIdx1_eq_some_iff, hI2, hI2, toInt_zero]
        constructor
        · rintro ⟨-, -, e2, e3, e4⟩
          rw [eq_ix3 u]
          congr 1 <;> exact Fin.ext (by omega)
        · rintro rfl
          exact ⟨by omega, by omega, rfl, rfl, rfl⟩
      rw [scatter_set_apply_of_unique d1 Z I2 U3 j (ix3 (j 2) (j 3) (j 4)) ((hland _).mpr rfl) (fun u hu => (hland u).mp hu),
        hU3]
      exact bias_two_ways x j h43
    · rw [if_neg hs]
      rw [scatter_set_apply_of_none d1 Z I2 U3 j (fun u hu => by
        rw [resultIdx1_eq_some_iff, hI2, hI2, toInt_zero] at hu
        exact hs (by omega)), hZ]

end Cert.ReferenceIdeal.ScatterValue
end
-- ==== Proof.RefValue.lean ====
import proofs.«118784_j19104014532646_2_alg».proof.Proof.RefStages
import proofs.«118784_j19104014532646_2_alg».proof.Proof.RefHead
import proofs.«118784_j19104014532646_2_alg».proof.Proof.RefColumns
import proofs.«118784_j19104014532646_2_alg».proof.Proof.RefScatterValue
import Idealize.ShloMosaic.Lib.StableHlo.Run

/-! The reference's run, read: its result is the two scatters applied to the zero array, with the centre image, the
    index columns `(0, slot p, 0, p / 96, p % 96)` and the errors — which is the result `G5` of the argument image; the
    argument is left unchanged. -/

noncomputable section

open Idealize.ShloMosaic Idealize.ShloMosaic.TcCoe Idealize.SL.Sem Idealize.ShloMosaic.ValueIdx Idealize.ShloMosaic.StableHlo

namespace Cert.ReferenceIdeal.RefValue
open Cert.ReferenceIdeal Cert.ReferenceIdeal.Gen Cert.ReferenceIdeal.HandRun Cert.Zono
variable {F : FTy → Type} [FloatOps F]

/-- The result buffer after the program's operations, as a function of the argument buffer. -/
theorem result_eq (V : Valuation τ sig (Elt F)) :
    after ops V (main_v69 : DevRef τ sig) = G5 (V (main_arg0 : DevRef τ sig)) := by
  have hb : ∀ q : S9216.Idx, ((after ops V (main_v20 : DevRef τ sig) : IVec S9216 32) q).toNat ≤ 9217 := fun q => by
    rw [head_v20]; exact (errIdx_bounds _ q).2
  rw [val_main_v69, val_main_v40]
  exact Cert.ReferenceIdeal.ScatterValue.two_scatters (V (main_arg0 : DevRef τ sig))
    _ (head_v35 V) _ (head_v39 V) _ Gen.shapeCasts_S1x1x96x96_S1x96x96 (head_v36 V)
    _ (col0 V) (fun p => (col1 V hb p).trans (congrFun (head_v20 V) (ix1 p))) (col2 V) (col3 V) (col4 V)
    _ (head_v15 V)

/-- Every weakly fair execution of the reference ends with its result at `G5` of the argument image and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = G5 (m ((c.tc : Thread nD τ).loc main_arg0))
      ∧ r.2.mem ((c.tc : Thread nD τ).loc main_arg0) = m ((c.tc : Thread nD τ).loc main_arg0) :=
  (θ_run defs _ _).mono (fun _ h c => ⟨(h c main_v69).trans (result_eq _), (h c main_arg0).trans (val_main_arg0 _)⟩)
    (run_main m ρ)

end Cert.ReferenceIdeal.RefValue
end
-- ==== Proof.lean ====
/- Both programs build, from an image `x` of 9216 pixels, the same 1 × 9217 × 1 × 96 × 96 array: row 0 of its second axis is
   the clipped centre `x + lo − hi`, and row `s ≥ 1` holds, at pixel `p`, the clipped error `0.1 − lo − hi` of `p` if `p`'s slot
   is `s` and zero otherwise — the slot of a pixel being the running count of pixels with non-negative error up to and
   including it (the out-of-range 9217 where its own error is negative). The kernel writes the array block by block with a
   one-hot test per row and then overwrites row 0 with the centre; the reference writes the centre into a zero array
   and then scatters the errors to their slots, dropping the out-of-range ones. They agree because a slot is never 0
   (the count includes the pixel itself) and never negative as a signed word (at most 9216 ones are summed), so the
   scatter never touches row 0 and never wraps an index. No arithmetic on the extended reals is involved beyond the
   two programs applying the same operations to the same numbers, so the precondition is not used.

   The three frames: the two kernels' from their frame runs, the reference's from its run with the result dropped. The
   idealization rewrote nothing. The value claim: both runs end at `G5` of the (agreeing) argument images. -/
import proofs.«118784_j19104014532646_2_alg».proof.Defs
import proofs.«118784_j19104014532646_2_alg».proof.Proof.Gen.Kernel
import proofs.«118784_j19104014532646_2_alg».proof.Proof.Gen.Kernel.Skeleton
import proofs.«118784_j19104014532646_2_alg».proof.Proof.Gen.Kernel.Launch
import proofs.«118784_j19104014532646_2_alg».proof.Proof.Gen.Kernel.Points
import proofs.«118784_j19104014532646_2_alg».proof.Proof.Gen.Kernel.Frame
import proofs.«118784_j19104014532646_2_alg».proof.Proof.Gen.KernelIdeal
import proofs.«118784_j19104014532646_2_alg».proof.Proof.Gen.KernelIdeal.Skeleton
import proofs.«118784_j19104014532646_2_alg».proof.Proof.Gen.KernelIdeal.Launch
import proofs.«118784_j19104014532646_2_alg».proof.Proof.Gen.KernelIdeal.Points
import proofs.«118784_j19104014532646_2_alg».proof.Proof.Gen.KernelIdeal.Frame
import proofs.«118784_j19104014532646_2_alg».proof.Proof.Gen.ReferenceIdeal
import proofs.«118784_j19104014532646_2_alg».proof.Proof.Gen.Pre_finite_inputs
import proofs.«118784_j19104014532646_2_alg».proof.Proof.KernelRun
import proofs.«118784_j19104014532646_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end at the same function of argument images that agree. -/
theorem algebraic : Cert.algebraic_KernelIdeal_ReferenceIdeal := by
  intro m ρ m' ρ' _ hagree
  refine ⟨_, Cert.KernelIdeal.ZValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
